-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) (main_arg10 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x4096 .f32) (main_arg2 : FVec F S4096x4096 .f32) (main_arg3 : FVec F S4096x4096 .f32) (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩
abbrev S512x1024 : Shape := ⟨2, ![512, 1024]⟩
abbrev S4096x8x128 : Shape := ⟨3, ![4096, 8, 128]⟩
abbrev S8x4096x128 : Shape := ⟨3, ![8, 4096, 128]⟩
abbrev S_ : Shape := ⟨0, ![]⟩
abbrev S4096 : Shape := ⟨1, ![4096]⟩
abbrev S4096x1 : Shape := ⟨2, ![4096, 1]⟩
abbrev S8x512x128 : Shape := ⟨3, ![8, 512, 128]⟩
abbrev S512x512 : Shape := ⟨2, ![512, 512]⟩
abbrev S1x512x128 : Shape := ⟨3, ![1, 512, 128]⟩
abbrev S512x128 : Shape := ⟨2, ![512, 128]⟩
abbrev S128x512 : Shape := ⟨2, ![128, 512]⟩
abbrev S1x1024 : Shape := ⟨2, ![1, 1024]⟩

abbrev nBuf : Space → Nat
  | .hbm => 104
  | .vmem => 37
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4096x1024, .bf16⟩
  | .hbm, ⟨12, _⟩ => ⟨S1024x1024, .bf16⟩
  | .hbm, ⟨13, _⟩ => ⟨S4096x1024, .f32⟩
  | .hbm, ⟨14, _⟩ => ⟨S1024x1024, .bf16⟩
  | .hbm, ⟨15, _⟩ => ⟨S4096x1024, .f32⟩
  | .hbm, ⟨16, _⟩ => ⟨S1024x1024, .bf16⟩
  | .hbm, ⟨17, _⟩ => ⟨S4096x1024, .f32⟩
  | .hbm, ⟨18, _⟩ => ⟨S4096x8x128, .f32⟩
  | .hbm, ⟨19, _⟩ => ⟨S8x4096x128, .f32⟩
  | .hbm, ⟨20, _⟩ => ⟨S8x4096x128, .bf16⟩
  | .hbm, ⟨21, _⟩ => ⟨S4096x8x128, .f32⟩
  | .hbm, ⟨22, _⟩ => ⟨S8x4096x128, .f32⟩
  | .hbm, ⟨23, _⟩ => ⟨S8x4096x128, .bf16⟩
  | .hbm, ⟨24, _⟩ => ⟨S4096x8x128, .f32⟩
  | .hbm, ⟨25, _⟩ => ⟨S8x4096x128, .f32⟩
  | .hbm, ⟨26, _⟩ => ⟨S8x4096x128, .bf16⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096x4096, .f32⟩
  | .hbm, ⟨63, _⟩ => ⟨S4096x4096, .f32⟩
  | .hbm, ⟨64, _⟩ => ⟨S8x4096x128, .f32⟩
  | .hbm, ⟨65, _⟩ => ⟨S4096x4096, .f32⟩
  | .hbm, ⟨66, _⟩ => ⟨S4096x8x128, .f32⟩
  | .hbm, ⟨67, _⟩ => ⟨S4096x1024, .f32⟩
  | .hbm, ⟨68, _⟩ => ⟨S4096x1024, .bf16⟩
  | .hbm, ⟨69, _⟩ => ⟨S1024x1024, .bf16⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S1x1024, .f32⟩
  | .hbm, ⟨99, _⟩ => ⟨S4096x1024, .f32⟩
  | .hbm, ⟨100, _⟩ => ⟨S4096x1024, .f32⟩
  | .hbm, ⟨101, _⟩ => ⟨S1x1024, .f32⟩
  | .hbm, ⟨102, _⟩ => ⟨S4096x1024, .f32⟩
  | .hbm, ⟨103, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S8x512x128, .bf16⟩
  | .local _ .vmem, ⟨16, _⟩ => ⟨S8x512x128, .bf16⟩
  | .local _ .vmem, ⟨17, _⟩ => ⟨S8x512x128, .bf16⟩
  | .local _ .vmem, ⟨18, _⟩ => ⟨S8x512x128, .bf16⟩
  | .local _ .vmem, ⟨19, _⟩ => ⟨S8x512x128, .bf16⟩
  | .local _ .vmem, ⟨20, _⟩ => ⟨S8x512x128, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S8x512x128, .f32⟩
  | .local _ .vmem, ⟨28, _⟩ => ⟨S8x512x128, .f32⟩
  | .local _ .vmem, ⟨29, _⟩ => ⟨S512x512, .f32⟩
  | .local _ .vmem, ⟨30, _⟩ => ⟨S512x512, .f32⟩
  | .local _ .vmem, ⟨31, _⟩ => ⟨S8x512x128, .f32⟩
  | .local _ .vmem, ⟨32, _⟩ => ⟨S512x1024, .bf16⟩
  | .local _ .vmem, ⟨33, _⟩ => ⟨S512x1024, .bf16⟩
  | .local _ .vmem, ⟨34, _⟩ => ⟨S1024x1024, .bf16⟩
  | .local _ .vmem, ⟨35, _⟩ => ⟨S512x1024, .f32⟩
  | .local _ .vmem, ⟨36, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44_0 : Ref sig .tc := ⟨.hbm, 64, rfl⟩
abbrev main_v44_1 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg6_1 : Ref sig .tc := ⟨.vmem, 28, rfl⟩
abbrev cc3_stg7_0 : Ref sig .tc := ⟨.vmem, 29, rfl⟩
abbrev cc3_stg7_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc3_sem6_0 : DmaSem sig := 27
abbrev cc3_sem6_1 : DmaSem sig := 28
abbrev cc3_sem7_0 : DmaSem sig := 29
abbrev cc3_sem7_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v171 : BitVec 1 := Scalar.cmpi .eq arg1 c7_i32
  let v172 : BitVec 32 := Scalar.extui v171
  let c0_i32_146 : BitVec 32 := 0#32
  let v173 : BitVec 1 := Scalar.cmpi .ne v172 c0_i32_146
  v173

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S8x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S8x512x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S8x512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S8x512x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S512x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S4096x8x128 : S4096x1024.ShapeCasts S4096x8x128
  transposes_S4096x8x128_S8x4096x128_1_0_2 : S4096x8x128.Transposes [1, 0, 2] S8x4096x128
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  inb_S8x512x128_S8x512x128_0_0_0 : ∀ a, (![0, 0, 0] : Fin 3 → Nat) a + S8x512x128.size a ≤ S8x512x128.size a
  h_S8x512x128 : 0 < S8x512x128.numel
  shapeCasts_S8x512x128_S8x512x128 : S8x512x128.ShapeCasts S8x512x128
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S8x512x128_S1x512x128_0_0_0 : ∀ a, (![0, 0, 0] : Fin 3 → Nat) a + S1x512x128.size a ≤ S8x512x128.size a
  h_S1x512x128 : 0 < S1x512x128.numel
  shapeCasts_S1x512x128_S512x128 : S1x512x128.ShapeCasts S512x128
  transposes_S512x128_p1_0_S128x512 : S512x128.Transposes [1, 0] S128x512
  shapeCasts_S512x128_S1x512x128 : S512x128.ShapeCasts S1x512x128
  inb_S8x512x128_S1x512x128_1_0_0 : ∀ a, (![1, 0, 0] : Fin 3 → Nat) a + S1x512x128.size a ≤ S8x512x128.size a
  inb_S8x512x128_S1x512x128_2_0_0 : ∀ a, (![2, 0, 0] : Fin 3 → Nat) a + S1x512x128.size a ≤ S8x512x128.size a
  inb_S8x512x128_S1x512x128_3_0_0 : ∀ a, (![3, 0, 0] : Fin 3 → Nat) a + S1x512x128.size a ≤ S8x512x128.size a
  inb_S8x512x128_S1x512x128_4_0_0 : ∀ a, (![4, 0, 0] : Fin 3 → Nat) a + S1x512x128.size a ≤ S8x512x128.size a
  inb_S8x512x128_S1x512x128_5_0_0 : ∀ a, (![5, 0, 0] : Fin 3 → Nat) a + S1x512x128.size a ≤ S8x512x128.size a
  inb_S8x512x128_S1x512x128_6_0_0 : ∀ a, (![6, 0, 0] : Fin 3 → Nat) a + S1x512x128.size a ≤ S8x512x128.size a
  inb_S8x512x128_S1x512x128_7_0_0 : ∀ a, (![7, 0, 0] : Fin 3 → Nat) a + S1x512x128.size a ≤ S8x512x128.size a
  transposes_S8x4096x128_S4096x8x128_1_0_2 : S8x4096x128.Transposes [1, 0, 2] S4096x8x128
  shapeCasts_S4096x8x128_S4096x1024 : S4096x8x128.ShapeCasts S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S4096x1024_S4096_d1 : S4096x1024.ReducesTo [1] S4096
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  dot_S512x1024_S1024x1024_S512x1024_1_0_0_1_n_n_wf : DotDims.WF S512x1024 S1024x1024 S512x1024 [1] [0] [0] [1] [] []
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .f32 = 32 ∨ (Rect.block (s := S4096x1024) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x512x128.size a ≤ S8x4096x128.size a
  hwx3_0 : ∀ i : grid3.Coords, EltTy.bits .bf16 = 32 ∨ (Rect.block (s := S8x4096x128) S8x512x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x512x128.size a ≤ S8x4096x128.size a
  hwx3_1 : ∀ i : grid3.Coords, EltTy.bits .bf16 = 32 ∨ (Rect.block (s := S8x4096x128) S8x512x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x512x128.size a ≤ S8x4096x128.size a
  hwx3_2 : ∀ i : grid3.Coords, EltTy.bits .bf16 = 32 ∨ (Rect.block (s := S8x4096x128) S8x512x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S4096x4096.size a
  hwx3_3 : ∀ i : grid3.Coords, EltTy.bits .f32 = 32 ∨ (Rect.block (s := S4096x4096) S512x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S4096x4096.size a
  hwx3_4 : ∀ i : grid3.Coords, EltTy.bits .f32 = 32 ∨ (Rect.block (s := S4096x4096) S512x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S4096x4096.size a
  hwx3_5 : ∀ i : grid3.Coords, EltTy.bits .f32 = 32 ∨ (Rect.block (s := S4096x4096) S512x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8x512x128.size a ≤ S8x4096x128.size a
  hwx3_6 : ∀ i : grid3.Coords, EltTy.bits .f32 = 32 ∨ (Rect.block (s := S8x4096x128) S8x512x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x512.size a ≤ S4096x4096.size a
  hwx3_7 : ∀ i : grid3.Coords, EltTy.bits .f32 = 32 ∨ (Rect.block (s := S4096x4096) S512x512.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S4096x1024.size a
  hwx4_2 : ∀ i : grid4.Coords, EltTy.bits .f32 = 32 ∨ (Rect.block (s := S4096x1024) S512x1024.size (cc4_transform_2 i) (hinb4_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S8x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S8x512x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S8x512x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S512x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v30) S512x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v43) S512x512.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v44_0) S8x512x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v44_1) S512x512.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun i => !(k3_cond2 i == 1#1) | 7 => fun _ => false | ⟨_ + 8, h⟩ => absurd h (Nat.not_lt.2 (Nat.le_add_left _ _))

abbrev win4_0 : Pipeline.Window sig grid4 :=
  Pipeline.Window.ofSpec (Memref.whole main_v47) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S512x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1 : Shape := ⟨1, ![1]⟩
abbrev S1x1024 : Shape := ⟨2, ![1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4096x1024, .f32⟩
  | .hbm, ⟨12, _⟩ => ⟨S4096x8x128, .f32⟩
  | .hbm, ⟨13, _⟩ => ⟨S8x4096x128, .f32⟩
  | .hbm, ⟨14, _⟩ => ⟨S4096x1024, .f32⟩
  | .hbm, ⟨15, _⟩ => ⟨S4096x8x128, .f32⟩
  | .hbm, ⟨16, _⟩ => ⟨S8x4096x128, .f32⟩
  | .hbm, ⟨17, _⟩ => ⟨S4096x1024, .f32⟩
  | .hbm, ⟨18, _⟩ => ⟨S4096x8x128, .f32⟩
  | .hbm, ⟨19, _⟩ => ⟨S8x4096x128, .f32⟩
  | .hbm, ⟨20, _⟩ => ⟨S8x4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S_, .i32⟩
  | .hbm, ⟨59, _⟩ => ⟨S1, .i32⟩
  | .hbm, ⟨60, _⟩ => ⟨S8x4096x4096, .f32⟩
  | .hbm, ⟨61, _⟩ => ⟨S_, .i32⟩
  | .hbm, ⟨62, _⟩ => ⟨S1, .i32⟩
  | .hbm, ⟨63, _⟩ => ⟨S8x4096x4096, .f32⟩
  | .hbm, ⟨64, _⟩ => ⟨S_, .i32⟩
  | .hbm, ⟨65, _⟩ => ⟨S1, .i32⟩
  | .hbm, ⟨66, _⟩ => ⟨S8x4096x4096, .f32⟩
  | .hbm, ⟨67, _⟩ => ⟨S_, .i32⟩
  | .hbm, ⟨68, _⟩ => ⟨S1, .i32⟩
  | .hbm, ⟨69, _⟩ => ⟨S8x4096x4096, .f32⟩
  | .hbm, ⟨70, _⟩ => ⟨S_, .i32⟩
  | .hbm, ⟨71, _⟩ => ⟨S1, .i32⟩
  | .hbm, ⟨72, _⟩ => ⟨S8x4096x4096, .f32⟩
  | .hbm, ⟨73, _⟩ => ⟨S_, .i32⟩
  | .hbm, ⟨74, _⟩ => ⟨S1, .i32⟩
  | .hbm, ⟨75, _⟩ => ⟨S8x4096x4096, .f32⟩
  | .hbm, ⟨76, _⟩ => ⟨S_, .f32⟩
  | .hbm, ⟨77, _⟩ => ⟨S8x4096x4096, .f32⟩
  | .hbm, ⟨78, _⟩ => ⟨S8x4096x4096, .f32⟩
  | .hbm, ⟨79, _⟩ => ⟨S8x4096x128, .f32⟩
  | .hbm, ⟨80, _⟩ => ⟨S_, .f32⟩
  | .hbm, ⟨81, _⟩ => ⟨S8x4096x128, .f32⟩
  | .hbm, ⟨82, _⟩ => ⟨S8x4096x128, .f32⟩
  | .hbm, ⟨83, _⟩ => ⟨S4096x8x128, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S4096x1024, .f32⟩
  | .hbm, ⟨106, _⟩ => ⟨S4096x1024, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S4096x1, .f32⟩
  | .hbm, ⟨111, _⟩ => ⟨S4096x1024, .f32⟩
  | .hbm, ⟨112, _⟩ => ⟨S4096x1024, .f32⟩
  | .hbm, ⟨113, _⟩ => ⟨S1x1024, .f32⟩
  | .hbm, ⟨114, _⟩ => ⟨S4096x1024, .f32⟩
  | .hbm, ⟨115, _⟩ => ⟨S4096x1024, .f32⟩
  | .hbm, ⟨116, _⟩ => ⟨S1x1024, .f32⟩
  | .hbm, ⟨117, _⟩ => ⟨S4096x1024, .f32⟩
  | .hbm, ⟨118, _⟩ => ⟨S4096x1024, .f32⟩
  | .hbm, ⟨119, _⟩ => ⟨S_, .f32⟩
  | .hbm, ⟨120, _⟩ => ⟨S4096x4096, .f32⟩
  | .hbm, ⟨121, _⟩ => ⟨S_, .f32⟩
  | .hbm, ⟨122, _⟩ => ⟨S4096x4096, .f32⟩
  | .hbm, ⟨123, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_c : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call0_cst : Ref sig .tc := ⟨.hbm, 80, rfl⟩
abbrev main_call0_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_16 : Ref sig .tc := ⟨.hbm, 99, rfl⟩
abbrev main_v68 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_cst_20 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]

class Facts₀ : Prop where
  shapeCasts_S4096x1024_S4096x8x128 : S4096x1024.ShapeCasts S4096x8x128
  transposes_S4096x8x128_S8x4096x128_1_0_2 : S4096x8x128.Transposes [1, 0, 2] S8x4096x128
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S1 : S_.BroadcastsInDim S1 (![] : Fin 0 → Fin S1.rank)
  bcast_S_S8x4096x4096 : S_.BroadcastsInDim S8x4096x4096 (![] : Fin 0 → Fin S8x4096x4096.rank)
  bcast_S_S8x4096x128 : S_.BroadcastsInDim S8x4096x128 (![] : Fin 0 → Fin S8x4096x128.rank)
  transposes_S8x4096x128_S4096x8x128_1_0_2 : S8x4096x128.Transposes [1, 0, 2] S4096x8x128
  shapeCasts_S4096x8x128_S4096x1024 : S4096x8x128.ShapeCasts S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S4096x1024_S4096_d1 : S4096x1024.ReducesTo [1] S4096
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  reducesTo_S8x4096x4096_S4096x4096_d0 : S8x4096x4096.ReducesTo [0] S4096x4096
  dot_S4096x1024_S1024x1024_S4096x1024_1_0_0_1_n_n_wf : DotDims.WF S4096x1024 S1024x1024 S4096x1024 [1] [0] [0] [1] [] []
  dot_S8x4096x128_S8x4096x128_S8x4096x4096_2_2_1_1_0_0_wf : DotDims.WF S8x4096x128 S8x4096x128 S8x4096x4096 [2] [2] [1] [1] [0] [0]
  scatter_S8x4096x4096_S1_S4096x4096_01_0_0_0_wf : ScatterDims.WF S8x4096x4096 S1 S4096x4096 [0, 1] [0] [0] 0
  dot_S8x4096x4096_S8x4096x128_S8x4096x128_2_1_1_2_0_0_wf : DotDims.WF S8x4096x4096 S8x4096x128 S8x4096x128 [2] [1] [1] [2] [0] [0]

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf
def scatter_S8x4096x4096_S1_S4096x4096_01_0_0_0 : ScatterDims S8x4096x4096 S1 S4096x4096 where
  updateWindowDims := [0, 1]
  insertedWindowDims := [0]
  scatterDimsToOperandDims := [0]
  indexVectorDim := 0
  wf := scatter_S8x4096x4096_S1_S4096x4096_01_0_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.K.Region0.lean ====
/-
  Region 0: the dense projection `x @ W` of pallas_call 0, one row block of 512 rows per grid point.

  The body reads its input block (window 0) and the whole weight (window 1), reads the output buffer's old
  contents (unused), and stores the matrix product into the output buffer (window 2) whole. What it leaves in the
  output buffer is therefore a closed function of the two input blocks; this file states that function, the
  body's triple, the pipeline's proof data at any buffer contents `V` the region may be entered from, and the
  body obligation at every grid point.
-/
import proofs.«152551_j88132728914059_1_alg».proof.Proof.Gen.Kernel.Launch
import proofs.«152551_j88132728914059_1_alg».proof.Proof.Gen.Kernel.Skeleton
import proofs.«152551_j88132728914059_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: it is fetched at the first point only, and
    where it is not fetched its block index has not moved, so the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 1024 buffer as a rectangle (the input block's load, the output's load and store). -/
abbrev r0_0 : Rect S512x1024 := Rect.unit (s := S512x1024) ![0, 0] S512x1024.size inb_S512x1024_S512x1024_0_0
/-- The whole 1024 x 1024 weight buffer as a rectangle. -/
abbrev r0_1 : Rect S1024x1024 := Rect.unit (s := S1024x1024) ![0, 0] S1024x1024.size inb_S1024x1024_S1024x1024_0_0

/-! ## What the body leaves in the output window's buffer -/

/-- The output buffer after the body, from the two input blocks: the one store's payload (the product of the
    block and the weight, accumulated from zero) laid over the whole buffer. -/
def out0_2 (x0 : Vec F S512x1024 .bf16) (x1 : Vec F S1024x1024 .bf16) : Vec F S512x1024 .f32 :=
  View.canon [⟨r0_0, k0_pay1 (View.ld x0 r0_0) (View.ld x1 r0_1)⟩]

/-- The one store's rectangle is the whole buffer, so it covers it. -/
theorem cover0_2 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-! ## The body's triple -/

set_option maxHeartbeats 1000000 in
/-- The body on whole staging memrefs, the inputs' at read contents `x0`, `x1` and the output's at anything, runs to
    the continuation holding the inputs' as they were and the output's at `out0_2 x0 x1`. The load of the output
    buffer reads its old contents, which nothing uses. -/
theorem sound_kernel0 (c : Dev nD) (E : Set ℕ) (i : grid0.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1: the dense projection `x @ W` of pallas_call 1, one row block of 512 rows per grid point.

  The body reads its input block (window 0) and the whole weight (window 1), reads the output buffer's old
  contents (unused), and stores the matrix product into the output buffer (window 2) whole. What it leaves in the
  output buffer is therefore a closed function of the two input blocks; this file states that function, the
  body's triple, the pipeline's proof data at any buffer contents `V` the region may be entered from, and the
  body obligation at every grid point.
-/
import proofs.«152551_j88132728914059_1_alg».proof.Proof.Gen.Kernel.Launch
import proofs.«152551_j88132728914059_1_alg».proof.Proof.Gen.Kernel.Skeleton
import proofs.«152551_j88132728914059_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer holds the whole weight at every point: it is fetched at the first point only, and
    where it is not fetched its block index has not moved, so the buffer still holds the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 512 x 1024 buffer as a rectangle (the input block's load, the output's load and store). -/
abbrev r1_0 : Rect S512x1024 := Rect.unit (s := S512x1024) ![0, 0] S512x1024.size inb_S512x1024_S512x1024_0_0
/-- The whole 1024 x 1024 weight buffer as a rectangle. -/
abbrev r1_1 : Rect S1024x1024 := Rect.unit (s := S1024x1024) ![0, 0] S1024x1024.size inb_S1024x1024_S1024x1024_0_0

/-! ## What the body leaves in the output window's buffer -/

/-- The output buffer after the body, from the two input blocks: the one store's payload (the product of the
    block and the weight, accumulated from zero) laid over the whole buffer. -/
def out1_2 (x0 : Vec F S512x1024 .bf16) (x1 : Vec F S1024x1024 .bf16) : Vec F S512x1024 .f32 :=
  View.canon [⟨r1_0, k1_pay1 (View.ld x0 r1_0) (View.ld x1 r1_1)⟩]

/-- The one store's rectangle is the whole buffer, so it covers it. -/
theorem cover1_2 (p0 : Vec F S512x1024 .f32) (y : S512x1024.Idx) :
    ∃ pc ∈ ([⟨r1_0, p0⟩] : List (View.Piece (Elt F) S512x1024 .f32)), y ∈ pc.1.set :=
  View.cover_of_tiled [⟨r1_0, p0⟩] S512x1024.size (by rfl) y

/-! ## The body's triple -/

set_option maxHeartbeats 1000000 in
/-- The body on whole staging memrefs, the inputs' at read contents `x0`, `x1` and the output's at anything, runs to
    the continuation holding the inputs' as they were and the output's at `out1_2 x0 x1`. The load of the output
    buffer reads its old contents, which nothing uses. -/
theorem sound_kernel1 (c : Dev nD) (E : Set ℕ) (i : grid1.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each
    input's buffer at its block and the output's at `out1_2` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2: the dense projection `x @ W` of pallas_call 2, one row block of 512 rows per grid point.

  The body reads its input block (window 0) and the whole weight (window 1), reads the output buffer's old
  contents (unused), and stores the matrix product into the output buffer (window 2) whole. What it leaves in the
  output buffer is therefore a closed function of the two input blocks; this file states that function, the
  body's triple, the pipeline's proof data at any buffer contents `V` the region may be entered from, and the
  body obligation at every grid point.
-/
import proofs.«152551_j88132728914059_1_alg».proof.Proof.Gen.Kernel.Launch
import proofs.«152551_j88132728914059_1_alg».proof.Proof.Gen.Kernel.Skeleton
import proofs.«152551_j88132728914059_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block input's staging buffer holds its block at every point, for any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's staging buffer holds the whole weight at every point: it is fetched at the first point only, and
    where it is not fetched its block index has not moved, so the buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 512 x 1024 buffer as a rectangle (the input block's load, the output's load and store). -/
abbrev r2_0 : Rect S512x1024 := Rect.unit (s := S512x1024) ![0, 0] S512x1024.size inb_S512x1024_S512x1024_0_0
/-- The whole 1024 x 1024 weight buffer as a rectangle. -/
abbrev r2_1 : Rect S1024x1024 := Rect.unit (s := S1024x1024) ![0, 0] S1024x1024.size inb_S1024x1024_S1024x1024_0_0

/-! ## What the body leaves in the output window's buffer -/

/-- The output buffer after the body, from the two input blocks: the one store's payload (the product of the
    block and the weight, accumulated from zero) laid over the whole buffer. -/
def out2_2 (x0 : Vec F S512x1024 .bf16) (x1 : Vec F S1024x1024 .bf16) : Vec F S512x1024 .f32 :=
  View.canon [⟨r2_0, k2_pay1 (View.ld x0 r2_0) (View.ld x1 r2_1)⟩]

/-- The one store's rectangle is the whole buffer, so it covers it. -/
theorem cover2_2 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The body on whole staging memrefs, the inputs' at read contents `x0`, `x1` and the output's at anything, runs to
    the continuation holding the inputs' as they were and the output's at `out2_2 x0 x1`. The load of the output
    buffer reads its old contents, which nothing uses. -/
theorem sound_kernel2 (c : Dev nD) (E : Set ℕ) (i : grid2.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer at its block and the output's at `out2_2` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Attn.Runs.lean ====
import proofs.«152551_j88132728914059_1_alg».proof.Proof.Gen.Kernel.Launch
import proofs.«152551_j88132728914059_1_alg».proof.Proof.Gen.Kernel.Skeleton
import proofs.«152551_j88132728914059_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention region (pipeline 3): what its three control cases share

Grid (8, 8), point `t = 8·ni + mi`. The body zeroes its accumulator when `mi = 0`, adds eight head
products into it at every point, and stores `max(acc, 0)` into the first output only when `mi = 7`. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (where it is
    not fetched the block index has not moved), for any proof data whose array is the entry contents and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (where it is
    not fetched the block index has not moved), for any proof data whose array is the entry contents and whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (where it is
    not fetched the block index has not moved), for any proof data whose array is the entry contents and whose body
    leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (where it is
    not fetched the block index has not moved), for any proof data whose array is the entry contents and whose body
    leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (where it is
    not fetched the block index has not moved), for any proof data whose array is the entry contents and whose body
    leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (where it is
    not fetched the block index has not moved), for any proof data whose array is the entry contents and whose body
    leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, in closed form -/

/-- "This is the first step along the second grid axis" (`mi = 0`), as the body computes it. -/
abbrev cond3_0 (i : grid3.Coords) : Prop := (Scalar.cmpi .ne (Scalar.extui (Scalar.cmpi .eq (BitVec.ofNat 32 (i 1).val) 0#32)) 0#32) = 1#1
/-- It holds exactly at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)

/-- "This is the last step along the second grid axis" (`mi = 7`), as the body computes it. -/
abbrev cond3_1 (i : grid3.Coords) : Prop := k3_cond2 i = 1#1
/-- It holds exactly at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_7 : ∀ t : Fin cfg3.N, cfg3.idle 7 (grid3.coords t) = false := by decide +kernel
/-- In the first-step case nothing is stored into output 6, and its block is not written back. -/
theorem idleAt3_6_A : ∀ t : Fin cfg3.N, cond3_0 (grid3.coords t) → ¬cond3_1 (grid3.coords t) → cfg3.idle 6 (grid3.coords t) = true := by decide +kernel
theorem noFlush3_6_A : ∀ t : Fin cfg3.N, cond3_0 (grid3.coords t) → ¬cond3_1 (grid3.coords t) → (cfg3.win 6).flush t = false := by decide +kernel
/-- Likewise in the middle case. -/
theorem idleAt3_6_B : ∀ t : Fin cfg3.N, ¬cond3_0 (grid3.coords t) → ¬cond3_1 (grid3.coords t) → cfg3.idle 6 (grid3.coords t) = true := by decide +kernel
theorem noFlush3_6_B : ∀ t : Fin cfg3.N, ¬cond3_0 (grid3.coords t) → ¬cond3_1 (grid3.coords t) → (cfg3.win 6).flush t = false := by decide +kernel
/-- In the last-step case output 6 is stored into. -/
theorem liveAt3_6_C : ∀ t : Fin cfg3.N, ¬cond3_0 (grid3.coords t) → cond3_1 (grid3.coords t) → cfg3.idle 6 (grid3.coords t) = false := by decide +kernel

/-! ## The memrefs the body is called with -/

/-- One staging buffer of each output window, through which its contents are stated (any choice reads the same). -/
abbrev VO3_6 : View sig .tc .vmem S8x512x128 .f32 := (Memref.whole cc3_stg6_0 : Memref sig .tc .vmem S8x512x128 .f32).view
abbrev VO3_7 : View sig .tc .vmem S512x512 .f32 := (Memref.whole cc3_stg7_0 : Memref sig .tc .vmem S512x512 .f32).view
abbrev ms3_0 (t : Fin cfg3.N) : Memref sig .tc .vmem S8x512x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x512x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x512x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x512 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S8x512x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x512 .f32 := win3_7.stage (cfg3.slots t 7)
abbrev hs3_7 (t : Fin cfg3.N) : (ms3_7 t).IsWhole := hstage3_7 ((cfg3.slots t 7).cast nbuf3_7)
/-- The accumulator: a whole scoped buffer of the kernel's own, passed beside the windows. -/
abbrev scM3_0 : Memref sig .tc .vmem S8x512x128 .f32 := Memref.whole cc3_scratch0
/-- The accumulator as a view: what it holds is stated through it. -/
abbrev VS3_0 : View sig .tc .vmem S8x512x128 .f32 := scM3_0.view

/-! ## The region's invariant, with the accumulator set apart -/

/-- The core's scoped buffers other than this pipeline's staging buffers and the accumulator (the other pipelines'
    staging buffers), each whole at some contents. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc4_stg0_0), ((c : Thread nD τ).loc cc4_stg0_0) ↦{fullShare} f) ∗ (∃ f : Buf (Elt F) ((c : Thread nD τ).loc cc4_stg0_1), ((c : Thread nD τ).loc cc4_stg0_1) ↦{fullShare} f) ∗ (∃ f : Buf (Elt F) ((c : Thread nD τ).loc cc4_stg1_0), ((c : Thread nD τ).loc cc4_stg1_0) ↦{fullShare} f) ∗ (∃ f : Buf (Elt F) ((c : Thread nD τ).loc cc4_stg2_0), ((c : Thread nD τ).loc cc4_stg2_0) ↦{fullShare} f) ∗ (∃ f : Buf (Elt F) ((c : Thread nD τ).loc cc4_stg2_1), ((c : Thread nD τ).loc cc4_stg2_1) ↦{fullShare} f))

/-- The class's invariant hands out the accumulator at some contents, the other scoped buffers, and the generator register. -/
theorem PhiA3_split (c : Dev nD) :
    (Pipeline.ΦA spec3 c : sProp 𝕄) ⊢ iprop((∃ d, owns (c : Thread nD τ) scM3_0 fullShare d) ∗ rest3 c ∗ (∃ r, prngReg c r)) := by
  unfold Pipeline.ΦA rest3; rw [scopedRest3_eq]; simp only [scM3_0, owns_whole]
  iintro ⟨⟨H0, H1, H2, H3, H4, H5, H6, H7, H8, H9, H10, H11, H12, H13, H14, HS, H16, H17, H18, H19, H20⟩, Hg⟩
  isplitl [HS]; · iexact HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H16]; · iexact H16
  isplitl [H17]; · iexact H17
  isplitl [H18]; · iexact H18
  isplitl [H19]; · iexact H19
  iexact H20

/-- And takes them back. -/
theorem PhiA3_join (c : Dev nD) :
    iprop((∃ d, owns (c : Thread nD τ) scM3_0 fullShare d) ∗ rest3 c ∗ (∃ r, prngReg c r)) ⊢ (Pipeline.ΦA spec3 c : sProp 𝕄) := by
  unfold Pipeline.ΦA rest3; rw [scopedRest3_eq]; simp only [scM3_0, owns_whole]
  iintro ⟨HS, ⟨H0, H1, H2, H3, H4, H5, H6, H7, H8, H9, H10, H11, H12, H13, H14, H16, H17, H18, H19, H20⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  isplitl [H16]; · iexact H16
  isplitl [H17]; · iexact H17
  isplitl [H18]; · iexact H18
  isplitl [H19]; · iexact H19
  iexact H20

end Cert.Kernel.Hand

end
-- ==== Proof.K.Attn.RunA.lean ====
import proofs.«152551_j88132728914059_1_alg».proof.Proof.K.Attn.Runs

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The whole body at a point with `mi = 0` (and `mi ≠ 7`): on whole staging memrefs, the six inputs' at their
    contents, the first output's at contents handed back untouched (nothing is stored into it), the second output's and
    the accumulator at anything, the body runs to the continuation holding the inputs' as they were, the second
    output's buffer with its pieces written and the accumulator with its pieces written (the zero fill, then one slab
    per head). The piece lists (last store first) are the witness the run finds. -/
noncomputable def kernelRun3_A (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) :
    Σ' (L6 : List (View.Piece (Elt F) S8x512x128 .f32)) (L7 : List (View.Piece (Elt F) S512x512 .f32)), { LS0 : List (View.Piece (Elt F) S8x512x128 .f32) //
      ∀ (xi6 : Vec F S8x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc3__attn_kernel_eq_skeleton]; unfold cc3__attn_kernel_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.K.Attn.RunB.lean ====
import proofs.«152551_j88132728914059_1_alg».proof.Proof.K.Attn.RunA

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The whole body at a point with `0 < mi < 7`: as in the first-step case, but the accumulator enters at the
    contents `xs0` the point before left and is not zeroed; its pieces are one slab per head. -/
noncomputable def kernelRun3_B (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) :
    Σ' (L6 : List (View.Piece (Elt F) S8x512x128 .f32)) (L7 : List (View.Piece (Elt F) S512x512 .f32)), { LS0 : List (View.Piece (Elt F) S8x512x128 .f32) //
      ∀ (xi6 : Vec F S8x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc3__attn_kernel_eq_skeleton]; unfold cc3__attn_kernel_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.K.Attn.RunC.lean ====
import proofs.«152551_j88132728914059_1_alg».proof.Proof.K.Attn.RunB

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The whole body at a point with `mi = 7`: the accumulator enters at the contents `xs0` the point before
    left, each head's slab is added, and the first output's buffer (entered at anything) is stored whole with the
    accumulator's nonnegative part. -/
noncomputable def kernelRun3_C (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) :
    Σ' (L6 : List (View.Piece (Elt F) S8x512x128 .f32)) (L7 : List (View.Piece (Elt F) S512x512 .f32)), { LS0 : List (View.Piece (Elt F) S8x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc3__attn_kernel_eq_skeleton]; unfold cc3__attn_kernel_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.Kernel.Hand

end
-- ==== Proof.K.Attn.Region3.lean ====
import proofs.«152551_j88132728914059_1_alg».proof.Proof.K.Attn.RunC

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention region (pipeline 3): what its buffers hold point by point, its proof data, its body obligation -/

/-! ## What each case leaves -/

/-- The first-step case stores nothing into output 6: a placeholder nothing consults, since at these points the window is
    neither written back nor read at the next point. -/
def out3_A_6 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) : Vec F S8x512x128 .f32 :=
  VO3_6.read (Elt F) (VO3_6.writes (Elt F) VO3_6.junk (kernelRun3_A c i arg2 harg2 arg3 harg3 arg4 harg4 arg5 harg5 arg6 harg6 arg7 harg7 arg8 harg8 arg9 harg9 arg10 harg10 hc0 hc1 x0 x1 x2 x3 x4 x5).1)

/-- The first-step case's single store into output 7 covers its block. -/
theorem cover3_A_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (y : S512x512.Idx) :
    ∃ pc ∈ (kernelRun3_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4 x5).2.1 S512x512.size (by sl_kernel_rfl) y

/-- What the first-step case leaves in output 7's staging buffer: its pieces read back over junk. -/
def out3_A_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) : Vec F S512x512 .f32 :=
  VO3_7.read (Elt F) (VO3_7.writes (Elt F) VO3_7.junk (kernelRun3_A c i arg2 harg2 arg3 harg3 arg4 harg4 arg5 harg5 arg6 harg6 arg7 harg7 arg8 harg8 arg9 harg9 arg10 harg10 hc0 hc1 x0 x1 x2 x3 x4 x5).2.1)

/-- The first-step case's stores into the accumulator cover it (the zero fill and one slab per head). -/
theorem scover3_A_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (y : S8x512x128.Idx) :
    ∃ pc ∈ (kernelRun3_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4 x5).2.2.1 S8x512x128.size (by sl_kernel_rfl) y

/-- What the first-step case leaves in the accumulator: its pieces read back over junk. -/
def sout3_A_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) : Vec F S8x512x128 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 hc0 hc1 x0 x1 x2 x3 x4 x5).2.2.1)

/-- The middle case stores nothing into output 6: a placeholder nothing consults, since at these points the window is
    neither written back nor read at the next point. -/
def out3_B_6 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S8x512x128 .f32 :=
  VO3_6.read (Elt F) (VO3_6.writes (Elt F) VO3_6.junk (kernelRun3_B c i arg2 harg2 arg3 harg3 arg4 harg4 arg5 harg5 arg6 harg6 arg7 harg7 arg8 harg8 arg9 harg9 arg10 harg10 hc0 hc1 x0 x1 x2 x3 x4 x5 xs0).1)

/-- The middle case's single store into output 7 covers its block. -/
theorem cover3_B_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S512x512.Idx) :
    ∃ pc ∈ (kernelRun3_B c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 x5 xs0).2.1 S512x512.size (by sl_kernel_rfl) y

/-- What the middle case leaves in output 7's staging buffer: its pieces read back over junk. -/
def out3_B_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S512x512 .f32 :=
  VO3_7.read (Elt F) (VO3_7.writes (Elt F) VO3_7.junk (kernelRun3_B c i arg2 harg2 arg3 harg3 arg4 harg4 arg5 harg5 arg6 harg6 arg7 harg7 arg8 harg8 arg9 harg9 arg10 harg10 hc0 hc1 x0 x1 x2 x3 x4 x5 xs0).2.1)

/-- The middle case's stores into the accumulator cover it (one slab per head). -/
theorem scover3_B_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S8x512x128.Idx) :
    ∃ pc ∈ (kernelRun3_B c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 x5 xs0).2.2.1 S1x512x128.size (by sl_kernel_rfl) y

/-- What the middle case leaves in the accumulator: its pieces read back over junk. -/
def sout3_B_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S8x512x128 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 hc0 hc1 x0 x1 x2 x3 x4 x5 xs0).2.2.1)

/-- The last-step case's single store into output 6 covers its block. -/
theorem cover3_C_6 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S8x512x128.Idx) :
    ∃ pc ∈ (kernelRun3_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 x5 xs0).1 S8x512x128.size (by sl_kernel_rfl) y

/-- What the last-step case leaves in output 6's staging buffer: its pieces read back over junk. -/
def out3_C_6 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S8x512x128 .f32 :=
  VO3_6.read (Elt F) (VO3_6.writes (Elt F) VO3_6.junk (kernelRun3_C c i arg2 harg2 arg3 harg3 arg4 harg4 arg5 harg5 arg6 harg6 arg7 harg7 arg8 harg8 arg9 harg9 arg10 harg10 hc0 hc1 x0 x1 x2 x3 x4 x5 xs0).1)

/-- The last-step case's single store into output 7 covers its block. -/
theorem cover3_C_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S512x512.Idx) :
    ∃ pc ∈ (kernelRun3_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 x5 xs0).2.1 S512x512.size (by sl_kernel_rfl) y

/-- What the last-step case leaves in output 7's staging buffer: its pieces read back over junk. -/
def out3_C_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S512x512 .f32 :=
  VO3_7.read (Elt F) (VO3_7.writes (Elt F) VO3_7.junk (kernelRun3_C c i arg2 harg2 arg3 harg3 arg4 harg4 arg5 harg5 arg6 harg6 arg7 harg7 arg8 harg8 arg9 harg9 arg10 harg10 hc0 hc1 x0 x1 x2 x3 x4 x5 xs0).2.1)

/-- The last-step case's stores into the accumulator cover it (one slab per head). -/
theorem scover3_C_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S8x512x128.Idx) :
    ∃ pc ∈ (kernelRun3_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 x5 xs0).2.2.1 S1x512x128.size (by sl_kernel_rfl) y

/-- What the last-step case leaves in the accumulator: its pieces read back over junk. -/
def sout3_C_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S8x512x128 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 hc0 hc1 x0 x1 x2 x3 x4 x5 xs0).2.2.1)

/-! ## What the outputs and the accumulator hold after each point -/

/-- What output 6's buffer, output 7's buffer and the accumulator hold after the body at position `n`: the case
    `n mod 8` selects, run at the point's memrefs and input blocks, the accumulator entering at what position
    `n - 1` left in it (the middle and last-step cases). -/
def outsAt3 (c : Dev nD) : (n : ℕ) → n < cfg3.N → Vec F S8x512x128 .f32 × Vec F S512x512 .f32 × Vec F S8x512x128 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h0 : (n + 1) % 8 = 0 then
      if h1 : (n + 1) % 8 = 7 then
        False.elim (by omega)
      else
        (out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩))
    else
      if h1 : (n + 1) % 8 = 7 then
        (out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)
      else
        (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)

/-- `outsAt3` at a point with `mi = 0`. -/
theorem outsAt3_A (c : Dev nD) (t : Fin cfg3.N) (h0 : t.val % 8 = 0) (h1 : ¬t.val % 8 = 7) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact (dif_pos h0).trans ((dif_neg h1).trans rfl)

/-- `outsAt3` at a point with `0 < mi < 7`: over what the point before left in the accumulator. -/
theorem outsAt3_B (c : Dev nD) (t : Fin cfg3.N) (h0 : ¬t.val % 8 = 0) (h1 : ¬t.val % 8 = 7) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point with `mi = 7`: over what the point before left in the accumulator. -/
theorem outsAt3_C (c : Dev nD) (t : Fin cfg3.N) (h0 : ¬t.val % 8 = 0) (h1 : t.val % 8 = 7) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left in it, the other scoped buffers at anything, and the
    generator register at some state. -/
def PhiS3 (c : Dev nD) : (n : ℕ) → n ≤ cfg3.N → sProp 𝕄
  | 0, _ => Pipeline.ΦA spec3 c
  | n + 1, hn => iprop(owns (c : Thread nD τ) scM3_0 fullShare ((outsAt3 V c n hn).2.2) ∗ rest3 c ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3_0 fullShare ((outsAt3 V c n hn).2.2) ∗ rest3 c ∗ (∃ r, prngReg c r)) := rfl

theorem PhiS3_pos (c : Dev nD) (n : ℕ) (h : n ≤ cfg3.N) (hz : n ≠ 0) :
    PhiS3 V c n h = iprop(owns (c : Thread nD τ) scM3_0 fullShare ((outsAt3 V c (n - 1) (by omega)).2.2) ∗ rest3 c ∗ (∃ r, prngReg c r)) := by
  cases n with
  | zero => exact absurd rfl hz
  | succ n => rfl

/-! ## The pipeline's proof data -/

/-- The proof data of pipeline 3 on core `c`: the arrays as the region finds them; after the body at point `t` each
    input's buffer at its block and the outputs' at `outsAt3`'s components; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]
theorem after3_7 (c : Dev nD) (t : Fin cfg3.N) : (dat3 V c).after 7 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 8000000 in
/-- The body at any point: the inputs' memrefs hold their blocks; `t mod 8` says which case the point is in; the
    invariant hands the body the accumulator at what the point before left (at anything at the first point) and
    takes it back at this point's contents; the other scoped buffers, the generator register and the core's debt
    pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    · -- the first step along the second axis
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [show (dat3 V c).leavesExact 7 t = owns (c : Thread nD τ) (ms3_7 t) fullShare ((dat3 V c).after 7 t) from by
        unfold Dat.leavesExact; rw [liveAt3_7 t], after3_7]
      rw [outsAt3_A V c t h0 h1]
      unfold out3_A_7 sout3_A_0; (try dsimp only)
      by_cases hz : t.val = 0
      · rw [PhiS3_castSucc V c t, PhiS3_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HΦ' := (PhiA3_split c) $$ HΦ
        icases HΦ' with ⟨HS0, Hr, Hg⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hr Hg]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        unfold owns; iexists _; isplitr
        swap; · iexact H7
        ipureintro; exact View.read_writes_of_cover _ _ _ _ _ (cover3_A_7 c _ _ _ _ _ _ _ _ _ _ _ _ _ _ _ _ _ _ _ _ _ _ _ _ _ _ _)
      · rw [PhiS3_castSucc V c t, PhiS3_pos V c _ _ hz]
        iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexists _; iexact HS0
        iintro ⟨H0, H1, H2, H3, H4, H5, H6, ⟨%e7, H7⟩, ⟨%es0, HS0⟩⟩
        isplitl [HS0 Hr Hg]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        unfold owns; iexists _; isplitr
        swap; · iexact H7
        ipureintro; exact View.read_writes_of_cover _ _ _ _ _ (cover3_A_7 c _ _ _ _ _ _ _ _ _ _ _ _ _ _ _ _ _ _ _ _ _ _ _ _ _ _ _)
  · by_cases h1 : t.val % 8 = 7
    · -- the last step
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [show (dat3 V c).leavesExact 6 t = owns (c : Thread nD τ) (ms3_6 t) fullShare ((dat3 V c).after 6 t) from by
        unfold Dat.leavesExact; rw [liveAt3_6_C t (fun h => h0 ((hcond3_0 t).mp h)) ((hcond3_1 t).mpr h1)], after3_6]
      rw [show (dat3 V c).leavesExact 7 t = owns (c : Thread nD τ) (ms3_7 t) fullShare ((dat3 V c).after 7 t) from by
        unfold Dat.leavesExact; rw [liveAt3_7 t], after3_7]
      rw [outsAt3_C V c t h0 h1]
      unfold out3_C_6 out3_C_7 sout3_C_0; (try dsimp only)
      by_cases hz : t.val = 0
      · exfalso; omega
      · rw [PhiS3_castSucc V c t, PhiS3_pos V c _ _ hz]
        iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hr Hg]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_C_6 c _ _ _ _ _ _ _ _ _ _ _ _ _ _ _ _ _ _ _ _ _ _ _ _ _ _ _ _)
        unfold owns; iexists _; isplitr
        swap; · iexact H7
        ipureintro; exact View.read_writes_of_cover _ _ _ _ _ (cover3_C_7 c _ _ _ _ _ _ _ _ _ _ _ _ _ _ _ _ _ _ _ _ _ _ _ _ _ _ _ _)
    · -- a middle step
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [show (dat3 V c).leavesExact 7 t = owns (c : Thread nD τ) (ms3_7 t) fullShare ((dat3 V c).after 7 t) from by
        unfold Dat.leavesExact; rw [liveAt3_7 t], after3_7]
      rw [outsAt3_B V c t h0 h1]
      unfold out3_B_7 sout3_B_0; (try dsimp only)
      by_cases hz : t.val = 0
      · exfalso; omega
      · rw [PhiS3_castSucc V c t, PhiS3_pos V c _ _ hz]
        iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hr Hg]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        unfold owns; iexists _; isplitr
        swap; · iexact H7
        ipureintro; exact View.read_writes_of_cover _ _ _ _ _ (cover3_B_7 c _ _ _ _ _ _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- The accumulator at named contents, the other scoped buffers and the generator register give the class's
    invariant back: the accumulator's contents are forgotten. -/
theorem PhiA3_join' (c : Dev nD) (x : Vec F S8x512x128 .f32) :
    iprop(owns (c : Thread nD τ) scM3_0 fullShare x ∗ rest3 c ∗ (∃ r, prngReg c r)) ⊢ (Pipeline.ΦA spec3 c : sProp 𝕄) := by
  have h : iprop(owns (c : Thread nD τ) scM3_0 fullShare x ∗ rest3 c ∗ (∃ r, prngReg c r))
      ⊢ (iprop((∃ d, owns (c : Thread nD τ) scM3_0 fullShare d) ∗ rest3 c ∗ (∃ r, prngReg c r)) : sProp 𝕄) := by
    iintro ⟨HS0, Hr, Hg⟩
    isplitl [HS0]
    · iexists _; iexact HS0
    isplitl [Hr]; · iexact Hr
    iexact Hg
  exact Idealize.SL.BI.Entails.trans h (PhiA3_join c)

/-- After any point but the first the invariant gives the class's back. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  exact PhiA3_join' c _

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.Kernel.Hand

end
-- ==== Proof.K.Region4.lean ====
/-
  Region 4: the dense projection `x @ W` of pallas_call 4, one row block of 512 rows per grid point.

  The body reads its input block (window 0) and the whole weight (window 1), reads the output buffer's old
  contents (unused), and stores the matrix product into the output buffer (window 2) whole. What it leaves in the
  output buffer is therefore a closed function of the two input blocks; this file states that function, the
  body's triple, the pipeline's proof data at any buffer contents `V` the region may be entered from, and the
  body obligation at every grid point.
-/
import proofs.«152551_j88132728914059_1_alg».proof.Proof.Gen.Kernel.Launch
import proofs.«152551_j88132728914059_1_alg».proof.Proof.Gen.Kernel.Skeleton
import proofs.«152551_j88132728914059_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-block input's staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight's staging buffer holds the whole weight at every point: it is fetched at the first point only, and
    where it is not fetched its block index has not moved, so the buffer still holds the same block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 512 x 1024 buffer as a rectangle (the input block's load, the output's load and store). -/
abbrev r4_0 : Rect S512x1024 := Rect.unit (s := S512x1024) ![0, 0] S512x1024.size inb_S512x1024_S512x1024_0_0
/-- The whole 1024 x 1024 weight buffer as a rectangle. -/
abbrev r4_1 : Rect S1024x1024 := Rect.unit (s := S1024x1024) ![0, 0] S1024x1024.size inb_S1024x1024_S1024x1024_0_0

/-! ## What the body leaves in the output window's buffer -/

/-- The output buffer after the body, from the two input blocks: the one store's payload (the product of the
    block and the weight, accumulated from zero) laid over the whole buffer. -/
def out4_2 (x0 : Vec F S512x1024 .bf16) (x1 : Vec F S1024x1024 .bf16) : Vec F S512x1024 .f32 :=
  View.canon [⟨r4_0, k4_pay1 (View.ld x0 r4_0) (View.ld x1 r4_1)⟩]

/-- The one store's rectangle is the whole buffer, so it covers it. -/
theorem cover4_2 (p0 : Vec F S512x1024 .f32) (y : S512x1024.Idx) :
    ∃ pc ∈ ([⟨r4_0, p0⟩] : List (View.Piece (Elt F) S512x1024 .f32)), y ∈ pc.1.set :=
  View.cover_of_tiled [⟨r4_0, p0⟩] S512x1024.size (by rfl) y

/-! ## The body's triple -/

set_option maxHeartbeats 1000000 in
/-- The body on whole staging memrefs, the inputs' at read contents `x0`, `x1` and the output's at anything, runs to
    the continuation holding the inputs' as they were and the output's at `out4_2 x0 x1`. The load of the output
    buffer reads its old contents, which nothing uses. -/
theorem sound_kernel4 (c : Dev nD) (E : Set ℕ) (i : grid4.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__proj_kernel i arg1 harg1 arg2 harg2 arg3 harg3) K := by
  simp only [cc4__proj_kernel_eq_skeleton]; unfold cc4__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them; after the body at point `t` each
    input's buffer at its block and the output's at `out4_2` of the input blocks; the invariant is the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The run of the word-level kernel program through its eleven segments — six stretches of host operations and five
  kernel regions — with the contents of every unscoped buffer named at each boundary: after a host stretch the
  stretch's operations applied to the contents before it; after a region its windows' arrays at what the pipeline's
  write-backs leave and every other buffer as the region found it. The last boundary's contents are read against
  the final memory, so the run's post names every buffer, the two results among them; the argument arrays are written
  by no stretch and are no output window's array, so they end as launched.
-/
import proofs.«152551_j88132728914059_1_alg».proof.Proof.Gen.Kernel.Regions
import proofs.«152551_j88132728914059_1_alg».proof.Proof.K.Region0
import proofs.«152551_j88132728914059_1_alg».proof.Proof.K.Region1
import proofs.«152551_j88132728914059_1_alg».proof.Proof.K.Region2
import proofs.«152551_j88132728914059_1_alg».proof.Proof.K.Attn.Region3
import proofs.«152551_j88132728914059_1_alg».proof.Proof.K.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its windows' arrays at what the write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its windows' arrays at what the write-backs leave, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: its windows' arrays at what the write-backs leave, every other buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch before region 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After region 3: its windows' arrays at what the write-backs leave, every other buffer as the region found it. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch before region 4. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After region 4: its windows' arrays at what the write-backs leave, every other buffer as the region found it. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the last host stretch: what the final memory holds. -/
abbrev W11 : Dev nD → Valuation τ sig (Elt F) := fun c => StableHlo.after hostOps5 (W10 m ρ c)

/-- A buffer that no host stretch writes and that is no window's array ends as launched. -/
theorem W11_kept (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) (a4 : ∀ w, Pipeline.arrRef spec4 w ≠ b) :
    W11 m ρ c (Proc.devRef .tc b) = m ((c : Thread nD τ).loc b) :=
  calc W11 m ρ c (Proc.devRef .tc b)
    _ = W10 m ρ c (Proc.devRef .tc b) := StableHlo.after_of_writes_sub hostOps5 _ hostOps5_writes h5
    _ = W9 m ρ c (Proc.devRef .tc b) := W10_of_ne m ρ c b a4
    _ = W8 m ρ c (Proc.devRef .tc b) := StableHlo.after_of_writes_sub hostOps4 _ hostOps4_writes h4
    _ = W7 m ρ c (Proc.devRef .tc b) := W8_of_ne m ρ c b a3
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W11_main_arg0 (c : Dev nD) : W11 m ρ c (Proc.devRef .tc main_arg0) = m ((c : Thread nD τ).loc main_arg0) :=
  W11_kept m ρ c main_arg0 (by decide) (by decide) (by decide) (by decide) (by decide) (by decide) (by decide) (by decide) (by decide) (by decide) (by decide)
theorem W11_main_arg1 (c : Dev nD) : W11 m ρ c (Proc.devRef .tc main_arg1) = m ((c : Thread nD τ).loc main_arg1) :=
  W11_kept m ρ c main_arg1 (by decide) (by decide) (by decide) (by decide) (by decide) (by decide) (by decide) (by decide) (by decide) (by decide) (by decide)
theorem W11_main_arg2 (c : Dev nD) : W11 m ρ c (Proc.devRef .tc main_arg2) = m ((c : Thread nD τ).loc main_arg2) :=
  W11_kept m ρ c main_arg2 (by decide) (by decide) (by decide) (by decide) (by decide) (by decide) (by decide) (by decide) (by decide) (by decide) (by decide)
theorem W11_main_arg3 (c : Dev nD) : W11 m ρ c (Proc.devRef .tc main_arg3) = m ((c : Thread nD τ).loc main_arg3) :=
  W11_kept m ρ c main_arg3 (by decide) (by decide) (by decide) (by decide) (by decide) (by decide) (by decide) (by decide) (by decide) (by decide) (by decide)
theorem W11_main_arg4 (c : Dev nD) : W11 m ρ c (Proc.devRef .tc main_arg4) = m ((c : Thread nD τ).loc main_arg4) :=
  W11_kept m ρ c main_arg4 (by decide) (by decide) (by decide) (by decide) (by decide) (by decide) (by decide) (by decide) (by decide) (by decide) (by decide)
theorem W11_main_arg5 (c : Dev nD) : W11 m ρ c (Proc.devRef .tc main_arg5) = m ((c : Thread nD τ).loc main_arg5) :=
  W11_kept m ρ c main_arg5 (by decide) (by decide) (by decide) (by decide) (by decide) (by decide) (by decide) (by decide) (by decide) (by decide) (by decide)
theorem W11_main_arg6 (c : Dev nD) : W11 m ρ c (Proc.devRef .tc main_arg6) = m ((c : Thread nD τ).loc main_arg6) :=
  W11_kept m ρ c main_arg6 (by decide) (by decide) (by decide) (by decide) (by decide) (by decide) (by decide) (by decide) (by decide) (by decide) (by decide)
theorem W11_main_arg7 (c : Dev nD) : W11 m ρ c (Proc.devRef .tc main_arg7) = m ((c : Thread nD τ).loc main_arg7) :=
  W11_kept m ρ c main_arg7 (by decide) (by decide) (by decide) (by decide) (by decide) (by decide) (by decide) (by decide) (by decide) (by decide) (by decide)
theorem W11_main_arg8 (c : Dev nD) : W11 m ρ c (Proc.devRef .tc main_arg8) = m ((c : Thread nD τ).loc main_arg8) :=
  W11_kept m ρ c main_arg8 (by decide) (by decide) (by decide) (by decide) (by decide) (by decide) (by decide) (by decide) (by decide) (by decide) (by decide)
theorem W11_main_arg9 (c : Dev nD) : W11 m ρ c (Proc.devRef .tc main_arg9) = m ((c : Thread nD τ).loc main_arg9) :=
  W11_kept m ρ c main_arg9 (by decide) (by decide) (by decide) (by decide) (by decide) (by decide) (by decide) (by decide) (by decide) (by decide) (by decide)
theorem W11_main_arg10 (c : Dev nD) : W11 m ρ c (Proc.devRef .tc main_arg10) = m ((c : Thread nD τ).loc main_arg10) :=
  W11_kept m ρ c main_arg10 (by decide) (by decide) (by decide) (by decide) (by decide) (by decide) (by decide) (by decide) (by decide) (by decide) (by decide)

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

/-! ## The regions as segments -/

theorem sep_swap_emp (P Q : sProp 𝕄) : iprop(P ∗ Q) ⊢ iprop(Q ∗ emp ∗ P) := by
  iintro ⟨Hr, Hp⟩
  isplitl [Hp]; · iexact Hp
  isplitr; · iempintro
  iexact Hr

set_option backward.isDefEq.respectTransparency.types false in
/-- Region 0 over the thread state: entered from every unscoped buffer at `W1`, left at `W2`; its arrays split out
    of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; its arrays split out
    of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`; its arrays split out
    of the unscoped buffers and put back at the exit contents; the generator register into the invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`; its arrays split out
    of the unscoped buffers and put back at the exit contents; the generator register into the invariant and out;
    nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    iintro ⟨Hp, -, Hr⟩
    iapply (hin3 (V7 m ρ) c)
    unfold Pipeline.ΦA
    isplitl [Hr]; · iexact Hr
    iexact Hp
  hout c := by
    rw [Pipeline.ownSems0_none, show (pdats m ρ 3 c).Φ (Fin.last _) = (dat3 (V7 m ρ) c).Φ (Fin.last cfg3.N) from rfl]
    have hΦ := hout3 (V7 m ρ) c
    unfold Pipeline.ΦA at hΦ
    exact hΦ.trans (sep_swap_emp _ _)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`; its arrays split out
    of the unscoped buffers and put back at the exit contents; the generator register into the invariant and out;
    nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

set_option backward.isDefEq.respectTransparency.types false in
/-- Every weakly fair execution of the program from `m` with zero counters terminates, nothing faulting, and the final
    memory holds every unscoped buffer at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W11 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩) (run_all m ρ)

end Cert.Kernel.Hand

end
-- ==== Proof.KI.Region0.lean ====
/-
  Region 0: the dense projection `x @ W` of pallas_call 0, one row block of 512 rows per grid point.

  The body reads its input block (window 0) and the whole weight (window 1), reads the output buffer's old
  contents (unused), and stores the matrix product into the output buffer (window 2) whole. What it leaves in the
  output buffer is therefore a closed function of the two input blocks; this file states that function, the
  body's triple, the pipeline's proof data at any buffer contents `V` the region may be entered from, and the
  body obligation at every grid point.
-/
import proofs.«152551_j88132728914059_1_alg».proof.Proof.Gen.KernelIdeal.Launch
import proofs.«152551_j88132728914059_1_alg».proof.Proof.Gen.KernelIdeal.Skeleton
import proofs.«152551_j88132728914059_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: it is fetched at the first point only, and
    where it is not fetched its block index has not moved, so the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 1024 buffer as a rectangle (the input block's load, the output's load and store). -/
abbrev r0_0 : Rect S512x1024 := Rect.unit (s := S512x1024) ![0, 0] S512x1024.size inb_S512x1024_S512x1024_0_0
/-- The whole 1024 x 1024 weight buffer as a rectangle. -/
abbrev r0_1 : Rect S1024x1024 := Rect.unit (s := S1024x1024) ![0, 0] S1024x1024.size inb_S1024x1024_S1024x1024_0_0

/-! ## What the body leaves in the output window's buffer -/

/-- The output buffer after the body, from the two input blocks: the one store's payload (the product of the
    block and the weight, accumulated from zero) laid over the whole buffer. -/
def out0_2 (x0 : Vec F S512x1024 .bf16) (x1 : Vec F S1024x1024 .bf16) : Vec F S512x1024 .f32 :=
  View.canon [⟨r0_0, k0_pay1 (View.ld x0 r0_0) (View.ld x1 r0_1)⟩]

/-- The one store's rectangle is the whole buffer, so it covers it. -/
theorem cover0_2 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-! ## The body's triple -/

set_option maxHeartbeats 1000000 in
/-- The body on whole staging memrefs, the inputs' at read contents `x0`, `x1` and the output's at anything, runs to
    the continuation holding the inputs' as they were and the output's at `out0_2 x0 x1`. The load of the output
    buffer reads its old contents, which nothing uses. -/
theorem sound_kernel0 (c : Dev nD) (E : Set ℕ) (i : grid0.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1: the dense projection `x @ W` of pallas_call 1, one row block of 512 rows per grid point.

  The body reads its input block (window 0) and the whole weight (window 1), reads the output buffer's old
  contents (unused), and stores the matrix product into the output buffer (window 2) whole. What it leaves in the
  output buffer is therefore a closed function of the two input blocks; this file states that function, the
  body's triple, the pipeline's proof data at any buffer contents `V` the region may be entered from, and the
  body obligation at every grid point.
-/
import proofs.«152551_j88132728914059_1_alg».proof.Proof.Gen.KernelIdeal.Launch
import proofs.«152551_j88132728914059_1_alg».proof.Proof.Gen.KernelIdeal.Skeleton
import proofs.«152551_j88132728914059_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's staging buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer holds the whole weight at every point: it is fetched at the first point only, and
    where it is not fetched its block index has not moved, so the buffer still holds the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 512 x 1024 buffer as a rectangle (the input block's load, the output's load and store). -/
abbrev r1_0 : Rect S512x1024 := Rect.unit (s := S512x1024) ![0, 0] S512x1024.size inb_S512x1024_S512x1024_0_0
/-- The whole 1024 x 1024 weight buffer as a rectangle. -/
abbrev r1_1 : Rect S1024x1024 := Rect.unit (s := S1024x1024) ![0, 0] S1024x1024.size inb_S1024x1024_S1024x1024_0_0

/-! ## What the body leaves in the output window's buffer -/

/-- The output buffer after the body, from the two input blocks: the one store's payload (the product of the
    block and the weight, accumulated from zero) laid over the whole buffer. -/
def out1_2 (x0 : Vec F S512x1024 .bf16) (x1 : Vec F S1024x1024 .bf16) : Vec F S512x1024 .f32 :=
  View.canon [⟨r1_0, k1_pay1 (View.ld x0 r1_0) (View.ld x1 r1_1)⟩]

/-- The one store's rectangle is the whole buffer, so it covers it. -/
theorem cover1_2 (p0 : Vec F S512x1024 .f32) (y : S512x1024.Idx) :
    ∃ pc ∈ ([⟨r1_0, p0⟩] : List (View.Piece (Elt F) S512x1024 .f32)), y ∈ pc.1.set :=
  View.cover_of_tiled [⟨r1_0, p0⟩] S512x1024.size (by rfl) y

/-! ## The body's triple -/

set_option maxHeartbeats 1000000 in
/-- The body on whole staging memrefs, the inputs' at read contents `x0`, `x1` and the output's at anything, runs to
    the continuation holding the inputs' as they were and the output's at `out1_2 x0 x1`. The load of the output
    buffer reads its old contents, which nothing uses. -/
theorem sound_kernel1 (c : Dev nD) (E : Set ℕ) (i : grid1.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them; after the body at point `t` each
    input's buffer at its block and the output's at `out1_2` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2: the dense projection `x @ W` of pallas_call 2, one row block of 512 rows per grid point.

  The body reads its input block (window 0) and the whole weight (window 1), reads the output buffer's old
  contents (unused), and stores the matrix product into the output buffer (window 2) whole. What it leaves in the
  output buffer is therefore a closed function of the two input blocks; this file states that function, the
  body's triple, the pipeline's proof data at any buffer contents `V` the region may be entered from, and the
  body obligation at every grid point.
-/
import proofs.«152551_j88132728914059_1_alg».proof.Proof.Gen.KernelIdeal.Launch
import proofs.«152551_j88132728914059_1_alg».proof.Proof.Gen.KernelIdeal.Skeleton
import proofs.«152551_j88132728914059_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block input's staging buffer holds its block at every point, for any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's staging buffer holds the whole weight at every point: it is fetched at the first point only, and
    where it is not fetched its block index has not moved, so the buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 512 x 1024 buffer as a rectangle (the input block's load, the output's load and store). -/
abbrev r2_0 : Rect S512x1024 := Rect.unit (s := S512x1024) ![0, 0] S512x1024.size inb_S512x1024_S512x1024_0_0
/-- The whole 1024 x 1024 weight buffer as a rectangle. -/
abbrev r2_1 : Rect S1024x1024 := Rect.unit (s := S1024x1024) ![0, 0] S1024x1024.size inb_S1024x1024_S1024x1024_0_0

/-! ## What the body leaves in the output window's buffer -/

/-- The output buffer after the body, from the two input blocks: the one store's payload (the product of the
    block and the weight, accumulated from zero) laid over the whole buffer. -/
def out2_2 (x0 : Vec F S512x1024 .bf16) (x1 : Vec F S1024x1024 .bf16) : Vec F S512x1024 .f32 :=
  View.canon [⟨r2_0, k2_pay1 (View.ld x0 r2_0) (View.ld x1 r2_1)⟩]

/-- The one store's rectangle is the whole buffer, so it covers it. -/
theorem cover2_2 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The body on whole staging memrefs, the inputs' at read contents `x0`, `x1` and the output's at anything, runs to
    the continuation holding the inputs' as they were and the output's at `out2_2 x0 x1`. The load of the output
    buffer reads its old contents, which nothing uses. -/
theorem sound_kernel2 (c : Dev nD) (E : Set ℕ) (i : grid2.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer at its block and the output's at `out2_2` of the input blocks; the invariant is the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Attn.Runs.lean ====
import proofs.«152551_j88132728914059_1_alg».proof.Proof.Gen.KernelIdeal.Launch
import proofs.«152551_j88132728914059_1_alg».proof.Proof.Gen.KernelIdeal.Skeleton
import proofs.«152551_j88132728914059_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention region (pipeline 3): what its three control cases share

Grid (8, 8), point `t = 8·ni + mi`. The body zeroes its accumulator when `mi = 0`, adds eight head
products into it at every point, and stores `max(acc, 0)` into the first output only when `mi = 7`. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (where it is
    not fetched the block index has not moved), for any proof data whose array is the entry contents and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (where it is
    not fetched the block index has not moved), for any proof data whose array is the entry contents and whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (where it is
    not fetched the block index has not moved), for any proof data whose array is the entry contents and whose body
    leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (where it is
    not fetched the block index has not moved), for any proof data whose array is the entry contents and whose body
    leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (where it is
    not fetched the block index has not moved), for any proof data whose array is the entry contents and whose body
    leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (where it is
    not fetched the block index has not moved), for any proof data whose array is the entry contents and whose body
    leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, in closed form -/

/-- "This is the first step along the second grid axis" (`mi = 0`), as the body computes it. -/
abbrev cond3_0 (i : grid3.Coords) : Prop := (Scalar.cmpi .ne (Scalar.extui (Scalar.cmpi .eq (BitVec.ofNat 32 (i 1).val) 0#32)) 0#32) = 1#1
/-- It holds exactly at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)

/-- "This is the last step along the second grid axis" (`mi = 7`), as the body computes it. -/
abbrev cond3_1 (i : grid3.Coords) : Prop := k3_cond2 i = 1#1
/-- It holds exactly at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_7 : ∀ t : Fin cfg3.N, cfg3.idle 7 (grid3.coords t) = false := by decide +kernel
/-- In the first-step case nothing is stored into output 6, and its block is not written back. -/
theorem idleAt3_6_A : ∀ t : Fin cfg3.N, cond3_0 (grid3.coords t) → ¬cond3_1 (grid3.coords t) → cfg3.idle 6 (grid3.coords t) = true := by decide +kernel
theorem noFlush3_6_A : ∀ t : Fin cfg3.N, cond3_0 (grid3.coords t) → ¬cond3_1 (grid3.coords t) → (cfg3.win 6).flush t = false := by decide +kernel
/-- Likewise in the middle case. -/
theorem idleAt3_6_B : ∀ t : Fin cfg3.N, ¬cond3_0 (grid3.coords t) → ¬cond3_1 (grid3.coords t) → cfg3.idle 6 (grid3.coords t) = true := by decide +kernel
theorem noFlush3_6_B : ∀ t : Fin cfg3.N, ¬cond3_0 (grid3.coords t) → ¬cond3_1 (grid3.coords t) → (cfg3.win 6).flush t = false := by decide +kernel
/-- In the last-step case output 6 is stored into. -/
theorem liveAt3_6_C : ∀ t : Fin cfg3.N, ¬cond3_0 (grid3.coords t) → cond3_1 (grid3.coords t) → cfg3.idle 6 (grid3.coords t) = false := by decide +kernel

/-! ## The memrefs the body is called with -/

/-- One staging buffer of each output window, through which its contents are stated (any choice reads the same). -/
abbrev VO3_6 : View sig .tc .vmem S8x512x128 .f32 := (Memref.whole cc3_stg6_0 : Memref sig .tc .vmem S8x512x128 .f32).view
abbrev VO3_7 : View sig .tc .vmem S512x512 .f32 := (Memref.whole cc3_stg7_0 : Memref sig .tc .vmem S512x512 .f32).view
abbrev ms3_0 (t : Fin cfg3.N) : Memref sig .tc .vmem S8x512x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x512x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x512x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x512 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S8x512x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x512 .f32 := win3_7.stage (cfg3.slots t 7)
abbrev hs3_7 (t : Fin cfg3.N) : (ms3_7 t).IsWhole := hstage3_7 ((cfg3.slots t 7).cast nbuf3_7)
/-- The accumulator: a whole scoped buffer of the kernel's own, passed beside the windows. -/
abbrev scM3_0 : Memref sig .tc .vmem S8x512x128 .f32 := Memref.whole cc3_scratch0
/-- The accumulator as a view: what it holds is stated through it. -/
abbrev VS3_0 : View sig .tc .vmem S8x512x128 .f32 := scM3_0.view

/-! ## The region's invariant, with the accumulator set apart -/

/-- The core's scoped buffers other than this pipeline's staging buffers and the accumulator (the other pipelines'
    staging buffers), each whole at some contents. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc4_stg0_0), ((c : Thread nD τ).loc cc4_stg0_0) ↦{fullShare} f) ∗ (∃ f : Buf (Elt F) ((c : Thread nD τ).loc cc4_stg0_1), ((c : Thread nD τ).loc cc4_stg0_1) ↦{fullShare} f) ∗ (∃ f : Buf (Elt F) ((c : Thread nD τ).loc cc4_stg1_0), ((c : Thread nD τ).loc cc4_stg1_0) ↦{fullShare} f) ∗ (∃ f : Buf (Elt F) ((c : Thread nD τ).loc cc4_stg2_0), ((c : Thread nD τ).loc cc4_stg2_0) ↦{fullShare} f) ∗ (∃ f : Buf (Elt F) ((c : Thread nD τ).loc cc4_stg2_1), ((c : Thread nD τ).loc cc4_stg2_1) ↦{fullShare} f))

/-- The class's invariant hands out the accumulator at some contents, the other scoped buffers, and the generator register. -/
theorem PhiA3_split (c : Dev nD) :
    (Pipeline.ΦA spec3 c : sProp 𝕄) ⊢ iprop((∃ d, owns (c : Thread nD τ) scM3_0 fullShare d) ∗ rest3 c ∗ (∃ r, prngReg c r)) := by
  unfold Pipeline.ΦA rest3; rw [scopedRest3_eq]; simp only [scM3_0, owns_whole]
  iintro ⟨⟨H0, H1, H2, H3, H4, H5, H6, H7, H8, H9, H10, H11, H12, H13, H14, HS, H16, H17, H18, H19, H20⟩, Hg⟩
  isplitl [HS]; · iexact HS
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H16]; · iexact H16
  isplitl [H17]; · iexact H17
  isplitl [H18]; · iexact H18
  isplitl [H19]; · iexact H19
  iexact H20

/-- And takes them back. -/
theorem PhiA3_join (c : Dev nD) :
    iprop((∃ d, owns (c : Thread nD τ) scM3_0 fullShare d) ∗ rest3 c ∗ (∃ r, prngReg c r)) ⊢ (Pipeline.ΦA spec3 c : sProp 𝕄) := by
  unfold Pipeline.ΦA rest3; rw [scopedRest3_eq]; simp only [scM3_0, owns_whole]
  iintro ⟨HS, ⟨H0, H1, H2, H3, H4, H5, H6, H7, H8, H9, H10, H11, H12, H13, H14, H16, H17, H18, H19, H20⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  isplitl [H16]; · iexact H16
  isplitl [H17]; · iexact H17
  isplitl [H18]; · iexact H18
  isplitl [H19]; · iexact H19
  iexact H20

end Cert.KernelIdeal.Hand

end
-- ==== Proof.KI.Attn.RunA.lean ====
import proofs.«152551_j88132728914059_1_alg».proof.Proof.KI.Attn.Runs

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The whole body at a point with `mi = 0` (and `mi ≠ 7`): on whole staging memrefs, the six inputs' at their
    contents, the first output's at contents handed back untouched (nothing is stored into it), the second output's and
    the accumulator at anything, the body runs to the continuation holding the inputs' as they were, the second
    output's buffer with its pieces written and the accumulator with its pieces written (the zero fill, then one slab
    per head). The piece lists (last store first) are the witness the run finds. -/
noncomputable def kernelRun3_A (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) :
    Σ' (L6 : List (View.Piece (Elt F) S8x512x128 .f32)) (L7 : List (View.Piece (Elt F) S512x512 .f32)), { LS0 : List (View.Piece (Elt F) S8x512x128 .f32) //
      ∀ (xi6 : Vec F S8x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc3__attn_kernel_eq_skeleton]; unfold cc3__attn_kernel_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KI.Attn.RunB.lean ====
import proofs.«152551_j88132728914059_1_alg».proof.Proof.KI.Attn.RunA

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The whole body at a point with `0 < mi < 7`: as in the first-step case, but the accumulator enters at the
    contents `xs0` the point before left and is not zeroed; its pieces are one slab per head. -/
noncomputable def kernelRun3_B (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) :
    Σ' (L6 : List (View.Piece (Elt F) S8x512x128 .f32)) (L7 : List (View.Piece (Elt F) S512x512 .f32)), { LS0 : List (View.Piece (Elt F) S8x512x128 .f32) //
      ∀ (xi6 : Vec F S8x512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc3__attn_kernel_eq_skeleton]; unfold cc3__attn_kernel_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KI.Attn.RunC.lean ====
import proofs.«152551_j88132728914059_1_alg».proof.Proof.KI.Attn.RunB

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The whole body at a point with `mi = 7`: the accumulator enters at the contents `xs0` the point before
    left, each head's slab is added, and the first output's buffer (entered at anything) is stored whole with the
    accumulator's nonnegative part. -/
noncomputable def kernelRun3_C (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) :
    Σ' (L6 : List (View.Piece (Elt F) S8x512x128 .f32)) (L7 : List (View.Piece (Elt F) S512x512 .f32)), { LS0 : List (View.Piece (Elt F) S8x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc3__attn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc3__attn_kernel_eq_skeleton]; unfold cc3__attn_kernel_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Hand

end
-- ==== Proof.KI.Attn.Region3.lean ====
import proofs.«152551_j88132728914059_1_alg».proof.Proof.KI.Attn.RunC

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention region (pipeline 3): what its buffers hold point by point, its proof data, its body obligation -/

/-! ## What each case leaves -/

/-- The first-step case stores nothing into output 6: a placeholder nothing consults, since at these points the window is
    neither written back nor read at the next point. -/
def out3_A_6 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) : Vec F S8x512x128 .f32 :=
  VO3_6.read (Elt F) (VO3_6.writes (Elt F) VO3_6.junk (kernelRun3_A c i arg2 harg2 arg3 harg3 arg4 harg4 arg5 harg5 arg6 harg6 arg7 harg7 arg8 harg8 arg9 harg9 arg10 harg10 hc0 hc1 x0 x1 x2 x3 x4 x5).1)

/-- The first-step case's single store into output 7 covers its block. -/
theorem cover3_A_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (y : S512x512.Idx) :
    ∃ pc ∈ (kernelRun3_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4 x5).2.1 S512x512.size (by sl_kernel_rfl) y

/-- What the first-step case leaves in output 7's staging buffer: its pieces read back over junk. -/
def out3_A_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) : Vec F S512x512 .f32 :=
  VO3_7.read (Elt F) (VO3_7.writes (Elt F) VO3_7.junk (kernelRun3_A c i arg2 harg2 arg3 harg3 arg4 harg4 arg5 harg5 arg6 harg6 arg7 harg7 arg8 harg8 arg9 harg9 arg10 harg10 hc0 hc1 x0 x1 x2 x3 x4 x5).2.1)

/-- The first-step case's stores into the accumulator cover it (the zero fill and one slab per head). -/
theorem scover3_A_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (y : S8x512x128.Idx) :
    ∃ pc ∈ (kernelRun3_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4 x5).2.2.1 S8x512x128.size (by sl_kernel_rfl) y

/-- What the first-step case leaves in the accumulator: its pieces read back over junk. -/
def sout3_A_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) : Vec F S8x512x128 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 hc0 hc1 x0 x1 x2 x3 x4 x5).2.2.1)

/-- The middle case stores nothing into output 6: a placeholder nothing consults, since at these points the window is
    neither written back nor read at the next point. -/
def out3_B_6 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S8x512x128 .f32 :=
  VO3_6.read (Elt F) (VO3_6.writes (Elt F) VO3_6.junk (kernelRun3_B c i arg2 harg2 arg3 harg3 arg4 harg4 arg5 harg5 arg6 harg6 arg7 harg7 arg8 harg8 arg9 harg9 arg10 harg10 hc0 hc1 x0 x1 x2 x3 x4 x5 xs0).1)

/-- The middle case's single store into output 7 covers its block. -/
theorem cover3_B_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S512x512.Idx) :
    ∃ pc ∈ (kernelRun3_B c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 x5 xs0).2.1 S512x512.size (by sl_kernel_rfl) y

/-- What the middle case leaves in output 7's staging buffer: its pieces read back over junk. -/
def out3_B_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S512x512 .f32 :=
  VO3_7.read (Elt F) (VO3_7.writes (Elt F) VO3_7.junk (kernelRun3_B c i arg2 harg2 arg3 harg3 arg4 harg4 arg5 harg5 arg6 harg6 arg7 harg7 arg8 harg8 arg9 harg9 arg10 harg10 hc0 hc1 x0 x1 x2 x3 x4 x5 xs0).2.1)

/-- The middle case's stores into the accumulator cover it (one slab per head). -/
theorem scover3_B_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S8x512x128.Idx) :
    ∃ pc ∈ (kernelRun3_B c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 x5 xs0).2.2.1 S1x512x128.size (by sl_kernel_rfl) y

/-- What the middle case leaves in the accumulator: its pieces read back over junk. -/
def sout3_B_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S8x512x128 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 hc0 hc1 x0 x1 x2 x3 x4 x5 xs0).2.2.1)

/-- The last-step case's single store into output 6 covers its block. -/
theorem cover3_C_6 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S8x512x128.Idx) :
    ∃ pc ∈ (kernelRun3_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 x5 xs0).1 S8x512x128.size (by sl_kernel_rfl) y

/-- What the last-step case leaves in output 6's staging buffer: its pieces read back over junk. -/
def out3_C_6 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S8x512x128 .f32 :=
  VO3_6.read (Elt F) (VO3_6.writes (Elt F) VO3_6.junk (kernelRun3_C c i arg2 harg2 arg3 harg3 arg4 harg4 arg5 harg5 arg6 harg6 arg7 harg7 arg8 harg8 arg9 harg9 arg10 harg10 hc0 hc1 x0 x1 x2 x3 x4 x5 xs0).1)

/-- The last-step case's single store into output 7 covers its block. -/
theorem cover3_C_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S512x512.Idx) :
    ∃ pc ∈ (kernelRun3_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 x5 xs0).2.1 S512x512.size (by sl_kernel_rfl) y

/-- What the last-step case leaves in output 7's staging buffer: its pieces read back over junk. -/
def out3_C_7 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S512x512 .f32 :=
  VO3_7.read (Elt F) (VO3_7.writes (Elt F) VO3_7.junk (kernelRun3_C c i arg2 harg2 arg3 harg3 arg4 harg4 arg5 harg5 arg6 harg6 arg7 harg7 arg8 harg8 arg9 harg9 arg10 harg10 hc0 hc1 x0 x1 x2 x3 x4 x5 xs0).2.1)

/-- The last-step case's stores into the accumulator cover it (one slab per head). -/
theorem scover3_C_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (y : S8x512x128.Idx) :
    ∃ pc ∈ (kernelRun3_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 x5 xs0).2.2.1 S1x512x128.size (by sl_kernel_rfl) y

/-- What the last-step case leaves in the accumulator: its pieces read back over junk. -/
def sout3_C_0 (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) : Vec F S8x512x128 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 hc0 hc1 x0 x1 x2 x3 x4 x5 xs0).2.2.1)

/-! ## What the outputs and the accumulator hold after each point -/

/-- What output 6's buffer, output 7's buffer and the accumulator hold after the body at position `n`: the case
    `n mod 8` selects, run at the point's memrefs and input blocks, the accumulator entering at what position
    `n - 1` left in it (the middle and last-step cases). -/
def outsAt3 (c : Dev nD) : (n : ℕ) → n < cfg3.N → Vec F S8x512x128 .f32 × Vec F S512x512 .f32 × Vec F S8x512x128 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h0 : (n + 1) % 8 = 0 then
      if h1 : (n + 1) % 8 = 7 then
        False.elim (by omega)
      else
        (out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩))
    else
      if h1 : (n + 1) % 8 = 7 then
        (out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)
      else
        (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2)

/-- `outsAt3` at a point with `mi = 0`. -/
theorem outsAt3_A (c : Dev nD) (t : Fin cfg3.N) (h0 : t.val % 8 = 0) (h1 : ¬t.val % 8 = 7) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact (dif_pos h0).trans ((dif_neg h1).trans rfl)

/-- `outsAt3` at a point with `0 < mi < 7`: over what the point before left in the accumulator. -/
theorem outsAt3_B (c : Dev nD) (t : Fin cfg3.N) (h0 : ¬t.val % 8 = 0) (h1 : ¬t.val % 8 = 7) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point with `mi = 7`: over what the point before left in the accumulator. -/
theorem outsAt3_C (c : Dev nD) (t : Fin cfg3.N) (h0 : ¬t.val % 8 = 0) (h1 : t.val % 8 = 7) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the accumulator at what the point before left in it, the other scoped buffers at anything, and the
    generator register at some state. -/
def PhiS3 (c : Dev nD) : (n : ℕ) → n ≤ cfg3.N → sProp 𝕄
  | 0, _ => Pipeline.ΦA spec3 c
  | n + 1, hn => iprop(owns (c : Thread nD τ) scM3_0 fullShare ((outsAt3 V c n hn).2.2) ∗ rest3 c ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(owns (c : Thread nD τ) scM3_0 fullShare ((outsAt3 V c n hn).2.2) ∗ rest3 c ∗ (∃ r, prngReg c r)) := rfl

theorem PhiS3_pos (c : Dev nD) (n : ℕ) (h : n ≤ cfg3.N) (hz : n ≠ 0) :
    PhiS3 V c n h = iprop(owns (c : Thread nD τ) scM3_0 fullShare ((outsAt3 V c (n - 1) (by omega)).2.2) ∗ rest3 c ∗ (∃ r, prngReg c r)) := by
  cases n with
  | zero => exact absurd rfl hz
  | succ n => rfl

/-! ## The pipeline's proof data -/

/-- The proof data of pipeline 3 on core `c`: the arrays as the region finds them; after the body at point `t` each
    input's buffer at its block and the outputs' at `outsAt3`'s components; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]
theorem after3_7 (c : Dev nD) (t : Fin cfg3.N) : (dat3 V c).after 7 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 8000000 in
/-- The body at any point: the inputs' memrefs hold their blocks; `t mod 8` says which case the point is in; the
    invariant hands the body the accumulator at what the point before left (at anything at the first point) and
    takes it back at this point's contents; the other scoped buffers, the generator register and the core's debt
    pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    · -- the first step along the second axis
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [show (dat3 V c).leavesExact 7 t = owns (c : Thread nD τ) (ms3_7 t) fullShare ((dat3 V c).after 7 t) from by
        unfold Dat.leavesExact; rw [liveAt3_7 t], after3_7]
      rw [outsAt3_A V c t h0 h1]
      unfold out3_A_7 sout3_A_0; (try dsimp only)
      by_cases hz : t.val = 0
      · rw [PhiS3_castSucc V c t, PhiS3_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HΦ' := (PhiA3_split c) $$ HΦ
        icases HΦ' with ⟨HS0, Hr, Hg⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hr Hg]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        unfold owns; iexists _; isplitr
        swap; · iexact H7
        ipureintro; exact View.read_writes_of_cover _ _ _ _ _ (cover3_A_7 c _ _ _ _ _ _ _ _ _ _ _ _ _ _ _ _ _ _ _ _ _ _ _ _ _ _ _)
      · rw [PhiS3_castSucc V c t, PhiS3_pos V c _ _ hz]
        iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexists _; iexact HS0
        iintro ⟨H0, H1, H2, H3, H4, H5, H6, ⟨%e7, H7⟩, ⟨%es0, HS0⟩⟩
        isplitl [HS0 Hr Hg]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        unfold owns; iexists _; isplitr
        swap; · iexact H7
        ipureintro; exact View.read_writes_of_cover _ _ _ _ _ (cover3_A_7 c _ _ _ _ _ _ _ _ _ _ _ _ _ _ _ _ _ _ _ _ _ _ _ _ _ _ _)
  · by_cases h1 : t.val % 8 = 7
    · -- the last step
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [show (dat3 V c).leavesExact 6 t = owns (c : Thread nD τ) (ms3_6 t) fullShare ((dat3 V c).after 6 t) from by
        unfold Dat.leavesExact; rw [liveAt3_6_C t (fun h => h0 ((hcond3_0 t).mp h)) ((hcond3_1 t).mpr h1)], after3_6]
      rw [show (dat3 V c).leavesExact 7 t = owns (c : Thread nD τ) (ms3_7 t) fullShare ((dat3 V c).after 7 t) from by
        unfold Dat.leavesExact; rw [liveAt3_7 t], after3_7]
      rw [outsAt3_C V c t h0 h1]
      unfold out3_C_6 out3_C_7 sout3_C_0; (try dsimp only)
      by_cases hz : t.val = 0
      · exfalso; omega
      · rw [PhiS3_castSucc V c t, PhiS3_pos V c _ _ hz]
        iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hr Hg]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_C_6 c _ _ _ _ _ _ _ _ _ _ _ _ _ _ _ _ _ _ _ _ _ _ _ _ _ _ _ _)
        unfold owns; iexists _; isplitr
        swap; · iexact H7
        ipureintro; exact View.read_writes_of_cover _ _ _ _ _ (cover3_C_7 c _ _ _ _ _ _ _ _ _ _ _ _ _ _ _ _ _ _ _ _ _ _ _ _ _ _ _ _)
    · -- a middle step
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [show (dat3 V c).leavesExact 7 t = owns (c : Thread nD τ) (ms3_7 t) fullShare ((dat3 V c).after 7 t) from by
        unfold Dat.leavesExact; rw [liveAt3_7 t], after3_7]
      rw [outsAt3_B V c t h0 h1]
      unfold out3_B_7 sout3_B_0; (try dsimp only)
      by_cases hz : t.val = 0
      · exfalso; omega
      · rw [PhiS3_castSucc V c t, PhiS3_pos V c _ _ hz]
        iintro ⟨⟨HS0, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hr Hg]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _ _ _ _ _ _)
          isplitl [Hr]; · iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        unfold owns; iexists _; isplitr
        swap; · iexact H7
        ipureintro; exact View.read_writes_of_cover _ _ _ _ _ (cover3_B_7 c _ _ _ _ _ _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- The accumulator at named contents, the other scoped buffers and the generator register give the class's
    invariant back: the accumulator's contents are forgotten. -/
theorem PhiA3_join' (c : Dev nD) (x : Vec F S8x512x128 .f32) :
    iprop(owns (c : Thread nD τ) scM3_0 fullShare x ∗ rest3 c ∗ (∃ r, prngReg c r)) ⊢ (Pipeline.ΦA spec3 c : sProp 𝕄) := by
  have h : iprop(owns (c : Thread nD τ) scM3_0 fullShare x ∗ rest3 c ∗ (∃ r, prngReg c r))
      ⊢ (iprop((∃ d, owns (c : Thread nD τ) scM3_0 fullShare d) ∗ rest3 c ∗ (∃ r, prngReg c r)) : sProp 𝕄) := by
    iintro ⟨HS0, Hr, Hg⟩
    isplitl [HS0]
    · iexists _; iexact HS0
    isplitl [Hr]; · iexact Hr
    iexact Hg
  exact Idealize.SL.BI.Entails.trans h (PhiA3_join c)

/-- After any point but the first the invariant gives the class's back. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht]
  exact PhiA3_join' c _

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Hand

end
-- ==== Proof.KI.Region4.lean ====
/-
  Region 4: the dense projection `x @ W` of pallas_call 4, one row block of 512 rows per grid point.

  The body reads its input block (window 0) and the whole weight (window 1), reads the output buffer's old
  contents (unused), and stores the matrix product into the output buffer (window 2) whole. What it leaves in the
  output buffer is therefore a closed function of the two input blocks; this file states that function, the
  body's triple, the pipeline's proof data at any buffer contents `V` the region may be entered from, and the
  body obligation at every grid point.
-/
import proofs.«152551_j88132728914059_1_alg».proof.Proof.Gen.KernelIdeal.Launch
import proofs.«152551_j88132728914059_1_alg».proof.Proof.Gen.KernelIdeal.Skeleton
import proofs.«152551_j88132728914059_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 512 x 1024 rectangle is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-block input's staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight's staging buffer holds the whole weight at every point: it is fetched at the first point only, and
    where it is not fetched its block index has not moved, so the buffer still holds the same block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 512 x 1024 buffer as a rectangle (the input block's load, the output's load and store). -/
abbrev r4_0 : Rect S512x1024 := Rect.unit (s := S512x1024) ![0, 0] S512x1024.size inb_S512x1024_S512x1024_0_0
/-- The whole 1024 x 1024 weight buffer as a rectangle. -/
abbrev r4_1 : Rect S1024x1024 := Rect.unit (s := S1024x1024) ![0, 0] S1024x1024.size inb_S1024x1024_S1024x1024_0_0

/-! ## What the body leaves in the output window's buffer -/

/-- The output buffer after the body, from the two input blocks: the one store's payload (the product of the
    block and the weight, accumulated from zero) laid over the whole buffer. -/
def out4_2 (x0 : Vec F S512x1024 .bf16) (x1 : Vec F S1024x1024 .bf16) : Vec F S512x1024 .f32 :=
  View.canon [⟨r4_0, k4_pay1 (View.ld x0 r4_0) (View.ld x1 r4_1)⟩]

/-- The one store's rectangle is the whole buffer, so it covers it. -/
theorem cover4_2 (p0 : Vec F S512x1024 .f32) (y : S512x1024.Idx) :
    ∃ pc ∈ ([⟨r4_0, p0⟩] : List (View.Piece (Elt F) S512x1024 .f32)), y ∈ pc.1.set :=
  View.cover_of_tiled [⟨r4_0, p0⟩] S512x1024.size (by rfl) y

/-! ## The body's triple -/

set_option maxHeartbeats 1000000 in
/-- The body on whole staging memrefs, the inputs' at read contents `x0`, `x1` and the output's at anything, runs to
    the continuation holding the inputs' as they were and the output's at `out4_2 x0 x1`. The load of the output
    buffer reads its old contents, which nothing uses. -/
theorem sound_kernel4 (c : Dev nD) (E : Set ℕ) (i : grid4.Coords) (arg1 : Memref sig .tc .vmem S512x1024 .bf16) (harg1 : arg1.IsWhole)
    (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__proj_kernel i arg1 harg1 arg2 harg2 arg3 harg3) K := by
  simp only [cc4__proj_kernel_eq_skeleton]; unfold cc4__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them; after the body at point `t` each
    input's buffer at its block and the output's at `out4_2` of the input blocks; the invariant is the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of the idealized kernel program through its eleven segments — six stretches of host operations and five
  kernel regions — with the contents of every unscoped buffer named at each boundary: after a host stretch the
  stretch's operations applied to the contents before it; after a region its windows' arrays at what the pipeline's
  write-backs leave and every other buffer as the region found it. The last boundary's contents are read against
  the final memory, so the run's post names every buffer, the two results among them; the argument arrays are written
  by no stretch and are no output window's array, so they end as launched.
-/
import proofs.«152551_j88132728914059_1_alg».proof.Proof.Gen.KernelIdeal.Regions
import proofs.«152551_j88132728914059_1_alg».proof.Proof.KI.Region0
import proofs.«152551_j88132728914059_1_alg».proof.Proof.KI.Region1
import proofs.«152551_j88132728914059_1_alg».proof.Proof.KI.Region2
import proofs.«152551_j88132728914059_1_alg».proof.Proof.KI.Attn.Region3
import proofs.«152551_j88132728914059_1_alg».proof.Proof.KI.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its windows' arrays at what the write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its windows' arrays at what the write-backs leave, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: its windows' arrays at what the write-backs leave, every other buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch before region 3. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After region 3: its windows' arrays at what the write-backs leave, every other buffer as the region found it. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch before region 4. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After region 4: its windows' arrays at what the write-backs leave, every other buffer as the region found it. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the last host stretch: what the final memory holds. -/
abbrev W11 : Dev nD → Valuation τ sig (Elt F) := fun c => StableHlo.after hostOps5 (W10 m ρ c)

/-- A buffer that no host stretch writes and that is no window's array ends as launched. -/
theorem W11_kept (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) (a4 : ∀ w, Pipeline.arrRef spec4 w ≠ b) :
    W11 m ρ c (Proc.devRef .tc b) = m ((c : Thread nD τ).loc b) :=
  calc W11 m ρ c (Proc.devRef .tc b)
    _ = W10 m ρ c (Proc.devRef .tc b) := StableHlo.after_of_writes_sub hostOps5 _ hostOps5_writes h5
    _ = W9 m ρ c (Proc.devRef .tc b) := W10_of_ne m ρ c b a4
    _ = W8 m ρ c (Proc.devRef .tc b) := StableHlo.after_of_writes_sub hostOps4 _ hostOps4_writes h4
    _ = W7 m ρ c (Proc.devRef .tc b) := W8_of_ne m ρ c b a3
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W11_main_arg0 (c : Dev nD) : W11 m ρ c (Proc.devRef .tc main_arg0) = m ((c : Thread nD τ).loc main_arg0) :=
  W11_kept m ρ c main_arg0 (by decide) (by decide) (by decide) (by decide) (by decide) (by decide) (by decide) (by decide) (by decide) (by decide) (by decide)
theorem W11_main_arg1 (c : Dev nD) : W11 m ρ c (Proc.devRef .tc main_arg1) = m ((c : Thread nD τ).loc main_arg1) :=
  W11_kept m ρ c main_arg1 (by decide) (by decide) (by decide) (by decide) (by decide) (by decide) (by decide) (by decide) (by decide) (by decide) (by decide)
theorem W11_main_arg2 (c : Dev nD) : W11 m ρ c (Proc.devRef .tc main_arg2) = m ((c : Thread nD τ).loc main_arg2) :=
  W11_kept m ρ c main_arg2 (by decide) (by decide) (by decide) (by decide) (by decide) (by decide) (by decide) (by decide) (by decide) (by decide) (by decide)
theorem W11_main_arg3 (c : Dev nD) : W11 m ρ c (Proc.devRef .tc main_arg3) = m ((c : Thread nD τ).loc main_arg3) :=
  W11_kept m ρ c main_arg3 (by decide) (by decide) (by decide) (by decide) (by decide) (by decide) (by decide) (by decide) (by decide) (by decide) (by decide)
theorem W11_main_arg4 (c : Dev nD) : W11 m ρ c (Proc.devRef .tc main_arg4) = m ((c : Thread nD τ).loc main_arg4) :=
  W11_kept m ρ c main_arg4 (by decide) (by decide) (by decide) (by decide) (by decide) (by decide) (by decide) (by decide) (by decide) (by decide) (by decide)
theorem W11_main_arg5 (c : Dev nD) : W11 m ρ c (Proc.devRef .tc main_arg5) = m ((c : Thread nD τ).loc main_arg5) :=
  W11_kept m ρ c main_arg5 (by decide) (by decide) (by decide) (by decide) (by decide) (by decide) (by decide) (by decide) (by decide) (by decide) (by decide)
theorem W11_main_arg6 (c : Dev nD) : W11 m ρ c (Proc.devRef .tc main_arg6) = m ((c : Thread nD τ).loc main_arg6) :=
  W11_kept m ρ c main_arg6 (by decide) (by decide) (by decide) (by decide) (by decide) (by decide) (by decide) (by decide) (by decide) (by decide) (by decide)
theorem W11_main_arg7 (c : Dev nD) : W11 m ρ c (Proc.devRef .tc main_arg7) = m ((c : Thread nD τ).loc main_arg7) :=
  W11_kept m ρ c main_arg7 (by decide) (by decide) (by decide) (by decide) (by decide) (by decide) (by decide) (by decide) (by decide) (by decide) (by decide)
theorem W11_main_arg8 (c : Dev nD) : W11 m ρ c (Proc.devRef .tc main_arg8) = m ((c : Thread nD τ).loc main_arg8) :=
  W11_kept m ρ c main_arg8 (by decide) (by decide) (by decide) (by decide) (by decide) (by decide) (by decide) (by decide) (by decide) (by decide) (by decide)
theorem W11_main_arg9 (c : Dev nD) : W11 m ρ c (Proc.devRef .tc main_arg9) = m ((c : Thread nD τ).loc main_arg9) :=
  W11_kept m ρ c main_arg9 (by decide) (by decide) (by decide) (by decide) (by decide) (by decide) (by decide) (by decide) (by decide) (by decide) (by decide)
theorem W11_main_arg10 (c : Dev nD) : W11 m ρ c (Proc.devRef .tc main_arg10) = m ((c : Thread nD τ).loc main_arg10) :=
  W11_kept m ρ c main_arg10 (by decide) (by decide) (by decide) (by decide) (by decide) (by decide) (by decide) (by decide) (by decide) (by decide) (by decide)

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

/-! ## The regions as segments -/

theorem sep_swap_emp (P Q : sProp 𝕄) : iprop(P ∗ Q) ⊢ iprop(Q ∗ emp ∗ P) := by
  iintro ⟨Hr, Hp⟩
  isplitl [Hp]; · iexact Hp
  isplitr; · iempintro
  iexact Hr

set_option backward.isDefEq.respectTransparency.types false in
/-- Region 0 over the thread state: entered from every unscoped buffer at `W1`, left at `W2`; its arrays split out
    of the unscoped buffers and put back at the exit contents; the generator register into the invariant and out;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; its arrays split out
    of the unscoped buffers and put back at the exit contents; the generator register into the invariant and out;
    nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`; its arrays split out
    of the unscoped buffers and put back at the exit contents; the generator register into the invariant and out;
    nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`; its arrays split out
    of the unscoped buffers and put back at the exit contents; the generator register into the invariant and out;
    nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    iintro ⟨Hp, -, Hr⟩
    iapply (hin3 (V7 m ρ) c)
    unfold Pipeline.ΦA
    isplitl [Hr]; · iexact Hr
    iexact Hp
  hout c := by
    rw [Pipeline.ownSems0_none, show (pdats m ρ 3 c).Φ (Fin.last _) = (dat3 (V7 m ρ) c).Φ (Fin.last cfg3.N) from rfl]
    have hΦ := hout3 (V7 m ρ) c
    unfold Pipeline.ΦA at hΦ
    exact hΦ.trans (sep_swap_emp _ _)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`; its arrays split out
    of the unscoped buffers and put back at the exit contents; the generator register into the invariant and out;
    nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

set_option backward.isDefEq.respectTransparency.types false in
/-- Every weakly fair execution of the program from `m` with zero counters terminates, nothing faulting, and the final
    memory holds every unscoped buffer at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W11 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩) (run_all m ρ)

end Cert.KernelIdeal.Hand

end
-- ==== Proof.KI.ProjSpec.lean ====
/-
  The dense projection as a function of its two operand arrays: entry (r, c) of the product of a 4096 x 1024
  array of rows with a 1024 x 1024 weight is the sum over the contraction index k of row entry (r, k) times weight
  entry (k, c), over the extended reals. Stated over literal shapes, with no program in sight, so that the kernel's
  side and the reference's side can both be set against it.
-/
import Idealize.ShloMosaic.PureOps.Ideal
import Idealize.ShloMosaic.Lib.ValueIdx

noncomputable section

namespace Cert.Spec

open Idealize.ShloMosaic Idealize.ShloMosaic.ValueIdx

/-- The product of `x` (4096 rows of 1024 entries) and `w` (1024 x 1024), entry by entry. -/
def projVal (x : (⟨2, ![4096, 1024]⟩ : Shape).Idx → EReal) (w : (⟨2, ![1024, 1024]⟩ : Shape).Idx → EReal) :
    (⟨2, ![4096, 1024]⟩ : Shape).Idx → EReal :=
  fun i => ∑ k : Fin 1024, x (ix2 (n0 := 4096) (n1 := 1024) (i 0) k) * w (ix2 (n0 := 1024) (n1 := 1024) k (i 1))

/-- The product read at an index, by definition. -/
theorem projVal_apply (x : (⟨2, ![4096, 1024]⟩ : Shape).Idx → EReal) (w : (⟨2, ![1024, 1024]⟩ : Shape).Idx → EReal)
    (i : (⟨2, ![4096, 1024]⟩ : Shape).Idx) :
    projVal x w i = ∑ k : Fin 1024, x (ix2 (n0 := 4096) (n1 := 1024) (i 0) k) * w (ix2 (n0 := 1024) (n1 := 1024) k (i 1)) := rfl

end Cert.Spec

end
-- ==== Proof.KI.Val0.lean ====
/-
  The value of region 0 at the ideal values: after the region, the result array holds the product of the rows
  array and the weight array as the region found them, entry by entry; the two operand arrays are as found.

  Each grid point t writes back rows 512 t .. 512 t + 511 of the result. What it writes is the body's matrix product of
  the rows block at t (the same 512 rows of the rows array) with the whole weight, and a matrix product into a zero
  accumulator read at an entry is the sum over the contraction index of the operands' products. The eight blocks
  tile the result array, so the array ends as the product everywhere.
-/
import proofs.«152551_j88132728914059_1_alg».proof.Proof.KI.Region0
import proofs.«152551_j88132728914059_1_alg».proof.Proof.KI.ProjSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-! ## The operand arrays are kept (any float instance) -/

section Kept
variable {F : FTy → Type} [FloatOps F]
variable (V : (c : Dev nD) → (b : Ref sig .tc) → Buf (Elt F) ((c : Thread nD τ).loc b))

/-- The rows array is an input: no point writes it back. -/
theorem kept0_0 (c : Dev nD) : (dat0 V c).arrAt 0 cfg0.N = V c main_v0 :=
  ((dat0 V c).arrAt_in 0 rfl _).trans (A_eq0 V c 0)

/-- The weight array is an input: no point writes it back. -/
theorem kept0_1 (c : Dev nD) : (dat0 V c).arrAt 1 cfg0.N = V c main_v1 :=
  ((dat0 V c).arrAt_in 1 rfl _).trans (A_eq0 V c 1)

end Kept

/-! ## The body's payload at an entry -/

theorem hz0 : (![0, 0] : Fin 2 → Nat) = fun _ => 0 := funext fun a => by fin_cases a <;> rfl

/-- The left operand's index at output entry `i` and contraction index `q`: row `i 0`, -/
theorem lhs0_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- column `q`. -/
theorem lhs0_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's: row `q`, -/
theorem rhs0_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- column `i 1`. -/
theorem rhs0_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The body's matrix product of a 512 x 1024 block with the 1024 x 1024 weight, read at entry (r, c): the sum over
    k of block entry (r, k) times weight entry (k, c). The two shape casts are between equal shapes, the accumulator
    is the zero splat, and the one-axis contraction index is a number below 1024. -/
theorem pay0_apply (x0 : FVec Ideal S512x1024 .bf16) (x1 : FVec Ideal S1024x1024 .bf16) (j : S512x1024.Idx) :
    k0_pay1 (F := Ideal) x0 x1 j
      = ∑ k : Fin 1024, x0 (ix2 (n0 := 512) (n1 := 1024) (j 0) k) * x1 (ix2 (n0 := 1024) (n1 := 1024) k (j 1)) := by
  unfold k0_pay1
  show FloatOps.matmul dot_S512x1024_S1024x1024_S512x1024_1_0_0_1_n_n none
      (shapeCast S512x1024 x0 shapeCasts_S512x1024_S512x1024) (shapeCast S1024x1024 x1 shapeCasts_S1024x1024_S1024x1024)
      (constant S512x1024 .f32 0x00000000#32) j = _
  refine (Ideal.matmul_constant_zero_apply dot_S512x1024_S1024x1024_S512x1024_1_0_0_1_n_n none _ _ j).trans ?_
  rw [shapeCast_self, shapeCast_self,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx j ((contrEquiv1 dot_S512x1024_S1024x1024_S512x1024_1_0_0_1_n_n 1024 rfl rfl).symm k)
      = ix2 (n0 := 512) (n1 := 1024) (j 0) k := funext fun a => Fin.ext (by
    match a with
    | ⟨0, _⟩ => exact lhs0_0 _ _
    | ⟨1, _⟩ => exact (lhs0_1 _ _).trans hk)
  have er : dot_S512x1024_S1024x1024_S512x1024_1_0_0_1_n_n.rhsIdx j ((contrEquiv1 dot_S512x1024_S1024x1024_S512x1024_1_0_0_1_n_n 1024 rfl rfl).symm k)
      = ix2 (n0 := 1024) (n1 := 1024) k (j 1) := funext fun a => Fin.ext (by
    match a with
    | ⟨0, _⟩ => exact (rhs0_0 _ _).trans hk
    | ⟨1, _⟩ => exact rhs0_1 _ _)
  rw [el, er]

/-! ## From the blocks to the array -/

variable (V : (c : Dev nD) → (b : Ref sig .tc) → Buf (Elt Ideal) ((c : Thread nD τ).loc b))

/-- The index maps, decided over the eight points: the rows window and the result window sit on the same block of
    rows; every other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every block of rows is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the product of the rows array and the weight array. -/
theorem flushed0_2_eq (c : Dev nD) (t : Fin cfg0.N) :
    (dat0 (F := Ideal) V c).flushed 2 t
      = ((cfg0.win 2).blk t).view.read (Elt Ideal) (projVal (V c main_v0) (V c main_v1)) := by
  show (cfg0.win 2).cut (grid0.coords t) ((dat0 V c).after 2 t) = _
  rw [after0_2]
  unfold out0_2
  rw [View.canon_unit_zero hz0]
  simp only [View.ld_unit_zero (S := S512x1024) hz0, View.ld_unit_zero (S := S1024x1024) hz0]
  obtain ⟨e0, e1, e2, e3, e4, e5⟩ := idx_facts0 t
  funext j
  show k0_pay1 (F := Ideal) (iblk0 V c 0 t) (iblk0 V c 1 t) j
      = projVal (V c main_v0) (V c main_v1) (((cfg0.win 2).blk t).view.emb j)
  refine (pay0_apply _ _ j).trans ?_
  rw [projVal_apply]
  refine Finset.sum_congr rfl fun k _ => ?_
  have h0 : ((cfg0.win 0).blk t).view.emb (ix2 (n0 := 512) (n1 := 1024) (j 0) k)
      = ix2 (n0 := 4096) (n1 := 1024) ((((cfg0.win 2).blk t).view.emb j) 0) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  have h1 : ((cfg0.win 1).blk t).view.emb (ix2 (n0 := 1024) (n1 := 1024) k (j 1))
      = ix2 (n0 := 1024) (n1 := 1024) k ((((cfg0.win 2).blk t).view.emb j) 1) := by
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega
  have key : ∀ (A : S4096x1024.Idx → EReal) (W : S1024x1024.Idx → EReal),
      A (((cfg0.win 0).blk t).view.emb (ix2 (n0 := 512) (n1 := 1024) (j 0) k))
          * W (((cfg0.win 1).blk t).view.emb (ix2 (n0 := 1024) (n1 := 1024) k (j 1)))
        = A (ix2 (n0 := 4096) (n1 := 1024) ((((cfg0.win 2).blk t).view.emb j) 0) k)
          * W (ix2 (n0 := 1024) (n1 := 1024) k ((((cfg0.win 2).blk t).view.emb j) 1)) := fun A W => by rw [h0, h1]
  exact key (V c main_v0) (V c main_v1)

/-- An index of the result array is in point `t`'s block iff each coordinate is in the block's range on its axis. -/
theorem mem_blk0 (t : Fin cfg0.N) (i : S4096x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v2).slice (win0_2.rect t)).set ↔ _
  rw [View.set_slice_whole, Rect.mem_set_unit]
  exact Iff.rfl

/-- The eight blocks of rows tile the result array: row r is in the block of point r / 512. -/
theorem cover0 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the region: the product of the rows array and the weight array as the region found
    them. -/
theorem final0_2 (c : Dev nD) :
    (dat0 (F := Ideal) V c).arrAt 2 cfg0.N = projVal (V c main_v0) (V c main_v1) :=
  (dat0 V c).arrAt_eq_of_cover 2 (projVal (V c main_v0) (V c main_v1)) (fun t _ => flushed0_2_eq V c t) (cover0)

end Cert.KernelIdeal.Hand

end
-- ==== Proof.KI.Val1.lean ====
/-
  The value of region 1 at the ideal values: after the region, the result array holds the product of the rows
  array and the weight array as the region found them, entry by entry; the two operand arrays are as found.

  Each grid point t writes back rows 512 t .. 512 t + 511 of the result. What it writes is the body's matrix product of
  the rows block at t (the same 512 rows of the rows array) with the whole weight, and a matrix product into a zero
  accumulator read at an entry is the sum over the contraction index of the operands' products. The eight blocks
  tile the result array, so the array ends as the product everywhere.
-/
import proofs.«152551_j88132728914059_1_alg».proof.Proof.KI.Region1
import proofs.«152551_j88132728914059_1_alg».proof.Proof.KI.ProjSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-! ## The operand arrays are kept (any float instance) -/

section Kept
variable {F : FTy → Type} [FloatOps F]
variable (V : (c : Dev nD) → (b : Ref sig .tc) → Buf (Elt F) ((c : Thread nD τ).loc b))

/-- The rows array is an input: no point writes it back. -/
theorem kept1_0 (c : Dev nD) : (dat1 V c).arrAt 0 cfg1.N = V c main_v0 :=
  ((dat1 V c).arrAt_in 0 rfl _).trans (A_eq1 V c 0)

/-- The weight array is an input: no point writes it back. -/
theorem kept1_1 (c : Dev nD) : (dat1 V c).arrAt 1 cfg1.N = V c main_v3 :=
  ((dat1 V c).arrAt_in 1 rfl _).trans (A_eq1 V c 1)

end Kept

/-! ## The body's payload at an entry -/

theorem hz1 : (![0, 0] : Fin 2 → Nat) = fun _ => 0 := funext fun a => by fin_cases a <;> rfl

/-- The left operand's index at output entry `i` and contraction index `q`: row `i 0`, -/
theorem lhs1_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- column `q`. -/
theorem lhs1_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's: row `q`, -/
theorem rhs1_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- column `i 1`. -/
theorem rhs1_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The body's matrix product of a 512 x 1024 block with the 1024 x 1024 weight, read at entry (r, c): the sum over
    k of block entry (r, k) times weight entry (k, c). The two shape casts are between equal shapes, the accumulator
    is the zero splat, and the one-axis contraction index is a number below 1024. -/
theorem pay1_apply (x0 : FVec Ideal S512x1024 .bf16) (x1 : FVec Ideal S1024x1024 .bf16) (j : S512x1024.Idx) :
    k1_pay1 (F := Ideal) x0 x1 j
      = ∑ k : Fin 1024, x0 (ix2 (n0 := 512) (n1 := 1024) (j 0) k) * x1 (ix2 (n0 := 1024) (n1 := 1024) k (j 1)) := by
  unfold k1_pay1
  show FloatOps.matmul dot_S512x1024_S1024x1024_S512x1024_1_0_0_1_n_n none
      (shapeCast S512x1024 x0 shapeCasts_S512x1024_S512x1024) (shapeCast S1024x1024 x1 shapeCasts_S1024x1024_S1024x1024)
      (constant S512x1024 .f32 0x00000000#32) j = _
  refine (Ideal.matmul_constant_zero_apply dot_S512x1024_S1024x1024_S512x1024_1_0_0_1_n_n none _ _ j).trans ?_
  rw [shapeCast_self, shapeCast_self,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx j ((contrEquiv1 dot_S512x1024_S1024x1024_S512x1024_1_0_0_1_n_n 1024 rfl rfl).symm k)
      = ix2 (n0 := 512) (n1 := 1024) (j 0) k := funext fun a => Fin.ext (by
    match a with
    | ⟨0, _⟩ => exact lhs1_0 _ _
    | ⟨1, _⟩ => exact (lhs1_1 _ _).trans hk)
  have er : dot_S512x1024_S1024x1024_S512x1024_1_0_0_1_n_n.rhsIdx j ((contrEquiv1 dot_S512x1024_S1024x1024_S512x1024_1_0_0_1_n_n 1024 rfl rfl).symm k)
      = ix2 (n0 := 1024) (n1 := 1024) k (j 1) := funext fun a => Fin.ext (by
    match a with
    | ⟨0, _⟩ => exact (rhs1_0 _ _).trans hk
    | ⟨1, _⟩ => exact rhs1_1 _ _)
  rw [el, er]

/-! ## From the blocks to the array -/

variable (V : (c : Dev nD) → (b : Ref sig .tc) → Buf (Elt Ideal) ((c : Thread nD τ).loc b))

/-- The index maps, decided over the eight points: the rows window and the result window sit on the same block of
    rows; every other block index is zero. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every block of rows is some point's. -/
theorem idx_onto1 : ∀ q0 : Fin 8, ∃ t : Fin cfg1.N, win1_2.index t = ![q0.val, 0] :=
  (by decide +kernel : ∀ q0 : Fin 8, ∃ t : Fin grid1.N, win1_2.index t = ![q0.val, 0])

/-- What point `t` writes back is block `t` of the product of the rows array and the weight array. -/
theorem flushed1_2_eq (c : Dev nD) (t : Fin cfg1.N) :
    (dat1 (F := Ideal) V c).flushed 2 t
      = ((cfg1.win 2).blk t).view.read (Elt Ideal) (projVal (V c main_v0) (V c main_v3)) := by
  show (cfg1.win 2).cut (grid1.coords t) ((dat1 V c).after 2 t) = _
  rw [after1_2]
  unfold out1_2
  rw [View.canon_unit_zero hz1]
  simp only [View.ld_unit_zero (S := S512x1024) hz1, View.ld_unit_zero (S := S1024x1024) hz1]
  obtain ⟨e0, e1, e2, e3, e4, e5⟩ := idx_facts1 t
  funext j
  show k1_pay1 (F := Ideal) (iblk1 V c 0 t) (iblk1 V c 1 t) j
      = projVal (V c main_v0) (V c main_v3) (((cfg1.win 2).blk t).view.emb j)
  refine (pay1_apply _ _ j).trans ?_
  rw [projVal_apply]
  refine Finset.sum_congr rfl fun k _ => ?_
  have h0 : ((cfg1.win 0).blk t).view.emb (ix2 (n0 := 512) (n1 := 1024) (j 0) k)
      = ix2 (n0 := 4096) (n1 := 1024) ((((cfg1.win 2).blk t).view.emb j) 0) k := by
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 1024 + 1 * k.val = k.val; omega
  have h1 : ((cfg1.win 1).blk t).view.emb (ix2 (n0 := 1024) (n1 := 1024) k (j 1))
      = ix2 (n0 := 1024) (n1 := 1024) k ((((cfg1.win 2).blk t).view.emb j) 1) := by
    funext a; apply Fin.ext
    match a with
    | ⟨0, _⟩ => show win1_1.index t (0 : Fin 2) * 1024 + 1 * k.val = k.val; omega
    | ⟨1, _⟩ => show win1_1.index t (1 : Fin 2) * 1024 + 1 * (j 1).val = win1_2.index t (1 : Fin 2) * 1024 + 1 * (j 1).val; omega
  have key : ∀ (A : S4096x1024.Idx → EReal) (W : S1024x1024.Idx → EReal),
      A (((cfg1.win 0).blk t).view.emb (ix2 (n0 := 512) (n1 := 1024) (j 0) k))
          * W (((cfg1.win 1).blk t).view.emb (ix2 (n0 := 1024) (n1 := 1024) k (j 1)))
        = A (ix2 (n0 := 4096) (n1 := 1024) ((((cfg1.win 2).blk t).view.emb j) 0) k)
          * W (ix2 (n0 := 1024) (n1 := 1024) k ((((cfg1.win 2).blk t).view.emb j) 1)) := fun A W => by rw [h0, h1]
  exact key (V c main_v0) (V c main_v3)

/-- An index of the result array is in point `t`'s block iff each coordinate is in the block's range on its axis. -/
theorem mem_blk1 (t : Fin cfg1.N) (i : S4096x1024.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v4).slice (win1_2.rect t)).set ↔ _
  rw [View.set_slice_whole, Rect.mem_set_unit]
  exact Iff.rfl

/-- The eight blocks of rows tile the result array: row r is in the block of point r / 512. -/
theorem cover1 (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  obtain ⟨t, ht⟩ := idx_onto1 ⟨(i 0).val / 512, by omega⟩
  have q0 : win1_2.index t (0 : Fin 2) = (i 0).val / 512 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 1024 ≤ (i 1).val ∧ (i 1).val < win1_2.index t (1 : Fin 2) * 1024 + 1024; omega

/-- The result array after the region: the product of the rows array and the weight array as the region found
    them. -/
theorem final1_2 (c : Dev nD) :
    (dat1 (F := Ideal) V c).arrAt 2 cfg1.N = projVal (V c main_v0) (V c main_v3) :=
  (dat1 V c).arrAt_eq_of_cover 2 (projVal (V c main_v0) (V c main_v3)) (fun t _ => flushed1_2_eq V c t) (cover1)

end Cert.KernelIdeal.Hand

end
-- ==== Proof.KI.Val2.lean ====
/-
  The value of region 2 at the ideal values: after the region, the result array holds the product of the rows
  array and the weight array as the region found them, entry by entry; the two operand arrays are as found.

  Each grid point t writes back rows 512 t .. 512 t + 511 of the result. What it writes is the body's matrix product of
  the rows block at t (the same 512 rows of the rows array) with the whole weight, and a matrix product into a zero
  accumulator read at an entry is the sum over the contraction index of the operands' products. The eight blocks
  tile the result array, so the array ends as the product everywhere.
-/
import proofs.«152551_j88132728914059_1_alg».proof.Proof.KI.Region2
import proofs.«152551_j88132728914059_1_alg».proof.Proof.KI.ProjSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-! ## The operand arrays are kept (any float instance) -/

section Kept
variable {F : FTy → Type} [FloatOps F]
variable (V : (c : Dev nD) → (b : Ref sig .tc) → Buf (Elt F) ((c : Thread nD τ).loc b))

/-- The rows array is an input: no point writes it back. -/
theorem kept2_0 (c : Dev nD) : (dat2 V c).arrAt 0 cfg2.N = V c main_v0 :=
  ((dat2 V c).arrAt_in 0 rfl _).trans (A_eq2 V c 0)

/-- The weight array is an input: no point writes it back. -/
theorem kept2_1 (c : Dev nD) : (dat2 V c).arrAt 1 cfg2.N = V c main_v5 :=
  ((dat2 V c).arrAt_in 1 rfl _).trans (A_eq2 V c 1)

end Kept

/-! ## The body's payload at an entry -/

theorem hz2 : (![0, 0] : Fin 2 → Nat) = fun _ => 0 := funext fun a => by fin_cases a <;> rfl

/-- The left operand's index at output entry `i` and contraction index `q`: row `i 0`, -/
theorem lhs2_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- column `q`. -/
theorem lhs2_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's: row `q`, -/
theorem rhs2_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- column `i 1`. -/
theorem rhs2_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The body's matrix product of a 512 x 1024 block with the 1024 x 1024 weight, read at entry (r, c): the sum over
    k of block entry (r, k) times weight entry (k, c). The two shape casts are between equal shapes, the accumulator
    is the zero splat, and the one-axis contraction index is a number below 1024. -/
theorem pay2_apply (x0 : FVec Ideal S512x1024 .bf16) (x1 : FVec Ideal S1024x1024 .bf16) (j : S512x1024.Idx) :
    k2_pay1 (F := Ideal) x0 x1 j
      = ∑ k : Fin 1024, x0 (ix2 (n0 := 512) (n1 := 1024) (j 0) k) * x1 (ix2 (n0 := 1024) (n1 := 1024) k (j 1)) := by
  unfold k2_pay1
  show FloatOps.matmul dot_S512x1024_S1024x1024_S512x1024_1_0_0_1_n_n none
      (shapeCast S512x1024 x0 shapeCasts_S512x1024_S512x1024) (shapeCast S1024x1024 x1 shapeCasts_S1024x1024_S1024x1024)
      (constant S512x1024 .f32 0x00000000#32) j = _
  refine (Ideal.matmul_constant_zero_apply dot_S512x1024_S1024x1024_S512x1024_1_0_0_1_n_n none _ _ j).trans ?_
  rw [shapeCast_self, shapeCast_self,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx j ((contrEquiv1 dot_S512x1024_S1024x1024_S512x1024_1_0_0_1_n_n 1024 rfl rfl).symm k)
      = ix2 (n0 := 512) (n1 := 1024) (j 0) k := funext fun a => Fin.ext (by
    match a with
    | ⟨0, _⟩ => exact lhs2_0 _ _
    | ⟨1, _⟩ => exact (lhs2_1 _ _).trans hk)
  have er : dot_S512x1024_S1024x1024_S512x1024_1_0_0_1_n_n.rhsIdx j ((contrEquiv1 dot_S512x1024_S1024x1024_S512x1024_1_0_0_1_n_n 1024 rfl rfl).symm k)
      = ix2 (n0 := 1024) (n1 := 1024) k (j 1) := funext fun a => Fin.ext (by
    match a with
    | ⟨0, _⟩ => exact (rhs2_0 _ _).trans hk
    | ⟨1, _⟩ => exact rhs2_1 _ _)
  rw [el, er]

/-! ## From the blocks to the array -/

variable (V : (c : Dev nD) → (b : Ref sig .tc) → Buf (Elt Ideal) ((c : Thread nD τ).loc b))

/-- The index maps, decided over the eight points: the rows window and the result window sit on the same block of
    rows; every other block index is zero. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 7 :=
  (by decide +kernel : ∀ t : Fin grid2.N, _)

/-- Every block of rows is some point's. -/
theorem idx_onto2 : ∀ q0 : Fin 8, ∃ t : Fin cfg2.N, win2_2.index t = ![q0.val, 0] :=
  (by decide +kernel : ∀ q0 : Fin 8, ∃ t : Fin grid2.N, win2_2.index t = ![q0.val, 0])

/-- What point `t` writes back is block `t` of the product of the rows array and the weight array. -/
theorem flushed2_2_eq (c : Dev nD) (t : Fin cfg2.N) :
    (dat2 (F := Ideal) V c).flushed 2 t
      = ((cfg2.win 2).blk t).view.read (Elt Ideal) (projVal (V c main_v0) (V c main_v5)) := by
  show (cfg2.win 2).cut (grid2.coords t) ((dat2 V c).after 2 t) = _
  rw [after2_2]
  unfold out2_2
  rw [View.canon_unit_zero hz2]
  simp only [View.ld_unit_zero (S := S512x1024) hz2, View.ld_unit_zero (S := S1024x1024) hz2]
  obtain ⟨e0, e1, e2, e3, e4, e5⟩ := idx_facts2 t
  funext j
  show k2_pay1 (F := Ideal) (iblk2 V c 0 t) (iblk2 V c 1 t) j
      = projVal (V c main_v0) (V c main_v5) (((cfg2.win 2).blk t).view.emb j)
  refine (pay2_apply _ _ j).trans ?_
  rw [projVal_apply]
  refine Finset.sum_congr rfl fun k _ => ?_
  have h0 : ((cfg2.win 0).blk t).view.emb (ix2 (n0 := 512) (n1 := 1024) (j 0) k)
      = ix2 (n0 := 4096) (n1 := 1024) ((((cfg2.win 2).blk t).view.emb j) 0) k := by
    funext a; apply Fin.ext
    match a with
    | ⟨0, _⟩ => show win2_0.index t (0 : Fin 2) * 512 + 1 * (j 0).val = win2_2.index t (0 : Fin 2) * 512 + 1 * (j 0).val; omega
    | ⟨1, _⟩ => show win2_0.index t (1 : Fin 2) * 1024 + 1 * k.val = k.val; omega
  have h1 : ((cfg2.win 1).blk t).view.emb (ix2 (n0 := 1024) (n1 := 1024) k (j 1))
      = ix2 (n0 := 1024) (n1 := 1024) k ((((cfg2.win 2).blk t).view.emb j) 1) := by
    funext a; apply Fin.ext
    match a with
    | ⟨0, _⟩ => show win2_1.index t (0 : Fin 2) * 1024 + 1 * k.val = k.val; omega
    | ⟨1, _⟩ => show win2_1.index t (1 : Fin 2) * 1024 + 1 * (j 1).val = win2_2.index t (1 : Fin 2) * 1024 + 1 * (j 1).val; omega
  have key : ∀ (A : S4096x1024.Idx → EReal) (W : S1024x1024.Idx → EReal),
      A (((cfg2.win 0).blk t).view.emb (ix2 (n0 := 512) (n1 := 1024) (j 0) k))
          * W (((cfg2.win 1).blk t).view.emb (ix2 (n0 := 1024) (n1 := 1024) k (j 1)))
        = A (ix2 (n0 := 4096) (n1 := 1024) ((((cfg2.win 2).blk t).view.emb j) 0) k)
          * W (ix2 (n0 := 1024) (n1 := 1024) k ((((cfg2.win 2).blk t).view.emb j) 1)) := fun A W => by rw [h0, h1]
  exact key (V c main_v0) (V c main_v5)

/-- An index of the result array is in point `t`'s block iff each coordinate is in the block's range on its axis. -/
theorem mem_blk2 (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v6).slice (win2_2.rect t)).set ↔ _
  rw [View.set_slice_whole, Rect.mem_set_unit]
  exact Iff.rfl

/-- The eight blocks of rows tile the result array: row r is in the block of point r / 512. -/
theorem cover2 (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := idx_onto2 ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The result array after the region: the product of the rows array and the weight array as the region found
    them. -/
theorem final2_2 (c : Dev nD) :
    (dat2 (F := Ideal) V c).arrAt 2 cfg2.N = projVal (V c main_v0) (V c main_v5) :=
  (dat2 V c).arrAt_eq_of_cover 2 (projVal (V c main_v0) (V c main_v5)) (fun t _ => flushed2_2_eq V c t) (cover2)

end Cert.KernelIdeal.Hand

end
-- ==== Proof.KI.Val4.lean ====
/-
  The value of region 4 at the ideal values: after the region, the result array holds the product of the rows
  array and the weight array as the region found them, entry by entry; the two operand arrays are as found.

  Each grid point t writes back rows 512 t .. 512 t + 511 of the result. What it writes is the body's matrix product of
  the rows block at t (the same 512 rows of the rows array) with the whole weight, and a matrix product into a zero
  accumulator read at an entry is the sum over the contraction index of the operands' products. The eight blocks
  tile the result array, so the array ends as the product everywhere.
-/
import proofs.«152551_j88132728914059_1_alg».proof.Proof.KI.Region4
import proofs.«152551_j88132728914059_1_alg».proof.Proof.KI.ProjSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-! ## The operand arrays are kept (any float instance) -/

section Kept
variable {F : FTy → Type} [FloatOps F]
variable (V : (c : Dev nD) → (b : Ref sig .tc) → Buf (Elt F) ((c : Thread nD τ).loc b))

/-- The rows array is an input: no point writes it back. -/
theorem kept4_0 (c : Dev nD) : (dat4 V c).arrAt 0 cfg4.N = V c main_v47 :=
  ((dat4 V c).arrAt_in 0 rfl _).trans (A_eq4 V c 0)

/-- The weight array is an input: no point writes it back. -/
theorem kept4_1 (c : Dev nD) : (dat4 V c).arrAt 1 cfg4.N = V c main_v48 :=
  ((dat4 V c).arrAt_in 1 rfl _).trans (A_eq4 V c 1)

end Kept

/-! ## The body's payload at an entry -/

theorem hz4 : (![0, 0] : Fin 2 → Nat) = fun _ => 0 := funext fun a => by fin_cases a <;> rfl

/-- The left operand's index at output entry `i` and contraction index `q`: row `i 0`, -/
theorem lhs4_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- column `q`. -/
theorem lhs4_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's: row `q`, -/
theorem rhs4_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- column `i 1`. -/
theorem rhs4_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The body's matrix product of a 512 x 1024 block with the 1024 x 1024 weight, read at entry (r, c): the sum over
    k of block entry (r, k) times weight entry (k, c). The two shape casts are between equal shapes, the accumulator
    is the zero splat, and the one-axis contraction index is a number below 1024. -/
theorem pay4_apply (x0 : FVec Ideal S512x1024 .bf16) (x1 : FVec Ideal S1024x1024 .bf16) (j : S512x1024.Idx) :
    k4_pay1 (F := Ideal) x0 x1 j
      = ∑ k : Fin 1024, x0 (ix2 (n0 := 512) (n1 := 1024) (j 0) k) * x1 (ix2 (n0 := 1024) (n1 := 1024) k (j 1)) := by
  unfold k4_pay1
  show FloatOps.matmul dot_S512x1024_S1024x1024_S512x1024_1_0_0_1_n_n none
      (shapeCast S512x1024 x0 shapeCasts_S512x1024_S512x1024) (shapeCast S1024x1024 x1 shapeCasts_S1024x1024_S1024x1024)
      (constant S512x1024 .f32 0x00000000#32) j = _
  refine (Ideal.matmul_constant_zero_apply dot_S512x1024_S1024x1024_S512x1024_1_0_0_1_n_n none _ _ j).trans ?_
  rw [shapeCast_self, shapeCast_self,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx j ((contrEquiv1 dot_S512x1024_S1024x1024_S512x1024_1_0_0_1_n_n 1024 rfl rfl).symm k)
      = ix2 (n0 := 512) (n1 := 1024) (j 0) k := funext fun a => Fin.ext (by
    match a with
    | ⟨0, _⟩ => exact lhs4_0 _ _
    | ⟨1, _⟩ => exact (lhs4_1 _ _).trans hk)
  have er : dot_S512x1024_S1024x1024_S512x1024_1_0_0_1_n_n.rhsIdx j ((contrEquiv1 dot_S512x1024_S1024x1024_S512x1024_1_0_0_1_n_n 1024 rfl rfl).symm k)
      = ix2 (n0 := 1024) (n1 := 1024) k (j 1) := funext fun a => Fin.ext (by
    match a with
    | ⟨0, _⟩ => exact (rhs4_0 _ _).trans hk
    | ⟨1, _⟩ => exact rhs4_1 _ _)
  rw [el, er]

/-! ## From the blocks to the array -/

variable (V : (c : Dev nD) → (b : Ref sig .tc) → Buf (Elt Ideal) ((c : Thread nD τ).loc b))

/-- The index maps, decided over the eight points: the rows window and the result window sit on the same block of
    rows; every other block index is zero. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 7 :=
  (by decide +kernel : ∀ t : Fin grid4.N, _)

/-- Every block of rows is some point's. -/
theorem idx_onto4 : ∀ q0 : Fin 8, ∃ t : Fin cfg4.N, win4_2.index t = ![q0.val, 0] :=
  (by decide +kernel : ∀ q0 : Fin 8, ∃ t : Fin grid4.N, win4_2.index t = ![q0.val, 0])

/-- What point `t` writes back is block `t` of the product of the rows array and the weight array. -/
theorem flushed4_2_eq (c : Dev nD) (t : Fin cfg4.N) :
    (dat4 (F := Ideal) V c).flushed 2 t
      = ((cfg4.win 2).blk t).view.read (Elt Ideal) (projVal (V c main_v47) (V c main_v48)) := by
  show (cfg4.win 2).cut (grid4.coords t) ((dat4 V c).after 2 t) = _
  rw [after4_2]
  unfold out4_2
  rw [View.canon_unit_zero hz4]
  simp only [View.ld_unit_zero (S := S512x1024) hz4, View.ld_unit_zero (S := S1024x1024) hz4]
  obtain ⟨e0, e1, e2, e3, e4, e5⟩ := idx_facts4 t
  funext j
  show k4_pay1 (F := Ideal) (iblk4 V c 0 t) (iblk4 V c 1 t) j
      = projVal (V c main_v47) (V c main_v48) (((cfg4.win 2).blk t).view.emb j)
  refine (pay4_apply _ _ j).trans ?_
  rw [projVal_apply]
  refine Finset.sum_congr rfl fun k _ => ?_
  have h0 : ((cfg4.win 0).blk t).view.emb (ix2 (n0 := 512) (n1 := 1024) (j 0) k)
      = ix2 (n0 := 4096) (n1 := 1024) ((((cfg4.win 2).blk t).view.emb j) 0) k := by
    funext a; apply Fin.ext
    match a with
    | ⟨0, _⟩ => show win4_0.index t (0 : Fin 2) * 512 + 1 * (j 0).val = win4_2.index t (0 : Fin 2) * 512 + 1 * (j 0).val; omega
    | ⟨1, _⟩ => show win4_0.index t (1 : Fin 2) * 1024 + 1 * k.val = k.val; omega
  have h1 : ((cfg4.win 1).blk t).view.emb (ix2 (n0 := 1024) (n1 := 1024) k (j 1))
      = ix2 (n0 := 1024) (n1 := 1024) k ((((cfg4.win 2).blk t).view.emb j) 1) := by
    funext a; apply Fin.ext
    match a with
    | ⟨0, _⟩ => show win4_1.index t (0 : Fin 2) * 1024 + 1 * k.val = k.val; omega
    | ⟨1, _⟩ => show win4_1.index t (1 : Fin 2) * 1024 + 1 * (j 1).val = win4_2.index t (1 : Fin 2) * 1024 + 1 * (j 1).val; omega
  have key : ∀ (A : S4096x1024.Idx → EReal) (W : S1024x1024.Idx → EReal),
      A (((cfg4.win 0).blk t).view.emb (ix2 (n0 := 512) (n1 := 1024) (j 0) k))
          * W (((cfg4.win 1).blk t).view.emb (ix2 (n0 := 1024) (n1 := 1024) k (j 1)))
        = A (ix2 (n0 := 4096) (n1 := 1024) ((((cfg4.win 2).blk t).view.emb j) 0) k)
          * W (ix2 (n0 := 1024) (n1 := 1024) k ((((cfg4.win 2).blk t).view.emb j) 1)) := fun A W => by rw [h0, h1]
  exact key (V c main_v47) (V c main_v48)

/-- An index of the result array is in point `t`'s block iff each coordinate is in the block's range on its axis. -/
theorem mem_blk4 (t : Fin cfg4.N) (i : S4096x1024.Idx) :
    i ∈ ((cfg4.win 2).blk t).view.set ↔ ∀ a : Fin 2, win4_2.index t a * S512x1024.size a ≤ (i a).val ∧ (i a).val < win4_2.index t a * S512x1024.size a + S512x1024.size a := by
  show i ∈ ((View.whole main_v49).slice (win4_2.rect t)).set ↔ _
  rw [View.set_slice_whole, Rect.mem_set_unit]
  exact Iff.rfl

/-- The eight blocks of rows tile the result array: row r is in the block of point r / 512. -/
theorem cover4 (i : S4096x1024.Idx) :
    ∃ t : Fin cfg4.N, (cfg4.win 2).flush t = true ∧ i ∈ ((cfg4.win 2).blk t).view.set := by
  have hi0 : (i 0).val < 4096 := (i 0).isLt
  have hi1 : (i 1).val < 1024 := (i 1).isLt
  obtain ⟨t, ht⟩ := idx_onto4 ⟨(i 0).val / 512, by omega⟩
  have q0 : win4_2.index t (0 : Fin 2) = (i 0).val / 512 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 1024 ≤ (i 1).val ∧ (i 1).val < win4_2.index t (1 : Fin 2) * 1024 + 1024; omega

/-- The result array after the region: the product of the rows array and the weight array as the region found
    them. -/
theorem final4_2 (c : Dev nD) :
    (dat4 (F := Ideal) V c).arrAt 2 cfg4.N = projVal (V c main_v47) (V c main_v48) :=
  (dat4 V c).arrAt_eq_of_cover 2 (projVal (V c main_v47) (V c main_v48)) (fun t _ => flushed4_2_eq V c t) (cover4)

end Cert.KernelIdeal.Hand

end
-- ==== Proof.KI.HostStretch.lean ====
/-
  The host stretches of the idealized kernel program, each read once at an arbitrary valuation of the buffers:
  what a stretch leaves in the buffers the regions (or the results) read, as the stretch's operations applied to the
  contents it starts from. The casts to bf16 are kept as written here (they are the identity only at the ideal
  values); the two row softmaxes and the scaled mask are stated against the reference's stage functions of the
  same operand, which are the same operations in the same order.
-/
import proofs.«152551_j88132728914059_1_alg».proof.Proof.Gen.KernelIdeal.Regions
import proofs.«152551_j88132728914059_1_alg».proof.Proof.Gen.ReferenceIdeal.Read
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! ## Before regions 0, 1, 2: the operands cast to bf16 -/

theorem after0_v0 (Wv : Valuation τ sig (Elt F)) :
    StableHlo.after (hostOps0 (F := F)) Wv (Proc.devRef .tc main_v0) = truncf .bf16 (Wv (Proc.devRef .tc main_arg0)) bitsLt_bf16_f32 := by
  after_results
theorem after0_v1 (Wv : Valuation τ sig (Elt F)) :
    StableHlo.after (hostOps0 (F := F)) Wv (Proc.devRef .tc main_v1) = truncf .bf16 (Wv (Proc.devRef .tc main_arg4)) bitsLt_bf16_f32 := by
  after_results
theorem after1_v3 (Wv : Valuation τ sig (Elt F)) :
    StableHlo.after (hostOps1 (F := F)) Wv (Proc.devRef .tc main_v3) = truncf .bf16 (Wv (Proc.devRef .tc main_arg5)) bitsLt_bf16_f32 := by
  after_results
theorem after2_v5 (Wv : Valuation τ sig (Elt F)) :
    StableHlo.after (hostOps2 (F := F)) Wv (Proc.devRef .tc main_v5) = truncf .bf16 (Wv (Proc.devRef .tc main_arg6)) bitsLt_bf16_f32 := by
  after_results

/-! ## Before region 3: the three projections split into heads, the scaled mask, the two row softmaxes -/

/-- A projection result [4096, 1024] as eight heads [8, 4096, 128], cast to bf16. -/
theorem after3_v9 (Wv : Valuation τ sig (Elt F)) :
    StableHlo.after (hostOps3 (F := F)) Wv (Proc.devRef .tc main_v9) = truncf .bf16 (transpose S8x4096x128 [1, 0, 2] (shapeCast S4096x8x128 (Wv (Proc.devRef .tc main_v2)) shapeCasts_S4096x1024_S4096x8x128) transposes_S4096x8x128_S8x4096x128_1_0_2) bitsLt_bf16_f32 := by
  after_results_simp; rfl
theorem after3_v12 (Wv : Valuation τ sig (Elt F)) :
    StableHlo.after (hostOps3 (F := F)) Wv (Proc.devRef .tc main_v12) = truncf .bf16 (transpose S8x4096x128 [1, 0, 2] (shapeCast S4096x8x128 (Wv (Proc.devRef .tc main_v4)) shapeCasts_S4096x1024_S4096x8x128) transposes_S4096x8x128_S8x4096x128_1_0_2) bitsLt_bf16_f32 := by
  after_results_simp; rfl
theorem after3_v15 (Wv : Valuation τ sig (Elt F)) :
    StableHlo.after (hostOps3 (F := F)) Wv (Proc.devRef .tc main_v15) = truncf .bf16 (transpose S8x4096x128 [1, 0, 2] (shapeCast S4096x8x128 (Wv (Proc.devRef .tc main_v6)) shapeCasts_S4096x1024_S4096x8x128) transposes_S4096x8x128_S8x4096x128_1_0_2) bitsLt_bf16_f32 := by
  after_results_simp; rfl

/-- The mask times the constant one: the reference's stage of the same operand. -/
theorem after3_v17 (Wv : Valuation τ sig (Elt F)) :
    StableHlo.after (hostOps3 (F := F)) Wv (Proc.devRef .tc main_v17) = Cert.ReferenceIdeal.Read.val_main_v11 (F := F) (Wv (Proc.devRef .tc main_arg1)) := by
  after_results_simp
  unfold Cert.ReferenceIdeal.Read.val_main_v11 Cert.ReferenceIdeal.Read.val_main_v10 Cert.ReferenceIdeal.Read.val_main_cst
  rfl

/-- The row softmax of the first score operand: the reference's stage of the same operand (row maximum floored at
    minus infinity, subtract, exponential, row sum, divide, times one). -/
theorem after3_v30 (Wv : Valuation τ sig (Elt F)) :
    StableHlo.after (hostOps3 (F := F)) Wv (Proc.devRef .tc main_v30) = Cert.ReferenceIdeal.Read.val_main_v24 (F := F) (Wv (Proc.devRef .tc main_arg2)) := by
  after_results_simp
  unfold Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_cst_0 Cert.ReferenceIdeal.Read.val_main_cst_1 Cert.ReferenceIdeal.Read.val_main_cst_2 Cert.ReferenceIdeal.Read.val_main_cst_3
  rfl
/-- The row softmax of the second score operand, likewise. -/
theorem after3_v43 (Wv : Valuation τ sig (Elt F)) :
    StableHlo.after (hostOps3 (F := F)) Wv (Proc.devRef .tc main_v43) = Cert.ReferenceIdeal.Read.val_main_v37 (F := F) (Wv (Proc.devRef .tc main_arg3)) := by
  after_results_simp
  unfold Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_cst_4 Cert.ReferenceIdeal.Read.val_main_cst_5 Cert.ReferenceIdeal.Read.val_main_cst_6 Cert.ReferenceIdeal.Read.val_main_cst_7
  rfl

/-! ## Before region 4: the heads merged back into rows, and the last weight, cast to bf16 -/

theorem after4_v47 (Wv : Valuation τ sig (Elt F)) :
    StableHlo.after (hostOps4 (F := F)) Wv (Proc.devRef .tc main_v47) = truncf .bf16 (shapeCast S4096x1024 (transpose S4096x8x128 [1, 0, 2] (Wv (Proc.devRef .tc main_v44_0)) transposes_S8x4096x128_S4096x8x128_1_0_2) shapeCasts_S4096x8x128_S4096x1024) bitsLt_bf16_f32 := by
  after_results_simp; rfl
theorem after4_v48 (Wv : Valuation τ sig (Elt F)) :
    StableHlo.after (hostOps4 (F := F)) Wv (Proc.devRef .tc main_v48) = truncf .bf16 (Wv (Proc.devRef .tc main_arg7)) bitsLt_bf16_f32 := by
  after_results_simp

/-! ## After region 4: bias, residual, and the row normalisation -/

/-- The last stretch as one function of the last projection `y`, the rows argument `x0`, the bias `x8`, and the
    normalisation's scale `x9` and shift `x10`: s = x0 + (y + bias); the row mean of s; the row mean of the squared
    deviation; (s - mean) * rsqrt(variance + epsilon) * scale + shift. -/
def lnTail (y x0 : (⟨S4096x1024, .f32⟩ : BufTy).Contents (Elt F)) (x8 x9 x10 : (⟨S1024, .f32⟩ : BufTy).Contents (Elt F)) :
    (⟨S4096x1024, .f32⟩ : BufTy).Contents (Elt F) :=
  have v51 : (⟨S4096x1024, .f32⟩ : BufTy).Contents (Elt F) := broadcastInDim S4096x1024 ![0, 1] bcast_S1x1024_S4096x1024_0_1 (broadcastInDim S1x1024 ![1] bcast_S1024_S1x1024_1 x8)
  have v53 : (⟨S4096x1024, .f32⟩ : BufTy).Contents (Elt F) := addf x0 (addf y v51)
  have v57 : (⟨S4096x1, .f32⟩ : BufTy).Contents (Elt F) := Host.divf (broadcastInDim S4096x1 ![0] bcast_S4096_S4096x1_0 (Host.reduceAdd v53 (constant S_ .f32 0x00000000#32) reducesTo_S4096x1024_S4096_d1 h_S_)) (broadcastInDim S4096x1 ![] bcast_S_S4096x1 (constant S_ .f32 0x44800000#32))
  have v59 : (⟨S4096x1024, .f32⟩ : BufTy).Contents (Elt F) := subf v53 (broadcastInDim S4096x1024 ![0, 1] bcast_S4096x1_S4096x1024_0_1 v57)
  have v64 : (⟨S4096x1, .f32⟩ : BufTy).Contents (Elt F) := Host.divf (broadcastInDim S4096x1 ![0] bcast_S4096_S4096x1_0 (Host.reduceAdd (mulf v59 v59) (constant S_ .f32 0x00000000#32) reducesTo_S4096x1024_S4096_d1 h_S_)) (broadcastInDim S4096x1 ![] bcast_S_S4096x1 (constant S_ .f32 0x44800000#32))
  have v70 : (⟨S4096x1024, .f32⟩ : BufTy).Contents (Elt F) := broadcastInDim S4096x1024 ![0, 1] bcast_S4096x1_S4096x1024_0_1 (Host.rsqrt (addf v64 (broadcastInDim S4096x1 ![] bcast_S_S4096x1 (constant S_ .f32 0x3727C5AC#32))))
  have v74 : (⟨S4096x1024, .f32⟩ : BufTy).Contents (Elt F) := mulf (mulf v59 v70) (broadcastInDim S4096x1024 ![0, 1] bcast_S1x1024_S4096x1024_0_1 (broadcastInDim S1x1024 ![1] bcast_S1024_S1x1024_1 x9))
  addf v74 (broadcastInDim S4096x1024 ![0, 1] bcast_S1x1024_S4096x1024_0_1 (broadcastInDim S1x1024 ![1] bcast_S1024_S1x1024_1 x10))

/-- The last stretch leaves that function of what it finds in the last projection's array and the arguments. -/
theorem after5_v77 (Wv : Valuation τ sig (Elt F)) :
    StableHlo.after (hostOps5 (F := F)) Wv (Proc.devRef .tc main_v77)
      = lnTail (Wv (Proc.devRef .tc main_v49)) (Wv (Proc.devRef .tc main_arg0)) (Wv (Proc.devRef .tc main_arg8)) (Wv (Proc.devRef .tc main_arg9)) (Wv (Proc.devRef .tc main_arg10)) := by
  after_results_simp
  unfold lnTail
  rfl

/-- The reference's last stages are the same function of its last projection stage. -/
theorem val_main_v84_eq (x0 : (⟨Cert.ReferenceIdeal.S4096x1024, .f32⟩ : BufTy).Contents (Elt F)) (x1 x2 x3 : (⟨Cert.ReferenceIdeal.S4096x4096, .f32⟩ : BufTy).Contents (Elt F))
    (x4 x5 x6 x7 : (⟨Cert.ReferenceIdeal.S1024x1024, .f32⟩ : BufTy).Contents (Elt F)) (x8 x9 x10 : (⟨Cert.ReferenceIdeal.S1024, .f32⟩ : BufTy).Contents (Elt F)) :
    Cert.ReferenceIdeal.Read.val_main_v84 (F := F) x0 x1 x2 x3 x4 x5 x6 x7 x8 x9 x10
      = lnTail (Cert.ReferenceIdeal.Read.val_main_v56 (F := F) x0 x1 x2 x3 x4 x5 x6 x7) x0 x8 x9 x10 := by
  unfold Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_v77 Cert.ReferenceIdeal.Read.val_main_v76 Cert.ReferenceIdeal.Read.val_main_v75 Cert.ReferenceIdeal.Read.val_main_v74 Cert.ReferenceIdeal.Read.val_main_v73 Cert.ReferenceIdeal.Read.val_main_v72 Cert.ReferenceIdeal.Read.val_main_v71 Cert.ReferenceIdeal.Read.val_main_v70 Cert.ReferenceIdeal.Read.val_main_v69 Cert.ReferenceIdeal.Read.val_main_v68 Cert.ReferenceIdeal.Read.val_main_v67 Cert.ReferenceIdeal.Read.val_main_v66 Cert.ReferenceIdeal.Read.val_main_v65 Cert.ReferenceIdeal.Read.val_main_v64 Cert.ReferenceIdeal.Read.val_main_v63 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_cst_14 Cert.ReferenceIdeal.Read.val_main_cst_15 Cert.ReferenceIdeal.Read.val_main_cst_16 Cert.ReferenceIdeal.Read.val_main_cst_17 Cert.ReferenceIdeal.Read.val_main_cst_18 lnTail
  generalize Cert.ReferenceIdeal.Read.val_main_v56 (F := F) x0 x1 x2 x3 x4 x5 x6 x7 = y
  rfl

end Cert.KernelIdeal.Hand

end
-- ==== Proof.KI.ProjRef.lean ====
/-
  The product of a 4096 x 1024 array with a 1024 x 1024 array, entry by entry, is the host's general dot product
  of the two contracted over the rows' second axis and the weight's first: at the ideal values that dot product read
  at an entry is the same sum over the contraction index, whatever float formats its operands are labelled with.
-/
import proofs.«152551_j88132728914059_1_alg».proof.Proof.KI.ProjSpec
import proofs.«152551_j88132728914059_1_alg».proof.Proof.Gen.ReferenceIdeal.Read

noncomputable section

namespace Cert.KernelIdeal.Hand

open Idealize.ShloMosaic Idealize.ShloMosaic.ValueIdx

/-- Entry (r, c) of the product is the sum over k of (r, k) times (k, c): the host's dot product read at an entry,
    its one-axis contraction index a number below 1024. -/
theorem projVal_eq {φ₁ φ₂ : FTy} (x : FVec Ideal Cert.ReferenceIdeal.S4096x1024 φ₁) (w : FVec Ideal Cert.ReferenceIdeal.S1024x1024 φ₂) :
    Cert.Spec.projVal x w
      = Host.dotGeneral (F := Ideal) Cert.ReferenceIdeal.dot_S4096x1024_S1024x1024_S4096x1024_1_0_0_1_n_n none x w := by
  funext i
  rw [Cert.Spec.projVal_apply]
  simp only [Host.dotGeneral]
  rw [Ideal.dotGeneral_apply, ← Equiv.sum_comp (contrEquiv1 Cert.ReferenceIdeal.dot_S4096x1024_S1024x1024_S4096x1024_1_0_0_1_n_n 1024 rfl rfl).symm]
  refine Finset.sum_congr rfl fun k _ => ?_
  have hk := contrEquiv1_symm_val Cert.ReferenceIdeal.dot_S4096x1024_S1024x1024_S4096x1024_1_0_0_1_n_n 1024 rfl rfl k
  have el : Cert.ReferenceIdeal.dot_S4096x1024_S1024x1024_S4096x1024_1_0_0_1_n_n.lhsIdx i ((contrEquiv1 Cert.ReferenceIdeal.dot_S4096x1024_S1024x1024_S4096x1024_1_0_0_1_n_n 1024 rfl rfl).symm k)
      = ix2 (n0 := 4096) (n1 := 1024) (i 0) k := funext fun a => Fin.ext (by
    match a with
    | ⟨0, _⟩ => exact Cert.ReferenceIdeal.Read.lhs_main_v0_0 _ _
    | ⟨1, _⟩ => exact (Cert.ReferenceIdeal.Read.lhs_main_v0_1 _ _).trans hk)
  have er : Cert.ReferenceIdeal.dot_S4096x1024_S1024x1024_S4096x1024_1_0_0_1_n_n.rhsIdx i ((contrEquiv1 Cert.ReferenceIdeal.dot_S4096x1024_S1024x1024_S4096x1024_1_0_0_1_n_n 1024 rfl rfl).symm k)
      = ix2 (n0 := 1024) (n1 := 1024) k (i 1) := funext fun a => Fin.ext (by
    match a with
    | ⟨0, _⟩ => exact (Cert.ReferenceIdeal.Read.rhs_main_v0_0 _ _).trans hk
    | ⟨1, _⟩ => exact Cert.ReferenceIdeal.Read.rhs_main_v0_1 _ _)
  rw [el, er]

end Cert.KernelIdeal.Hand

end
-- ==== Proof.KI.Chain.lean ====
/-
  The idealized kernel program's buffers at its segment boundaries, read at the ideal values as the reference's
  stage functions of the argument arrays. The casts to bf16 the kernel's host stretches add are the identity at the
  ideal values; each projection region leaves the product of its operand arrays, which is the host's dot product;
  every other host operation is the reference's, in the same order; a buffer that nothing in between writes is
  carried unchanged. What region 3 returns is taken as a hypothesis where it is needed.
-/
import proofs.«152551_j88132728914059_1_alg».proof.Proof.KI.Run
import proofs.«152551_j88132728914059_1_alg».proof.Proof.KI.Val0
import proofs.«152551_j88132728914059_1_alg».proof.Proof.KI.Val1
import proofs.«152551_j88132728914059_1_alg».proof.Proof.KI.Val2
import proofs.«152551_j88132728914059_1_alg».proof.Proof.KI.Val4
import proofs.«152551_j88132728914059_1_alg».proof.Proof.KI.HostStretch
import proofs.«152551_j88132728914059_1_alg».proof.Proof.KI.ProjRef
import proofs.«152551_j88132728914059_1_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (ρ : Dev nD → PrngReg)

/-! ## Buffers carried unchanged from the launch

A buffer that no stretch so far writes and that is no window's array of a region so far holds what it held at launch. -/

theorem W2_kept (c : Dev nD) (b : Ref sig .tc) (h0 : b ∉ hostOps0_W) (a0 : ∀ w, Pipeline.arrRef spec0 w ≠ b) :
    W2 m ρ c (Proc.devRef .tc b) = m ((c : Thread nD τ).loc b) :=
  calc W2 m ρ c (Proc.devRef .tc b)
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W4_kept (c : Dev nD) (b : Ref sig .tc) (h0 : b ∉ hostOps0_W) (h1 : b ∉ hostOps1_W)
    (a0 : ∀ w, Pipeline.arrRef spec0 w ≠ b) (a1 : ∀ w, Pipeline.arrRef spec1 w ≠ b) :
    W4 m ρ c (Proc.devRef .tc b) = m ((c : Thread nD τ).loc b) :=
  calc W4 m ρ c (Proc.devRef .tc b)
    _ = W3 m ρ c (Proc.devRef .tc b) := W4_of_ne m ρ c b a1
    _ = W2 m ρ c (Proc.devRef .tc b) := StableHlo.after_of_writes_sub hostOps1 _ hostOps1_writes h1
    _ = m ((c : Thread nD τ).loc b) := W2_kept m ρ c b h0 a0

theorem W6_kept (c : Dev nD) (b : Ref sig .tc)
    (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  calc W6 m ρ c (Proc.devRef .tc b)
    _ = W5 m ρ c (Proc.devRef .tc b) := W6_of_ne m ρ c b a2
    _ = W4 m ρ c (Proc.devRef .tc b) := StableHlo.after_of_writes_sub hostOps2 _ hostOps2_writes h2
    _ = m ((c : Thread nD τ).loc b) := W4_kept m ρ c b h0 h1 a0 a1

theorem W8_kept (c : Dev nD) (b : Ref sig .tc)
    (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) :
    W8 m ρ c (Proc.devRef .tc b) = m ((c : Thread nD τ).loc b) :=
  calc W8 m ρ c (Proc.devRef .tc b)
    _ = W7 m ρ c (Proc.devRef .tc b) := W8_of_ne m ρ c b a3
    _ = W6 m ρ c (Proc.devRef .tc b) := StableHlo.after_of_writes_sub hostOps3 _ hostOps3_writes h3
    _ = m ((c : Thread nD τ).loc b) := W6_kept m ρ c b h0 h1 h2 a0 a1 a2

theorem W10_kept (c : Dev nD) (b : Ref sig .tc)
    (h0 : b ∉ hostOps0_W) (h1 : b ∉ hostOps1_W) (h2 : b ∉ hostOps2_W) (h3 : b ∉ hostOps3_W) (h4 : b ∉ hostOps4_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) (a4 : ∀ w, Pipeline.arrRef spec4 w ≠ b) :
    W10 m ρ c (Proc.devRef .tc b) = m ((c : Thread nD τ).loc b) :=
  calc W10 m ρ c (Proc.devRef .tc b)
    _ = W9 m ρ c (Proc.devRef .tc b) := W10_of_ne m ρ c b a4
    _ = W8 m ρ c (Proc.devRef .tc b) := StableHlo.after_of_writes_sub hostOps4 _ hostOps4_writes h4
    _ = m ((c : Thread nD τ).loc b) := W8_kept m ρ c b h0 h1 h2 h3 a0 a1 a2 a3

/-! ## The three projections (regions 0, 1, 2)

Each region finds the rows argument in its rows array and its weight argument in its weight array — both through a
cast to bf16, which changes nothing at the ideal values — and leaves their product, the reference's projection. -/

theorem V1_v0 (c : Dev nD) : (V1 m ρ c main_v0 : S4096x1024.Idx → EReal) = m ((c : Thread nD τ).loc main_arg0) :=
  after0_v0 (W0 m ρ c)
theorem V1_v1 (c : Dev nD) : (V1 m ρ c main_v1 : S1024x1024.Idx → EReal) = m ((c : Thread nD τ).loc main_arg4) :=
  after0_v1 (W0 m ρ c)

theorem K1_v2 (c : Dev nD) :
    W2 m ρ c (Proc.devRef .tc main_v2) = Cert.ReferenceIdeal.Read.val_main_v0 (F := Ideal) (m ((c : Thread nD τ).loc main_arg0)) (m ((c : Thread nD τ).loc main_arg4)) := by
  refine (W2_arr m ρ c 2).trans ?_
  refine (final0_2 (V1 m ρ) c).trans ?_
  rw [V1_v0, V1_v1]
  exact projVal_eq (φ₁ := .f32) (φ₂ := .f32) _ _

/-- Region 0 writes no input back: its rows array still holds the rows argument, -/
theorem W2_v0 (c : Dev nD) : (W2 m ρ c (Proc.devRef .tc main_v0) : S4096x1024.Idx → EReal) = m ((c : Thread nD τ).loc main_arg0) :=
  ((W2_arr m ρ c 0).trans (kept0_0 (V1 m ρ) c)).trans (V1_v0 m ρ c)
/-- which region 1 finds there, -/
theorem V3_v0 (c : Dev nD) : (V3 m ρ c main_v0 : S4096x1024.Idx → EReal) = m ((c : Thread nD τ).loc main_arg0) :=
  (StableHlo.after_of_writes_sub hostOps1 _ hostOps1_writes (by decide : main_v0 ∉ hostOps1_W)).trans (W2_v0 m ρ c)
/-- beside the second weight. -/
theorem V3_v3 (c : Dev nD) : (V3 m ρ c main_v3 : S1024x1024.Idx → EReal) = m ((c : Thread nD τ).loc main_arg5) :=
  (after1_v3 (W2 m ρ c)).trans (W2_kept m ρ c main_arg5 (by decide) (by decide))

theorem K1_v4 (c : Dev nD) :
    W4 m ρ c (Proc.devRef .tc main_v4) = Cert.ReferenceIdeal.Read.val_main_v3 (F := Ideal) (m ((c : Thread nD τ).loc main_arg0)) (m ((c : Thread nD τ).loc main_arg5)) := by
  refine (W4_arr m ρ c 2).trans ?_
  refine (final1_2 (V3 m ρ) c).trans ?_
  rw [V3_v0, V3_v3]
  exact projVal_eq (φ₁ := .f32) (φ₂ := .f32) _ _

theorem W4_v0 (c : Dev nD) : (W4 m ρ c (Proc.devRef .tc main_v0) : S4096x1024.Idx → EReal) = m ((c : Thread nD τ).loc main_arg0) :=
  ((W4_arr m ρ c 0).trans (kept1_0 (V3 m ρ) c)).trans (V3_v0 m ρ c)
theorem V5_v0 (c : Dev nD) : (V5 m ρ c main_v0 : S4096x1024.Idx → EReal) = m ((c : Thread nD τ).loc main_arg0) :=
  (StableHlo.after_of_writes_sub hostOps2 _ hostOps2_writes (by decide : main_v0 ∉ hostOps2_W)).trans (W4_v0 m ρ c)
theorem V5_v5 (c : Dev nD) : (V5 m ρ c main_v5 : S1024x1024.Idx → EReal) = m ((c : Thread nD τ).loc main_arg6) :=
  (after2_v5 (W4 m ρ c)).trans (W4_kept m ρ c main_arg6 (by decide) (by decide) (by decide) (by decide))

theorem K1_v6 (c : Dev nD) :
    W6 m ρ c (Proc.devRef .tc main_v6) = Cert.ReferenceIdeal.Read.val_main_v6 (F := Ideal) (m ((c : Thread nD τ).loc main_arg0)) (m ((c : Thread nD τ).loc main_arg6)) := by
  refine (W6_arr m ρ c 2).trans ?_
  refine (final2_2 (V5 m ρ) c).trans ?_
  rw [V5_v0, V5_v5]
  exact projVal_eq (φ₁ := .f32) (φ₂ := .f32) _ _

/-! ## Before region 3 -/

/-- The first two projections are carried to region 3's host stretch: no later stretch writes them and they are no
    later region's array. -/
theorem W6_v2 (c : Dev nD) :
    W6 m ρ c (Proc.devRef .tc main_v2) = Cert.ReferenceIdeal.Read.val_main_v0 (F := Ideal) (m ((c : Thread nD τ).loc main_arg0)) (m ((c : Thread nD τ).loc main_arg4)) :=
  calc W6 m ρ c (Proc.devRef .tc main_v2)
    _ = W5 m ρ c (Proc.devRef .tc main_v2) := W6_of_ne m ρ c main_v2 (by decide)
    _ = W4 m ρ c (Proc.devRef .tc main_v2) := StableHlo.after_of_writes_sub hostOps2 _ hostOps2_writes (by decide)
    _ = W3 m ρ c (Proc.devRef .tc main_v2) := W4_of_ne m ρ c main_v2 (by decide)
    _ = W2 m ρ c (Proc.devRef .tc main_v2) := StableHlo.after_of_writes_sub hostOps1 _ hostOps1_writes (by decide)
    _ = _ := K1_v2 m ρ c
theorem W6_v4 (c : Dev nD) :
    W6 m ρ c (Proc.devRef .tc main_v4) = Cert.ReferenceIdeal.Read.val_main_v3 (F := Ideal) (m ((c : Thread nD τ).loc main_arg0)) (m ((c : Thread nD τ).loc main_arg5)) :=
  calc W6 m ρ c (Proc.devRef .tc main_v4)
    _ = W5 m ρ c (Proc.devRef .tc main_v4) := W6_of_ne m ρ c main_v4 (by decide)
    _ = W4 m ρ c (Proc.devRef .tc main_v4) := StableHlo.after_of_writes_sub hostOps2 _ hostOps2_writes (by decide)
    _ = _ := K1_v4 m ρ c

/-- The projections split into heads are the reference's. -/
theorem K2_v9 (c : Dev nD) :
    W7 m ρ c (Proc.devRef .tc main_v9) = Cert.ReferenceIdeal.Read.val_main_v2 (F := Ideal) (m ((c : Thread nD τ).loc main_arg0)) (m ((c : Thread nD τ).loc main_arg4)) := by
  refine (after3_v9 (W6 m ρ c)).trans ?_
  rw [W6_v2]
  unfold Cert.ReferenceIdeal.Read.val_main_v2 Cert.ReferenceIdeal.Read.val_main_v1
  rfl
theorem K2_v12 (c : Dev nD) :
    W7 m ρ c (Proc.devRef .tc main_v12) = Cert.ReferenceIdeal.Read.val_main_v5 (F := Ideal) (m ((c : Thread nD τ).loc main_arg0)) (m ((c : Thread nD τ).loc main_arg5)) := by
  refine (after3_v12 (W6 m ρ c)).trans ?_
  rw [W6_v4]
  unfold Cert.ReferenceIdeal.Read.val_main_v5 Cert.ReferenceIdeal.Read.val_main_v4
  rfl
theorem K2_v15 (c : Dev nD) :
    W7 m ρ c (Proc.devRef .tc main_v15) = Cert.ReferenceIdeal.Read.val_main_v8 (F := Ideal) (m ((c : Thread nD τ).loc main_arg0)) (m ((c : Thread nD τ).loc main_arg6)) := by
  refine (after3_v15 (W6 m ρ c)).trans ?_
  rw [K1_v6]
  unfold Cert.ReferenceIdeal.Read.val_main_v8 Cert.ReferenceIdeal.Read.val_main_v7
  rfl

/-- The scaled mask and the two row softmaxes are the reference's stages of the same arguments. -/
theorem K2_v17 (c : Dev nD) :
    W7 m ρ c (Proc.devRef .tc main_v17) = Cert.ReferenceIdeal.Read.val_main_v11 (F := Ideal) (m ((c : Thread nD τ).loc main_arg1)) :=
  (after3_v17 (W6 m ρ c)).trans (congrArg (Cert.ReferenceIdeal.Read.val_main_v11 (F := Ideal)) (W6_kept m ρ c main_arg1 (by decide) (by decide) (by decide) (by decide) (by decide) (by decide)))
theorem K2_v30 (c : Dev nD) :
    W7 m ρ c (Proc.devRef .tc main_v30) = Cert.ReferenceIdeal.Read.val_main_v24 (F := Ideal) (m ((c : Thread nD τ).loc main_arg2)) :=
  (after3_v30 (W6 m ρ c)).trans (congrArg (Cert.ReferenceIdeal.Read.val_main_v24 (F := Ideal)) (W6_kept m ρ c main_arg2 (by decide) (by decide) (by decide) (by decide) (by decide) (by decide)))
theorem K2_v43 (c : Dev nD) :
    W7 m ρ c (Proc.devRef .tc main_v43) = Cert.ReferenceIdeal.Read.val_main_v37 (F := Ideal) (m ((c : Thread nD τ).loc main_arg3)) :=
  (after3_v43 (W6 m ρ c)).trans (congrArg (Cert.ReferenceIdeal.Read.val_main_v37 (F := Ideal)) (W6_kept m ρ c main_arg3 (by decide) (by decide) (by decide) (by decide) (by decide) (by decide)))

/-! ## Before region 4, region 4, and the last stretch: given what region 3 returns -/

/-- The heads merged back into rows are the reference's, given region 3's first result. -/
theorem K4_v47 (c : Dev nD)
    (hret : W8 m ρ c (Proc.devRef .tc main_v44_0) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W9 m ρ c (Proc.devRef .tc main_v47) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (after4_v47 (W8 m ρ c)).trans ?_
  rw [hret]
  unfold Cert.ReferenceIdeal.Read.val_main_v55 Cert.ReferenceIdeal.Read.val_main_v54
  rfl
/-- Region 4's weight array holds the last weight argument. -/
theorem K4_v48 (c : Dev nD) :
    (W9 m ρ c (Proc.devRef .tc main_v48) : S1024x1024.Idx → EReal) = m ((c : Thread nD τ).loc main_arg7) :=
  (after4_v48 (W8 m ρ c)).trans (W8_kept m ρ c main_arg7 (by decide) (by decide) (by decide) (by decide) (by decide) (by decide) (by decide) (by decide))

theorem V9_v47 (c : Dev nD)
    (hret : W8 m ρ c (Proc.devRef .tc main_v44_0) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    (V9 m ρ c main_v47 : S4096x1024.Idx → EReal) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  K4_v47 m ρ c hret
theorem V9_v48 (c : Dev nD) : (V9 m ρ c main_v48 : S1024x1024.Idx → EReal) = m ((c : Thread nD τ).loc main_arg7) :=
  K4_v48 m ρ c

/-- Region 4 leaves the reference's last projection. -/
theorem K5_v49 (c : Dev nD)
    (hret : W8 m ρ c (Proc.devRef .tc main_v44_0) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W10 m ρ c (Proc.devRef .tc main_v49) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  refine (final4_2 (V9 m ρ) c).trans ?_
  rw [V9_v47 m ρ c hret, V9_v48]
  exact projVal_eq (φ₁ := .f32) (φ₂ := .f32) _ _

/-- The first result: bias, residual and row normalisation of the last projection, the reference's last stage. -/
theorem K6_v77 (c : Dev nD)
    (hret : W8 m ρ c (Proc.devRef .tc main_v44_0) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W11 m ρ c (Proc.devRef .tc main_v77) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (after5_v77 (W10 m ρ c)).trans ?_
  rw [K5_v49 m ρ c hret, W10_kept m ρ c main_arg0 (by decide) (by decide) (by decide) (by decide) (by decide) (by decide) (by decide) (by decide) (by decide) (by decide), W10_kept m ρ c main_arg8 (by decide) (by decide) (by decide) (by decide) (by decide) (by decide) (by decide) (by decide) (by decide) (by decide),
    W10_kept m ρ c main_arg9 (by decide) (by decide) (by decide) (by decide) (by decide) (by decide) (by decide) (by decide) (by decide) (by decide), W10_kept m ρ c main_arg10 (by decide) (by decide) (by decide) (by decide) (by decide) (by decide) (by decide) (by decide) (by decide) (by decide)]
  exact (val_main_v84_eq _ _ _ _ _ _ _ _ _ _ _).symm

/-- Region 3's second result is touched by nothing after the region. -/
theorem K6_v44_1 (c : Dev nD) : W11 m ρ c (Proc.devRef .tc main_v44_1) = W8 m ρ c (Proc.devRef .tc main_v44_1) :=
  calc W11 m ρ c (Proc.devRef .tc main_v44_1)
    _ = W10 m ρ c (Proc.devRef .tc main_v44_1) := StableHlo.after_of_writes_sub hostOps5 _ hostOps5_writes (by decide)
    _ = W9 m ρ c (Proc.devRef .tc main_v44_1) := W10_of_ne m ρ c main_v44_1 (by decide)
    _ = W8 m ρ c (Proc.devRef .tc main_v44_1) := StableHlo.after_of_writes_sub hostOps4 _ hostOps4_writes (by decide)

end Cert.KernelIdeal.Hand

end
-- ==== Proof.KI.Attn.Slabs.lean ====
import proofs.«152551_j88132728914059_1_alg».proof.Proof.Gen.KernelIdeal.Skeleton
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-! # One head's slab of a [8,512,128] block

The accumulator and the q/k/v blocks are [8,512,128]; the body touches them one head at a time, through the unit-stride
rectangle of sizes [1,512,128] at offsets (a, 0, 0). Entry (0, r, d) of that rectangle is entry (a, r, d) of the block. -/

variable {Val : EltTy → Type}

/-- Entry (0, r, d) of head `a`'s slab is entry (a, r, d) of the block. -/
theorem slab_idx (a : ℕ) (ha : a < 8) (inb : ∀ b, (![a, 0, 0] : Fin 3 → ℕ) b + (![1, 512, 128] : Fin 3 → ℕ) b ≤ S8x512x128.size b)
    (r : Fin 512) (d : Fin 128) :
    (Rect.unit (s := S8x512x128) ![a, 0, 0] ![1, 512, 128] inb).idx (ix3 (0 : Fin 1) r d) = ix3 (⟨a, ha⟩ : Fin 8) r d :=
  funext fun b => Fin.ext (by
    match b with
    | ⟨0, _⟩ => show a + 1 * 0 = a; omega
    | ⟨1, _⟩ => show 0 + 1 * r.val = r.val; omega
    | ⟨2, _⟩ => show 0 + 1 * d.val = d.val; omega)

/-- Entry (h, r, d) lies in head `a`'s slab exactly when h = a. -/
theorem mem_slab_iff (a : ℕ) (inb : ∀ b, (![a, 0, 0] : Fin 3 → ℕ) b + (![1, 512, 128] : Fin 3 → ℕ) b ≤ S8x512x128.size b)
    (h : Fin 8) (r : Fin 512) (d : Fin 128) :
    (ix3 h r d : S8x512x128.Idx) ∈ (Rect.unit (s := S8x512x128) ![a, 0, 0] ![1, 512, 128] inb).set ↔ h.val = a := by
  rw [Rect.mem_set_unit]
  constructor
  · intro H
    have h0 := H ⟨0, by decide⟩
    have e1 : ((ix3 h r d : S8x512x128.Idx) ⟨0, by decide⟩ : ℕ) = h.val := rfl
    have e2 : (![a, 0, 0] : Fin 3 → ℕ) ⟨0, by decide⟩ = a := rfl
    have e3 : (![1, 512, 128] : Fin 3 → ℕ) ⟨0, by decide⟩ = 1 := rfl
    rw [e2, e3] at h0
    have h0' : a ≤ h.val ∧ h.val < a + 1 := h0
    omega
  · intro e b
    have hr := r.isLt; have hd := d.isLt
    match b with
    | ⟨0, _⟩ => show a ≤ h.val ∧ h.val < a + 1; omega
    | ⟨1, _⟩ => show 0 ≤ r.val ∧ r.val < 0 + 512; omega
    | ⟨2, _⟩ => show 0 ≤ d.val ∧ d.val < 0 + 128; omega

variable [∀ e, Nonempty (Val e)]

/-- A store into another head's slab does not change what is read at (h, r, d). -/
theorem canon_slab_skip (a : ℕ) (inb) (w : (Rect.unit (s := S8x512x128) ![a, 0, 0] ![1, 512, 128] inb).shape.Idx → Val .f32)
    (L : List (View.Piece Val S8x512x128 .f32)) (h : Fin 8) (r : Fin 512) (d : Fin 128) (hne : h.val ≠ a) :
    View.canon ((⟨Rect.unit (s := S8x512x128) ![a, 0, 0] ![1, 512, 128] inb, w⟩ : View.Piece Val S8x512x128 .f32) :: L) (ix3 h r d)
      = View.canon L (ix3 h r d) :=
  View.canon_cons_of_not_mem _ L (fun hm => hne ((mem_slab_iff a inb h r d).mp hm))

/-- The last store into head h's slab is what is read at (h, r, d). -/
theorem canon_slab_hit (a : ℕ) (inb) (w : (Rect.unit (s := S8x512x128) ![a, 0, 0] ![1, 512, 128] inb).shape.Idx → Val .f32)
    (L : List (View.Piece Val S8x512x128 .f32)) (h : Fin 8) (r : Fin 512) (d : Fin 128) (he : h.val = a) :
    View.canon ((⟨Rect.unit (s := S8x512x128) ![a, 0, 0] ![1, 512, 128] inb, w⟩ : View.Piece Val S8x512x128 .f32) :: L) (ix3 h r d)
      = w (ix3 (0 : Fin 1) r d) := by
  have hi := slab_idx a (by have := h.isLt; omega) inb r d
  have hh : (ix3 h r d : S8x512x128.Idx) = ix3 (⟨a, by have := h.isLt; omega⟩ : Fin 8) r d := by
    congr 1; exact Fin.ext he
  rw [hh, ← hi]
  exact View.canon_cons_emb _ w L _

/-- A store of the whole block is what is read anywhere. -/
theorem canon_whole8 (inb) (w : S8x512x128.Idx → Val .f32) (L : List (View.Piece Val S8x512x128 .f32)) (y : S8x512x128.Idx) :
    View.canon ((⟨Rect.unit (s := S8x512x128) ![0, 0, 0] ![8, 512, 128] inb, w⟩ : View.Piece Val S8x512x128 .f32) :: L) y = w y :=
  congrFun (View.canon_cons_unit_zero (S := S8x512x128) (funext fun a => by fin_cases a <;> rfl) inb w L) y

/-- A load of head `a`'s slab reads the block's entries (a, r, d). -/
theorem ld_slab {e : EltTy} (X : S8x512x128.Idx → Val e) (a : ℕ) (ha : a < 8) (inb) (r : Fin 512) (d : Fin 128) :
    View.ld X (Rect.unit (s := S8x512x128) ![a, 0, 0] ![1, 512, 128] inb) (ix3 (0 : Fin 1) r d) = X (ix3 (⟨a, ha⟩ : Fin 8) r d) := by
  show X ((Rect.unit (s := S8x512x128) ![a, 0, 0] ![1, 512, 128] inb).idx (ix3 (0 : Fin 1) r d)) = _
  rw [slab_idx a ha inb r d]

end Cert.KernelIdeal.Hand

end
-- ==== Proof.KI.Attn.ValCases.lean ====
import proofs.«152551_j88132728914059_1_alg».proof.Proof.KI.Attn.Region3
import proofs.«152551_j88132728914059_1_alg».proof.Proof.KI.Attn.Slabs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-! # What each case's stores leave, as the body's arithmetic over the point's blocks

`x0, x1, x2` are the q, k, v blocks [8,512,128]; `x3, x4, x5` the three bias blocks [512,512]. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The mean block: the eight heads' scaled scores added in order from zero, times an eighth — a function of the q, k
    and bias blocks alone. -/
def meanPay (x0 x1 : Vec F S8x512x128 .bf16) (x3 x4 x5 : Vec F S512x512 .f32) : Vec F S512x512 .f32 :=
  k3_pay3
    (k3_pay29
      (k3_pay26 (k3_pay8 (View.ld x5 (Rect.unit (s := S512x512) ![0, 0] S512x512.size inb_S512x512_S512x512_0_0)))
        (k3_pay20 (k3_pay7 (View.ld x4 (Rect.unit (s := S512x512) ![0, 0] S512x512.size inb_S512x512_S512x512_0_0)))
          (k3_pay13 (k3_pay6 (View.ld x3 (Rect.unit (s := S512x512) ![0, 0] S512x512.size inb_S512x512_S512x512_0_0))) (k3_pay10 (View.ld x3 (Rect.unit (s := S512x512) ![0, 0] S512x512.size inb_S512x512_S512x512_0_0)) (View.ld x0 (Rect.unit (s := S8x512x128) ![0, 0, 0] ![1, 512, 128] inb_S8x512x128_S1x512x128_0_0_0)) (View.ld x1 (Rect.unit (s := S8x512x128) ![0, 0, 0] ![1, 512, 128] inb_S8x512x128_S1x512x128_0_0_0))) (View.ld x0 (Rect.unit (s := S8x512x128) ![1, 0, 0] ![1, 512, 128] inb_S8x512x128_S1x512x128_1_0_0)) (View.ld x1 (Rect.unit (s := S8x512x128) ![1, 0, 0] ![1, 512, 128] inb_S8x512x128_S1x512x128_1_0_0)))
          (k3_pay16 (k3_pay7 (View.ld x4 (Rect.unit (s := S512x512) ![0, 0] S512x512.size inb_S512x512_S512x512_0_0))) (View.ld x0 (Rect.unit (s := S8x512x128) ![2, 0, 0] ![1, 512, 128] inb_S8x512x128_S1x512x128_2_0_0)) (View.ld x1 (Rect.unit (s := S8x512x128) ![2, 0, 0] ![1, 512, 128] inb_S8x512x128_S1x512x128_2_0_0)))
          (Scalar.ofBits .f32 0x3F7F485A#32)
          (View.ld x0 (Rect.unit (s := S8x512x128) ![3, 0, 0] ![1, 512, 128] inb_S8x512x128_S1x512x128_3_0_0)) (View.ld x1 (Rect.unit (s := S8x512x128) ![3, 0, 0] ![1, 512, 128] inb_S8x512x128_S1x512x128_3_0_0)))
        (View.ld x0 (Rect.unit (s := S8x512x128) ![4, 0, 0] ![1, 512, 128] inb_S8x512x128_S1x512x128_4_0_0)) (View.ld x1 (Rect.unit (s := S8x512x128) ![4, 0, 0] ![1, 512, 128] inb_S8x512x128_S1x512x128_4_0_0)) (View.ld x0 (Rect.unit (s := S8x512x128) ![5, 0, 0] ![1, 512, 128] inb_S8x512x128_S1x512x128_5_0_0)) (View.ld x1 (Rect.unit (s := S8x512x128) ![5, 0, 0] ![1, 512, 128] inb_S8x512x128_S1x512x128_5_0_0)))
      (View.ld x0 (Rect.unit (s := S8x512x128) ![6, 0, 0] ![1, 512, 128] inb_S8x512x128_S1x512x128_6_0_0)) (View.ld x1 (Rect.unit (s := S8x512x128) ![6, 0, 0] ![1, 512, 128] inb_S8x512x128_S1x512x128_6_0_0)))
    (k3_pay31 (View.ld x0 (Rect.unit (s := S8x512x128) ![7, 0, 0] ![1, 512, 128] inb_S8x512x128_S1x512x128_7_0_0)))
    (View.ld x1 (Rect.unit (s := S8x512x128) ![7, 0, 0] ![1, 512, 128] inb_S8x512x128_S1x512x128_7_0_0))

/-- Head `h`'s slab of the accumulator after the body, from the blocks and that head's slab `Z` of the accumulator
    before: `Z` plus the head's (scores × values) product. -/
def slabPay (x0 x1 x2 : Vec F S8x512x128 .bf16) (x3 x4 x5 : Vec F S512x512 .f32) (h : Fin 8) (Z : Vec F S1x512x128 .f32) :
    Vec F S1x512x128 .f32 :=
  match h with
  | ⟨0, _⟩ => k3_pay11 (View.ld x3 (Rect.unit (s := S512x512) ![0, 0] S512x512.size inb_S512x512_S512x512_0_0)) (View.ld x0 (Rect.unit (s := S8x512x128) ![0, 0, 0] ![1, 512, 128] inb_S8x512x128_S1x512x128_0_0_0)) (View.ld x1 (Rect.unit (s := S8x512x128) ![0, 0, 0] ![1, 512, 128] inb_S8x512x128_S1x512x128_0_0_0)) (View.ld x2 (Rect.unit (s := S8x512x128) ![0, 0, 0] ![1, 512, 128] inb_S8x512x128_S1x512x128_0_0_0)) Z
  | ⟨1, _⟩ => k3_pay14 (k3_pay6 (View.ld x3 (Rect.unit (s := S512x512) ![0, 0] S512x512.size inb_S512x512_S512x512_0_0))) (View.ld x0 (Rect.unit (s := S8x512x128) ![1, 0, 0] ![1, 512, 128] inb_S8x512x128_S1x512x128_1_0_0)) (View.ld x1 (Rect.unit (s := S8x512x128) ![1, 0, 0] ![1, 512, 128] inb_S8x512x128_S1x512x128_1_0_0)) (View.ld x2 (Rect.unit (s := S8x512x128) ![1, 0, 0] ![1, 512, 128] inb_S8x512x128_S1x512x128_1_0_0)) Z
  | ⟨2, _⟩ => k3_pay18 (k3_pay15 (View.ld x2 (Rect.unit (s := S8x512x128) ![2, 0, 0] ![1, 512, 128] inb_S8x512x128_S1x512x128_2_0_0))) (k3_pay16 (k3_pay7 (View.ld x4 (Rect.unit (s := S512x512) ![0, 0] S512x512.size inb_S512x512_S512x512_0_0))) (View.ld x0 (Rect.unit (s := S8x512x128) ![2, 0, 0] ![1, 512, 128] inb_S8x512x128_S1x512x128_2_0_0)) (View.ld x1 (Rect.unit (s := S8x512x128) ![2, 0, 0] ![1, 512, 128] inb_S8x512x128_S1x512x128_2_0_0))) (Scalar.ofBits .f32 0x3F7F485A#32) Z
  | ⟨3, _⟩ => k3_pay21 (k3_pay7 (View.ld x4 (Rect.unit (s := S512x512) ![0, 0] S512x512.size inb_S512x512_S512x512_0_0))) (View.ld x0 (Rect.unit (s := S8x512x128) ![3, 0, 0] ![1, 512, 128] inb_S8x512x128_S1x512x128_3_0_0)) (View.ld x1 (Rect.unit (s := S8x512x128) ![3, 0, 0] ![1, 512, 128] inb_S8x512x128_S1x512x128_3_0_0)) (View.ld x2 (Rect.unit (s := S8x512x128) ![3, 0, 0] ![1, 512, 128] inb_S8x512x128_S1x512x128_3_0_0)) Z
  | ⟨4, _⟩ => k3_pay23 (k3_pay8 (View.ld x5 (Rect.unit (s := S512x512) ![0, 0] S512x512.size inb_S512x512_S512x512_0_0))) (View.ld x0 (Rect.unit (s := S8x512x128) ![4, 0, 0] ![1, 512, 128] inb_S8x512x128_S1x512x128_4_0_0)) (View.ld x1 (Rect.unit (s := S8x512x128) ![4, 0, 0] ![1, 512, 128] inb_S8x512x128_S1x512x128_4_0_0)) (View.ld x2 (Rect.unit (s := S8x512x128) ![4, 0, 0] ![1, 512, 128] inb_S8x512x128_S1x512x128_4_0_0)) Z
  | ⟨5, _⟩ => k3_pay27 (k3_pay24 (View.ld x2 (Rect.unit (s := S8x512x128) ![5, 0, 0] ![1, 512, 128] inb_S8x512x128_S1x512x128_5_0_0))) (k3_pay25 (k3_pay8 (View.ld x5 (Rect.unit (s := S512x512) ![0, 0] S512x512.size inb_S512x512_S512x512_0_0))) (View.ld x0 (Rect.unit (s := S8x512x128) ![5, 0, 0] ![1, 512, 128] inb_S8x512x128_S1x512x128_5_0_0)) (View.ld x1 (Rect.unit (s := S8x512x128) ![5, 0, 0] ![1, 512, 128] inb_S8x512x128_S1x512x128_5_0_0))) Z
  | ⟨6, _⟩ => k3_pay30 (View.ld x0 (Rect.unit (s := S8x512x128) ![6, 0, 0] ![1, 512, 128] inb_S8x512x128_S1x512x128_6_0_0)) (View.ld x1 (Rect.unit (s := S8x512x128) ![6, 0, 0] ![1, 512, 128] inb_S8x512x128_S1x512x128_6_0_0)) (View.ld x2 (Rect.unit (s := S8x512x128) ![6, 0, 0] ![1, 512, 128] inb_S8x512x128_S1x512x128_6_0_0)) Z
  | ⟨7, _⟩ => k3_pay2 (k3_pay31 (View.ld x0 (Rect.unit (s := S8x512x128) ![7, 0, 0] ![1, 512, 128] inb_S8x512x128_S1x512x128_7_0_0))) (View.ld x1 (Rect.unit (s := S8x512x128) ![7, 0, 0] ![1, 512, 128] inb_S8x512x128_S1x512x128_7_0_0)) (View.ld x2 (Rect.unit (s := S8x512x128) ![7, 0, 0] ![1, 512, 128] inb_S8x512x128_S1x512x128_7_0_0)) Z

/-- Case A: the mean output's block. -/
theorem out3_A_7_eq (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) :
    out3_A_7 c i arg2 harg2 arg3 harg3 arg4 harg4 arg5 harg5 arg6 harg6 arg7 harg7 arg8 harg8 arg9 harg9 arg10 harg10 hc0 hc1 x0 x1 x2 x3 x4 x5 = meanPay x0 x1 x3 x4 x5 := by
  unfold out3_A_7
  rw [View.read_writes_junk_eq_canon]
  unfold kernelRun3_A
  dsimp only
  sl_unfold_words
  rw [View.canon_unit_zero (S := S512x512) hz2]
  simp only [View.readAt_eq_ld, harg2.read_unread, harg3.read_unread, harg4.read_unread, harg5.read_unread, harg6.read_unread, harg7.read_unread, harg10.read_unread]
  rfl

/-- Case B: the mean output's block. -/
theorem out3_B_7_eq (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) :
    out3_B_7 c i arg2 harg2 arg3 harg3 arg4 harg4 arg5 harg5 arg6 harg6 arg7 harg7 arg8 harg8 arg9 harg9 arg10 harg10 hc0 hc1 x0 x1 x2 x3 x4 x5 xs0 = meanPay x0 x1 x3 x4 x5 := by
  unfold out3_B_7
  rw [View.read_writes_junk_eq_canon]
  unfold kernelRun3_B
  dsimp only
  sl_unfold_words
  rw [View.canon_unit_zero (S := S512x512) hz2]
  simp only [View.readAt_eq_ld, harg2.read_unread, harg3.read_unread, harg4.read_unread, harg5.read_unread, harg6.read_unread, harg7.read_unread, harg10.read_unread]
  rfl

/-- Case C: the mean output's block. -/
theorem out3_C_7_eq (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) :
    out3_C_7 c i arg2 harg2 arg3 harg3 arg4 harg4 arg5 harg5 arg6 harg6 arg7 harg7 arg8 harg8 arg9 harg9 arg10 harg10 hc0 hc1 x0 x1 x2 x3 x4 x5 xs0 = meanPay x0 x1 x3 x4 x5 := by
  unfold out3_C_7
  rw [View.read_writes_junk_eq_canon]
  unfold kernelRun3_C
  dsimp only
  sl_unfold_words
  rw [View.canon_unit_zero (S := S512x512) hz2]
  simp only [View.readAt_eq_ld, harg2.read_unread, harg3.read_unread, harg4.read_unread, harg5.read_unread, harg6.read_unread, harg7.read_unread, harg10.read_unread]
  rfl

/-- Case B: the accumulator at (h, r, d) is head h's slab payload at (0, r, d), over that head's slab of what the
    point before left. -/
theorem sout3_B_apply (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (h : Fin 8) (r : Fin 512) (d : Fin 128) :
    ∃ Z : Vec F S1x512x128 .f32, Z (ix3 (0 : Fin 1) r d) = xs0 (ix3 h r d) ∧
      sout3_B_0 c i arg2 harg2 arg3 harg3 arg4 harg4 arg5 harg5 arg6 harg6 arg7 harg7 arg8 harg8 arg9 harg9 arg10 harg10 hc0 hc1 x0 x1 x2 x3 x4 x5 xs0 (ix3 h r d) = slabPay x0 x1 x2 x3 x4 x5 h Z (ix3 (0 : Fin 1) r d) := by
  unfold sout3_B_0
  rw [View.read_writes_junk_eq_canon]
  unfold kernelRun3_B
  dsimp only
  sl_unfold_words
  simp only [View.readAt_eq_ld, harg2.read_unread, harg3.read_unread, harg4.read_unread, harg5.read_unread, harg6.read_unread, harg7.read_unread, harg10.read_unread]
  fin_cases h
  · refine ⟨View.ld xs0 (Rect.unit (s := S8x512x128) ![0, 0, 0] ![1, 512, 128] inb_S8x512x128_S1x512x128_0_0_0), ld_slab xs0 0 (by decide) _ r d, ?_⟩
    try simp (disch := decide) only [canon_slab_skip]
    refine (canon_slab_hit 0 _ _ _ _ r d rfl).trans ?_
    rfl
  · refine ⟨View.ld xs0 (Rect.unit (s := S8x512x128) ![1, 0, 0] ![1, 512, 128] inb_S8x512x128_S1x512x128_1_0_0), ld_slab xs0 1 (by decide) _ r d, ?_⟩
    try simp (disch := decide) only [canon_slab_skip]
    refine (canon_slab_hit 1 _ _ _ _ r d rfl).trans ?_
    rfl
  · refine ⟨View.ld xs0 (Rect.unit (s := S8x512x128) ![2, 0, 0] ![1, 512, 128] inb_S8x512x128_S1x512x128_2_0_0), ld_slab xs0 2 (by decide) _ r d, ?_⟩
    try simp (disch := decide) only [canon_slab_skip]
    refine (canon_slab_hit 2 _ _ _ _ r d rfl).trans ?_
    rfl
  · refine ⟨View.ld xs0 (Rect.unit (s := S8x512x128) ![3, 0, 0] ![1, 512, 128] inb_S8x512x128_S1x512x128_3_0_0), ld_slab xs0 3 (by decide) _ r d, ?_⟩
    try simp (disch := decide) only [canon_slab_skip]
    refine (canon_slab_hit 3 _ _ _ _ r d rfl).trans ?_
    rfl
  · refine ⟨View.ld xs0 (Rect.unit (s := S8x512x128) ![4, 0, 0] ![1, 512, 128] inb_S8x512x128_S1x512x128_4_0_0), ld_slab xs0 4 (by decide) _ r d, ?_⟩
    try simp (disch := decide) only [canon_slab_skip]
    refine (canon_slab_hit 4 _ _ _ _ r d rfl).trans ?_
    rfl
  · refine ⟨View.ld xs0 (Rect.unit (s := S8x512x128) ![5, 0, 0] ![1, 512, 128] inb_S8x512x128_S1x512x128_5_0_0), ld_slab xs0 5 (by decide) _ r d, ?_⟩
    try simp (disch := decide) only [canon_slab_skip]
    refine (canon_slab_hit 5 _ _ _ _ r d rfl).trans ?_
    rfl
  · refine ⟨View.ld xs0 (Rect.unit (s := S8x512x128) ![6, 0, 0] ![1, 512, 128] inb_S8x512x128_S1x512x128_6_0_0), ld_slab xs0 6 (by decide) _ r d, ?_⟩
    try simp (disch := decide) only [canon_slab_skip]
    refine (canon_slab_hit 6 _ _ _ _ r d rfl).trans ?_
    rfl
  · refine ⟨View.ld xs0 (Rect.unit (s := S8x512x128) ![7, 0, 0] ![1, 512, 128] inb_S8x512x128_S1x512x128_7_0_0), ld_slab xs0 7 (by decide) _ r d, ?_⟩
    try simp (disch := decide) only [canon_slab_skip]
    refine (canon_slab_hit 7 _ _ _ _ r d rfl).trans ?_
    rfl

/-- Case C: the accumulator at (h, r, d) is head h's slab payload at (0, r, d), over that head's slab of what the
    point before left. -/
theorem sout3_C_apply (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) (h : Fin 8) (r : Fin 512) (d : Fin 128) :
    ∃ Z : Vec F S1x512x128 .f32, Z (ix3 (0 : Fin 1) r d) = xs0 (ix3 h r d) ∧
      sout3_C_0 c i arg2 harg2 arg3 harg3 arg4 harg4 arg5 harg5 arg6 harg6 arg7 harg7 arg8 harg8 arg9 harg9 arg10 harg10 hc0 hc1 x0 x1 x2 x3 x4 x5 xs0 (ix3 h r d) = slabPay x0 x1 x2 x3 x4 x5 h Z (ix3 (0 : Fin 1) r d) := by
  unfold sout3_C_0
  rw [View.read_writes_junk_eq_canon]
  unfold kernelRun3_C
  dsimp only
  sl_unfold_words
  simp only [View.readAt_eq_ld, harg2.read_unread, harg3.read_unread, harg4.read_unread, harg5.read_unread, harg6.read_unread, harg7.read_unread, harg10.read_unread]
  fin_cases h
  · refine ⟨View.ld xs0 (Rect.unit (s := S8x512x128) ![0, 0, 0] ![1, 512, 128] inb_S8x512x128_S1x512x128_0_0_0), ld_slab xs0 0 (by decide) _ r d, ?_⟩
    try simp (disch := decide) only [canon_slab_skip]
    refine (canon_slab_hit 0 _ _ _ _ r d rfl).trans ?_
    rfl
  · refine ⟨View.ld xs0 (Rect.unit (s := S8x512x128) ![1, 0, 0] ![1, 512, 128] inb_S8x512x128_S1x512x128_1_0_0), ld_slab xs0 1 (by decide) _ r d, ?_⟩
    try simp (disch := decide) only [canon_slab_skip]
    refine (canon_slab_hit 1 _ _ _ _ r d rfl).trans ?_
    rfl
  · refine ⟨View.ld xs0 (Rect.unit (s := S8x512x128) ![2, 0, 0] ![1, 512, 128] inb_S8x512x128_S1x512x128_2_0_0), ld_slab xs0 2 (by decide) _ r d, ?_⟩
    try simp (disch := decide) only [canon_slab_skip]
    refine (canon_slab_hit 2 _ _ _ _ r d rfl).trans ?_
    rfl
  · refine ⟨View.ld xs0 (Rect.unit (s := S8x512x128) ![3, 0, 0] ![1, 512, 128] inb_S8x512x128_S1x512x128_3_0_0), ld_slab xs0 3 (by decide) _ r d, ?_⟩
    try simp (disch := decide) only [canon_slab_skip]
    refine (canon_slab_hit 3 _ _ _ _ r d rfl).trans ?_
    rfl
  · refine ⟨View.ld xs0 (Rect.unit (s := S8x512x128) ![4, 0, 0] ![1, 512, 128] inb_S8x512x128_S1x512x128_4_0_0), ld_slab xs0 4 (by decide) _ r d, ?_⟩
    try simp (disch := decide) only [canon_slab_skip]
    refine (canon_slab_hit 4 _ _ _ _ r d rfl).trans ?_
    rfl
  · refine ⟨View.ld xs0 (Rect.unit (s := S8x512x128) ![5, 0, 0] ![1, 512, 128] inb_S8x512x128_S1x512x128_5_0_0), ld_slab xs0 5 (by decide) _ r d, ?_⟩
    try simp (disch := decide) only [canon_slab_skip]
    refine (canon_slab_hit 5 _ _ _ _ r d rfl).trans ?_
    rfl
  · refine ⟨View.ld xs0 (Rect.unit (s := S8x512x128) ![6, 0, 0] ![1, 512, 128] inb_S8x512x128_S1x512x128_6_0_0), ld_slab xs0 6 (by decide) _ r d, ?_⟩
    try simp (disch := decide) only [canon_slab_skip]
    refine (canon_slab_hit 6 _ _ _ _ r d rfl).trans ?_
    rfl
  · refine ⟨View.ld xs0 (Rect.unit (s := S8x512x128) ![7, 0, 0] ![1, 512, 128] inb_S8x512x128_S1x512x128_7_0_0), ld_slab xs0 7 (by decide) _ r d, ?_⟩
    try simp (disch := decide) only [canon_slab_skip]
    refine (canon_slab_hit 7 _ _ _ _ r d rfl).trans ?_
    rfl

/-- Case A: the same over the zero fill. -/
theorem sout3_A_apply (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : cond3_0 i) (hc1 : ¬cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (h : Fin 8) (r : Fin 512) (d : Fin 128) :
    ∃ Z : Vec F S1x512x128 .f32, Z (ix3 (0 : Fin 1) r d) = (k3_pay5 (F := F)) (ix3 h r d) ∧
      sout3_A_0 c i arg2 harg2 arg3 harg3 arg4 harg4 arg5 harg5 arg6 harg6 arg7 harg7 arg8 harg8 arg9 harg9 arg10 harg10 hc0 hc1 x0 x1 x2 x3 x4 x5 (ix3 h r d) = slabPay x0 x1 x2 x3 x4 x5 h Z (ix3 (0 : Fin 1) r d) := by
  unfold sout3_A_0
  rw [View.read_writes_junk_eq_canon]
  unfold kernelRun3_A
  dsimp only
  sl_unfold_words
  simp only [View.readAt_eq_ld, harg2.read_unread, harg3.read_unread, harg4.read_unread, harg5.read_unread, harg6.read_unread, harg7.read_unread, harg10.read_unread]
  fin_cases h
  · try simp (disch := decide) only [canon_slab_skip]
    refine ⟨_, ?_, (canon_slab_hit 0 _ _ _ _ r d rfl).trans rfl⟩
    rw [View.readCov_eq_canon']
    show View.canon _ ((Rect.unit (s := S8x512x128) ![0, 0, 0] ![1, 512, 128] inb_S8x512x128_S1x512x128_0_0_0).idx (ix3 (0 : Fin 1) r d)) = _
    rw [slab_idx 0 (by decide) _ r d]
    try simp (disch := decide) only [canon_slab_skip]
    exact canon_whole8 _ _ _ _
  · try simp (disch := decide) only [canon_slab_skip]
    refine ⟨_, ?_, (canon_slab_hit 1 _ _ _ _ r d rfl).trans rfl⟩
    rw [View.readCov_eq_canon']
    show View.canon _ ((Rect.unit (s := S8x512x128) ![1, 0, 0] ![1, 512, 128] inb_S8x512x128_S1x512x128_1_0_0).idx (ix3 (0 : Fin 1) r d)) = _
    rw [slab_idx 1 (by decide) _ r d]
    try simp (disch := decide) only [canon_slab_skip]
    exact canon_whole8 _ _ _ _
  · try simp (disch := decide) only [canon_slab_skip]
    refine ⟨_, ?_, (canon_slab_hit 2 _ _ _ _ r d rfl).trans rfl⟩
    rw [View.readCov_eq_canon']
    show View.canon _ ((Rect.unit (s := S8x512x128) ![2, 0, 0] ![1, 512, 128] inb_S8x512x128_S1x512x128_2_0_0).idx (ix3 (0 : Fin 1) r d)) = _
    rw [slab_idx 2 (by decide) _ r d]
    try simp (disch := decide) only [canon_slab_skip]
    exact canon_whole8 _ _ _ _
  · try simp (disch := decide) only [canon_slab_skip]
    refine ⟨_, ?_, (canon_slab_hit 3 _ _ _ _ r d rfl).trans rfl⟩
    rw [View.readCov_eq_canon']
    show View.canon _ ((Rect.unit (s := S8x512x128) ![3, 0, 0] ![1, 512, 128] inb_S8x512x128_S1x512x128_3_0_0).idx (ix3 (0 : Fin 1) r d)) = _
    rw [slab_idx 3 (by decide) _ r d]
    try simp (disch := decide) only [canon_slab_skip]
    exact canon_whole8 _ _ _ _
  · try simp (disch := decide) only [canon_slab_skip]
    refine ⟨_, ?_, (canon_slab_hit 4 _ _ _ _ r d rfl).trans rfl⟩
    rw [View.readCov_eq_canon']
    show View.canon _ ((Rect.unit (s := S8x512x128) ![4, 0, 0] ![1, 512, 128] inb_S8x512x128_S1x512x128_4_0_0).idx (ix3 (0 : Fin 1) r d)) = _
    rw [slab_idx 4 (by decide) _ r d]
    try simp (disch := decide) only [canon_slab_skip]
    exact canon_whole8 _ _ _ _
  · try simp (disch := decide) only [canon_slab_skip]
    refine ⟨_, ?_, (canon_slab_hit 5 _ _ _ _ r d rfl).trans rfl⟩
    rw [View.readCov_eq_canon']
    show View.canon _ ((Rect.unit (s := S8x512x128) ![5, 0, 0] ![1, 512, 128] inb_S8x512x128_S1x512x128_5_0_0).idx (ix3 (0 : Fin 1) r d)) = _
    rw [slab_idx 5 (by decide) _ r d]
    try simp (disch := decide) only [canon_slab_skip]
    exact canon_whole8 _ _ _ _
  · try simp (disch := decide) only [canon_slab_skip]
    refine ⟨_, ?_, (canon_slab_hit 6 _ _ _ _ r d rfl).trans rfl⟩
    rw [View.readCov_eq_canon']
    show View.canon _ ((Rect.unit (s := S8x512x128) ![6, 0, 0] ![1, 512, 128] inb_S8x512x128_S1x512x128_6_0_0).idx (ix3 (0 : Fin 1) r d)) = _
    rw [slab_idx 6 (by decide) _ r d]
    try simp (disch := decide) only [canon_slab_skip]
    exact canon_whole8 _ _ _ _
  · try simp (disch := decide) only [canon_slab_skip]
    refine ⟨_, ?_, (canon_slab_hit 7 _ _ _ _ r d rfl).trans rfl⟩
    rw [View.readCov_eq_canon']
    show View.canon _ ((Rect.unit (s := S8x512x128) ![7, 0, 0] ![1, 512, 128] inb_S8x512x128_S1x512x128_7_0_0).idx (ix3 (0 : Fin 1) r d)) = _
    rw [slab_idx 7 (by decide) _ r d]
    try simp (disch := decide) only [canon_slab_skip]
    exact canon_whole8 _ _ _ _

set_option maxHeartbeats 2000000 in
/-- Case C: output 6's block is the accumulator clamped below at zero. -/
theorem out3_C_6_eq (c : Dev nD) (i : grid3.Coords) (arg2 : Memref sig .tc .vmem S8x512x128 .bf16) (harg2 : arg2.IsWhole) (arg3 : Memref sig .tc .vmem S8x512x128 .bf16) (harg3 : arg3.IsWhole) (arg4 : Memref sig .tc .vmem S8x512x128 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S8x512x128 .f32) (harg8 : arg8.IsWhole) (arg9 : Memref sig .tc .vmem S512x512 .f32) (harg9 : arg9.IsWhole) (arg10 : Memref sig .tc .vmem S8x512x128 .f32) (harg10 : arg10.IsWhole) (hc0 : ¬cond3_0 i) (hc1 : cond3_1 i)
    (x0 : Vec F S8x512x128 .bf16) (x1 : Vec F S8x512x128 .bf16) (x2 : Vec F S8x512x128 .bf16) (x3 : Vec F S512x512 .f32) (x4 : Vec F S512x512 .f32) (x5 : Vec F S512x512 .f32) (xs0 : Vec F S8x512x128 .f32) :
    out3_C_6 c i arg2 harg2 arg3 harg3 arg4 harg4 arg5 harg5 arg6 harg6 arg7 harg7 arg8 harg8 arg9 harg9 arg10 harg10 hc0 hc1 x0 x1 x2 x3 x4 x5 xs0 = k3_pay4 (sout3_C_0 c i arg2 harg2 arg3 harg3 arg4 harg4 arg5 harg5 arg6 harg6 arg7 harg7 arg8 harg8 arg9 harg9 arg10 harg10 hc0 hc1 x0 x1 x2 x3 x4 x5 xs0) := by
  unfold out3_C_6 sout3_C_0
  rw [View.read_writes_junk_eq_canon, View.read_writes_junk_eq_canon]
  unfold kernelRun3_C
  dsimp only
  sl_unfold_words
  rw [View.canon_unit_zero (S := S8x512x128) hz3]
  rw [View.readCov_eq_canon']
  exact congrArg k3_pay4 (View.ld_unit_zero (S := S8x512x128) hz3 _ _)

end Cert.KernelIdeal.Hand

end
-- ==== Proof.KI.Attn.PayAt.lean ====
/- The attention body's pure values read at an index, at the extended reals.

   Per head the body forms a block of scores: the product of a block of 512 query rows with the
   TRANSPOSE of a block of 512 key rows (each row 128 wide), plus a bias block in six of the eight
   heads, times one constant; it adds the product of that block with a block of 512 value rows onto an
   accumulator; and it keeps a running sum of the eight heads' score blocks, which the last head
   multiplies by an eighth. Read at an index, a product of blocks is a sum over the contracted
   coordinate, a cast between [1,512,128] and [512,128] moves the coordinates, a rounding to a
   narrower format is the identity, and everything else is pointwise. -/
import proofs.«152551_j88132728914059_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The word of +0.0 denotes 0. -/
theorem ofBits_zero : Ideal.ofBits .f32 0x00000000#32 = 0 := by
  simp [Ideal.ofBits, Ideal.ieee]

/-! ## The three shapes everything else reuses -/

/-- A [1,512,128] block as a [512,128] block. -/
theorem cast_in_apply {α : Type} (x : S1x512x128.Idx → α) (r : Fin 512) (d : Fin 128) :
    shapeCast S512x128 x shapeCasts_S1x512x128_S512x128 (ix2 r d) = x (ix3 (0 : Fin 1) r d) :=
  shapeCast_1ab_ab_apply x shapeCasts_S1x512x128_S512x128 r d

/-- A [512,128] block as a [1,512,128] block. -/
theorem cast_out_apply {α : Type} (x : S512x128.Idx → α) (u : Fin 1) (r : Fin 512) (d : Fin 128) :
    shapeCast S1x512x128 x shapeCasts_S512x128_S1x512x128 (ix3 u r d) = x (ix2 r d) :=
  shapeCast_ab_1ab_apply x shapeCasts_S512x128_S1x512x128 u r d

/-- The transposed key block. -/
theorem keyT_apply {α : Type} (x : S512x128.Idx → α) (d : Fin 128) (s : Fin 512) :
    transpose S128x512 [1, 0] x transposes_S512x128_p1_0_S128x512 (ix2 d s) = x (ix2 s d) :=
  transpose_ix2_apply x transposes_S512x128_p1_0_S128x512 d s

/-- Queries times transposed keys into a zero block: row r of the first against column s of the second. -/
theorem qk_matmul_apply {φ₁ φ₂ : FTy} (q : FVec Ideal S512x128 φ₁) (kt : FVec Ideal S128x512 φ₂) (r s : Fin 512) :
    matmul dot_S512x128_S128x512_S512x512_1_0_0_1_n_n none q kt (constant (F := Ideal) S512x512 .f32 0x00000000#32) (ix2 r s)
      = ∑ d : Fin 128, q (ix2 r d) * kt (ix2 d s) := by
  refine (Ideal.matmul_constant_zero_apply dot_S512x128_S128x512_S512x512_1_0_0_1_n_n none q kt (ix2 r s)).trans ?_
  rw [← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have l0 : ∀ (i : S512x512.Idx) (c : dot_S512x128_S128x512_S512x512_1_0_0_1_n_n.contr.Idx),
      (dot_S512x128_S128x512_S512x512_1_0_0_1_n_n.lhsIdx i c 0).val = (i 0).val := by
    intro i c
    unfold DotDims.lhsIdx
    rw [dif_neg (show ¬(0 : Fin S512x128.rank) ∈ dot_S512x128_S128x512_S512x512_1_0_0_1_n_n.lhsBatch by decide),
      dif_pos (show (0 : Fin S512x128.rank) ∈ dot_S512x128_S128x512_S512x512_1_0_0_1_n_n.lhsNonContracting by decide)]
    rfl
  have r1 : ∀ (i : S512x512.Idx) (c : dot_S512x128_S128x512_S512x512_1_0_0_1_n_n.contr.Idx),
      (dot_S512x128_S128x512_S512x512_1_0_0_1_n_n.rhsIdx i c 1).val = (i 1).val := by
    intro i c
    unfold DotDims.rhsIdx
    rw [dif_neg (show ¬(1 : Fin S128x512.rank) ∈ dot_S512x128_S128x512_S512x512_1_0_0_1_n_n.rhsBatch by decide),
      dif_pos (show (1 : Fin S128x512.rank) ∈ dot_S512x128_S128x512_S512x512_1_0_0_1_n_n.rhsNonContracting by decide)]
    rfl
  have el : dot_S512x128_S128x512_S512x512_1_0_0_1_n_n.lhsIdx (ix2 r s)
      ((contrEquiv1 dot_S512x128_S128x512_S512x512_1_0_0_1_n_n 128 rfl rfl).symm k) = ix2 r k :=
    funext fun a => Fin.ext (by
      match a with
      | ⟨0, _⟩ => exact l0 _ _
      | ⟨1, _⟩ => exact (dot_S512x128_S128x512_S512x512_1_0_0_1_n_n.lhsIdx_val_of_single rfl _ _).trans hk)
  have er : dot_S512x128_S128x512_S512x512_1_0_0_1_n_n.rhsIdx (ix2 r s)
      ((contrEquiv1 dot_S512x128_S128x512_S512x512_1_0_0_1_n_n 128 rfl rfl).symm k) = ix2 k s :=
    funext fun a => Fin.ext (by
      match a with
      | ⟨0, _⟩ => exact (dot_S512x128_S128x512_S512x512_1_0_0_1_n_n.rhsIdx_val_of_single rfl _ _).trans hk
      | ⟨1, _⟩ => exact r1 _ _)
  rw [el, er]

/-- Scores times values into a zero block: row r of the scores against column d of the values. -/
theorem sv_matmul_apply {φ₁ φ₂ : FTy} (p : FVec Ideal S512x512 φ₁) (v : FVec Ideal S512x128 φ₂) (r : Fin 512) (d : Fin 128) :
    matmul dot_S512x512_S512x128_S512x128_1_0_0_1_n_n none p v (constant (F := Ideal) S512x128 .f32 0x00000000#32) (ix2 r d)
      = ∑ j : Fin 512, p (ix2 r j) * v (ix2 j d) := by
  refine (Ideal.matmul_constant_zero_apply dot_S512x512_S512x128_S512x128_1_0_0_1_n_n none p v (ix2 r d)).trans ?_
  rw [← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have l0 : ∀ (i : S512x128.Idx) (c : dot_S512x512_S512x128_S512x128_1_0_0_1_n_n.contr.Idx),
      (dot_S512x512_S512x128_S512x128_1_0_0_1_n_n.lhsIdx i c 0).val = (i 0).val := by
    intro i c
    unfold DotDims.lhsIdx
    rw [dif_neg (show ¬(0 : Fin S512x512.rank) ∈ dot_S512x512_S512x128_S512x128_1_0_0_1_n_n.lhsBatch by decide),
      dif_pos (show (0 : Fin S512x512.rank) ∈ dot_S512x512_S512x128_S512x128_1_0_0_1_n_n.lhsNonContracting by decide)]
    rfl
  have r1 : ∀ (i : S512x128.Idx) (c : dot_S512x512_S512x128_S512x128_1_0_0_1_n_n.contr.Idx),
      (dot_S512x512_S512x128_S512x128_1_0_0_1_n_n.rhsIdx i c 1).val = (i 1).val := by
    intro i c
    unfold DotDims.rhsIdx
    rw [dif_neg (show ¬(1 : Fin S512x128.rank) ∈ dot_S512x512_S512x128_S512x128_1_0_0_1_n_n.rhsBatch by decide),
      dif_pos (show (1 : Fin S512x128.rank) ∈ dot_S512x512_S512x128_S512x128_1_0_0_1_n_n.rhsNonContracting by decide)]
    rfl
  have el : dot_S512x512_S512x128_S512x128_1_0_0_1_n_n.lhsIdx (ix2 r d)
      ((contrEquiv1 dot_S512x512_S512x128_S512x128_1_0_0_1_n_n 512 rfl rfl).symm k) = ix2 r k :=
    funext fun a => Fin.ext (by
      match a with
      | ⟨0, _⟩ => exact l0 _ _
      | ⟨1, _⟩ => exact (dot_S512x512_S512x128_S512x128_1_0_0_1_n_n.lhsIdx_val_of_single rfl _ _).trans hk)
  have er : dot_S512x512_S512x128_S512x128_1_0_0_1_n_n.rhsIdx (ix2 r d)
      ((contrEquiv1 dot_S512x512_S512x128_S512x128_1_0_0_1_n_n 512 rfl rfl).symm k) = ix2 k d :=
    funext fun a => Fin.ext (by
      match a with
      | ⟨0, _⟩ => exact (dot_S512x512_S512x128_S512x128_1_0_0_1_n_n.rhsIdx_val_of_single rfl _ _).trans hk
      | ⟨1, _⟩ => exact r1 _ _)
  rw [el, er]

/-- The raw score block: the query block against the transposed, cast key block. -/
theorem raw_score_apply (q : FVec Ideal S512x128 .bf16) (k : Vec Ideal S1x512x128 .bf16) (r s : Fin 512) :
    matmul (φ₁ := .bf16) (φ₂ := .bf16) dot_S512x128_S128x512_S512x512_1_0_0_1_n_n none q
        (transpose S128x512 [1, 0] (shapeCast S512x128 k shapeCasts_S1x512x128_S512x128) transposes_S512x128_p1_0_S128x512)
        (constant (F := Ideal) S512x512 .f32 0x00000000#32) (ix2 r s)
      = ∑ d : Fin 128, q (ix2 r d) * k (ix3 (0 : Fin 1) s d) := by
  refine (qk_matmul_apply (φ₁ := .bf16) (φ₂ := .bf16) q _ r s).trans ?_
  refine Finset.sum_congr rfl fun d _ => ?_
  rw [keyT_apply, cast_in_apply]

/-- The same with the query block cast too. -/
theorem score_block_apply (q k : Vec Ideal S1x512x128 .bf16) (r s : Fin 512) :
    matmul (φ₁ := .bf16) (φ₂ := .bf16) dot_S512x128_S128x512_S512x512_1_0_0_1_n_n none
        (shapeCast S512x128 q shapeCasts_S1x512x128_S512x128)
        (transpose S128x512 [1, 0] (shapeCast S512x128 k shapeCasts_S1x512x128_S512x128) transposes_S512x128_p1_0_S128x512)
        (constant (F := Ideal) S512x512 .f32 0x00000000#32) (ix2 r s)
      = ∑ d : Fin 128, q (ix3 (0 : Fin 1) r d) * k (ix3 (0 : Fin 1) s d) := by
  refine (raw_score_apply _ k r s).trans ?_
  refine Finset.sum_congr rfl fun d _ => ?_
  rw [cast_in_apply]

/-- A biased, scaled score block: (queries against keys, plus the bias) times the constant of the word w. -/
theorem biased_score_apply (q k : Vec Ideal S1x512x128 .bf16) (b : FVec Ideal S512x512 .f32) (w : BitVec 32) (r s : Fin 512) :
    mulf (addf (matmul (φ₁ := .bf16) (φ₂ := .bf16) dot_S512x128_S128x512_S512x512_1_0_0_1_n_n none
        (shapeCast S512x128 q shapeCasts_S1x512x128_S512x128)
        (transpose S128x512 [1, 0] (shapeCast S512x128 k shapeCasts_S1x512x128_S512x128) transposes_S512x128_p1_0_S128x512)
        (constant (F := Ideal) S512x512 .f32 0x00000000#32)) b)
      (broadcast S512x512 (Scalar.ofBits (F := Ideal) .f32 w)) (ix2 r s)
      = ((∑ d : Fin 128, q (ix3 (0 : Fin 1) r d) * k (ix3 (0 : Fin 1) s d)) + b (ix2 r s)) * Ideal.ofBits .f32 w :=
  congrArg (fun t : EReal => (t + b (ix2 r s)) * Ideal.ofBits .f32 w) (score_block_apply q k r s)

/-- The accumulator's step: the old block plus the rounded scores against the value block. -/
theorem acc_apply (p : FVec Ideal S512x512 .f32) (v : FVec Ideal S512x128 .bf16) (a : Vec Ideal S1x512x128 .f32)
    (u : Fin 1) (r : Fin 512) (d : Fin 128) :
    shapeCast S1x512x128
        (addf (shapeCast S512x128 a shapeCasts_S1x512x128_S512x128)
          (matmul (φ₁ := .bf16) (φ₂ := .bf16) dot_S512x512_S512x128_S512x128_1_0_0_1_n_n none
            (truncf .bf16 p bitsLt_bf16_f32) v (constant (F := Ideal) S512x128 .f32 0x00000000#32)))
        shapeCasts_S512x128_S1x512x128 (ix3 u r d)
      = a (ix3 (0 : Fin 1) r d) + ∑ j : Fin 512, p (ix2 r j) * v (ix2 j d) := by
  rw [cast_out_apply]
  show shapeCast S512x128 a shapeCasts_S1x512x128_S512x128 (ix2 r d)
      + matmul (φ₁ := .bf16) (φ₂ := .bf16) dot_S512x512_S512x128_S512x128_1_0_0_1_n_n none
          (truncf .bf16 p bitsLt_bf16_f32) v (constant (F := Ideal) S512x128 .f32 0x00000000#32) (ix2 r d) = _
  rw [cast_in_apply, sv_matmul_apply]
  rfl

/-- The same with the value block cast. -/
theorem acc_cast_apply (p : FVec Ideal S512x512 .f32) (v : Vec Ideal S1x512x128 .bf16) (a : Vec Ideal S1x512x128 .f32)
    (u : Fin 1) (r : Fin 512) (d : Fin 128) :
    shapeCast S1x512x128
        (addf (shapeCast S512x128 a shapeCasts_S1x512x128_S512x128)
          (matmul (φ₁ := .bf16) (φ₂ := .bf16) dot_S512x512_S512x128_S512x128_1_0_0_1_n_n none
            (truncf .bf16 p bitsLt_bf16_f32) (shapeCast S512x128 v shapeCasts_S1x512x128_S512x128)
            (constant (F := Ideal) S512x128 .f32 0x00000000#32)))
        shapeCasts_S512x128_S1x512x128 (ix3 u r d)
      = a (ix3 (0 : Fin 1) r d) + ∑ j : Fin 512, p (ix2 r j) * v (ix3 (0 : Fin 1) j d) := by
  refine (acc_apply p _ a u r d).trans ?_
  refine congrArg (a (ix3 (0 : Fin 1) r d) + ·) (Finset.sum_congr rfl fun j _ => ?_)
  rw [cast_in_apply]

/-! ## The payloads, head by head -/

section Payloads

variable (r s : Fin 512) (d : Fin 128) (u : Fin 1)

/-! ### Same-shape and unit-axis casts -/

theorem k3_pay6_eq (v3 : Vec Ideal S512x512 .f32) : k3_pay6 (F := Ideal) v3 = v3 := by
  unfold k3_pay6; exact shapeCast_self v3 _
theorem k3_pay6_apply (v3 : Vec Ideal S512x512 .f32) (i : S512x512.Idx) : k3_pay6 (F := Ideal) v3 i = v3 i :=
  congrFun (k3_pay6_eq v3) i

theorem k3_pay7_eq (v5 : Vec Ideal S512x512 .f32) : k3_pay7 (F := Ideal) v5 = v5 := by
  unfold k3_pay7; exact shapeCast_self v5 _
theorem k3_pay7_apply (v5 : Vec Ideal S512x512 .f32) (i : S512x512.Idx) : k3_pay7 (F := Ideal) v5 i = v5 i :=
  congrFun (k3_pay7_eq v5) i

theorem k3_pay8_eq (v7 : Vec Ideal S512x512 .f32) : k3_pay8 (F := Ideal) v7 = v7 := by
  unfold k3_pay8; exact shapeCast_self v7 _
theorem k3_pay8_apply (v7 : Vec Ideal S512x512 .f32) (i : S512x512.Idx) : k3_pay8 (F := Ideal) v7 i = v7 i :=
  congrFun (k3_pay8_eq v7) i

theorem k3_pay15_apply (v54 : Vec Ideal S1x512x128 .bf16) :
    k3_pay15 (F := Ideal) v54 (ix2 r d) = v54 (ix3 (0 : Fin 1) r d) := by
  unfold k3_pay15; exact cast_in_apply v54 r d

theorem k3_pay24_apply (v114 : Vec Ideal S1x512x128 .bf16) :
    k3_pay24 (F := Ideal) v114 (ix2 r d) = v114 (ix3 (0 : Fin 1) r d) := by
  unfold k3_pay24; exact cast_in_apply v114 r d

theorem k3_pay31_apply (v149 : Vec Ideal S1x512x128 .bf16) :
    k3_pay31 (F := Ideal) v149 (ix2 r d) = v149 (ix3 (0 : Fin 1) r d) := by
  unfold k3_pay31; exact cast_in_apply v149 r d

/-- The zero block. -/
theorem k3_pay5_apply (i : S8x512x128.Idx) : k3_pay5 (F := Ideal) i = 0 := by
  unfold k3_pay5
  refine (congrFun (shapeCast_self _ _) i).trans ?_
  exact ofBits_zero

/-- The clamp below at zero. -/
theorem k3_pay4_apply (v174 : Vec Ideal S8x512x128 .f32) (i : S8x512x128.Idx) :
    k3_pay4 (F := Ideal) v174 i = max (v174 i) 0 := by
  unfold k3_pay4
  show max (v174 i) (Ideal.ofBits .f32 0x00000000#32) = _
  rw [ofBits_zero]

/-! ### Head 0 -/

theorem k3_pay9_apply (v3 : Vec Ideal S512x512 .f32) (v10 v12 : Vec Ideal S1x512x128 .bf16) :
    k3_pay9 (F := Ideal) v3 v10 v12 (ix2 r s)
      = ((∑ e : Fin 128, v10 (ix3 (0 : Fin 1) r e) * v12 (ix3 (0 : Fin 1) s e)) + v3 (ix2 r s))
        * Ideal.ofBits .f32 0x3F7F485A#32 := by
  unfold k3_pay9
  exact (biased_score_apply v10 v12 (k3_pay6 (F := Ideal) v3) 0x3F7F485A#32 r s).trans (by rw [k3_pay6_eq])

theorem k3_pay10_apply (v3 : Vec Ideal S512x512 .f32) (v10 v12 : Vec Ideal S1x512x128 .bf16) (i : S512x512.Idx) :
    k3_pay10 (F := Ideal) v3 v10 v12 i = k3_pay9 (F := Ideal) v3 v10 v12 i := by
  unfold k3_pay10
  show Ideal.ofBits .f32 0x00000000#32 + k3_pay9 (F := Ideal) v3 v10 v12 i = _
  rw [ofBits_zero, zero_add]

theorem k3_pay11_apply (v3 : Vec Ideal S512x512 .f32) (v10 v12 v14 : Vec Ideal S1x512x128 .bf16)
    (v22 : Vec Ideal S1x512x128 .f32) :
    k3_pay11 (F := Ideal) v3 v10 v12 v14 v22 (ix3 u r d)
      = v22 (ix3 (0 : Fin 1) r d)
        + ∑ j : Fin 512, k3_pay9 (F := Ideal) v3 v10 v12 (ix2 r j) * v14 (ix3 (0 : Fin 1) j d) := by
  unfold k3_pay11
  exact acc_cast_apply (k3_pay9 (F := Ideal) v3 v10 v12) v14 v22 u r d

/-! ### Head 1 -/

theorem k3_pay12_apply (v4 : FVec Ideal S512x512 .f32) (v30 v32 : Vec Ideal S1x512x128 .bf16) :
    k3_pay12 (F := Ideal) v4 v30 v32 (ix2 r s)
      = ((∑ e : Fin 128, v30 (ix3 (0 : Fin 1) r e) * v32 (ix3 (0 : Fin 1) s e)) + v4 (ix2 r s))
        * Ideal.ofBits .f32 0x3F7F485A#32 := by
  unfold k3_pay12
  exact biased_score_apply v30 v32 v4 0x3F7F485A#32 r s

theorem k3_pay13_apply (v4 v21 : FVec Ideal S512x512 .f32) (v30 v32 : Vec Ideal S1x512x128 .bf16) (i : S512x512.Idx) :
    k3_pay13 (F := Ideal) v4 v21 v30 v32 i = v21 i + k3_pay12 (F := Ideal) v4 v30 v32 i := by
  unfold k3_pay13; rfl

theorem k3_pay14_apply (v4 : FVec Ideal S512x512 .f32) (v30 v32 v34 : Vec Ideal S1x512x128 .bf16)
    (v42 : Vec Ideal S1x512x128 .f32) :
    k3_pay14 (F := Ideal) v4 v30 v32 v34 v42 (ix3 u r d)
      = v42 (ix3 (0 : Fin 1) r d)
        + ∑ j : Fin 512, k3_pay12 (F := Ideal) v4 v30 v32 (ix2 r j) * v34 (ix3 (0 : Fin 1) j d) := by
  unfold k3_pay14
  exact acc_cast_apply (k3_pay12 (F := Ideal) v4 v30 v32) v34 v42 u r d

/-! ### Head 2 -/

/-- The biased score of head 2 before its scaling. -/
theorem k3_pay16_apply (v6 : FVec Ideal S512x512 .f32) (v50 v52 : Vec Ideal S1x512x128 .bf16) :
    k3_pay16 (F := Ideal) v6 v50 v52 (ix2 r s)
      = (∑ e : Fin 128, v50 (ix3 (0 : Fin 1) r e) * v52 (ix3 (0 : Fin 1) s e)) + v6 (ix2 r s) := by
  unfold k3_pay16
  exact congrArg (fun t : EReal => t + v6 (ix2 r s)) (score_block_apply v50 v52 r s)

theorem k3_pay17_apply (v58 : FVec Ideal S512x512 .f32) (cst_50 : Ideal .f32) (i : S512x512.Idx) :
    k3_pay17 (F := Ideal) v58 cst_50 i = v58 i * cst_50 := by
  unfold k3_pay17; rfl

theorem k3_pay18_apply (v55 : FVec Ideal S512x128 .bf16) (v58 : FVec Ideal S512x512 .f32) (cst_50 : Ideal .f32)
    (v62 : Vec Ideal S1x512x128 .f32) :
    k3_pay18 (F := Ideal) v55 v58 cst_50 v62 (ix3 u r d)
      = v62 (ix3 (0 : Fin 1) r d) + ∑ j : Fin 512, k3_pay17 (F := Ideal) v58 cst_50 (ix2 r j) * v55 (ix2 j d) := by
  unfold k3_pay18
  exact acc_apply (k3_pay17 (F := Ideal) v58 cst_50) v55 v62 u r d

/-! ### Head 3 -/

theorem k3_pay19_apply (v6 : FVec Ideal S512x512 .f32) (v70 v72 : Vec Ideal S1x512x128 .bf16) :
    k3_pay19 (F := Ideal) v6 v70 v72 (ix2 r s)
      = ((∑ e : Fin 128, v70 (ix3 (0 : Fin 1) r e) * v72 (ix3 (0 : Fin 1) s e)) + v6 (ix2 r s))
        * Ideal.ofBits .f32 0x3F7F485A#32 := by
  unfold k3_pay19
  exact biased_score_apply v70 v72 v6 0x3F7F485A#32 r s

theorem k3_pay20_apply (v6 v41 v58 : FVec Ideal S512x512 .f32) (cst_50 : Ideal .f32) (v70 v72 : Vec Ideal S1x512x128 .bf16)
    (i : S512x512.Idx) :
    k3_pay20 (F := Ideal) v6 v41 v58 cst_50 v70 v72 i
      = (v41 i + k3_pay17 (F := Ideal) v58 cst_50 i) + k3_pay19 (F := Ideal) v6 v70 v72 i := by
  unfold k3_pay20; rfl

theorem k3_pay21_apply (v6 : FVec Ideal S512x512 .f32) (v70 v72 v74 : Vec Ideal S1x512x128 .bf16)
    (v82 : Vec Ideal S1x512x128 .f32) :
    k3_pay21 (F := Ideal) v6 v70 v72 v74 v82 (ix3 u r d)
      = v82 (ix3 (0 : Fin 1) r d)
        + ∑ j : Fin 512, k3_pay19 (F := Ideal) v6 v70 v72 (ix2 r j) * v74 (ix3 (0 : Fin 1) j d) := by
  unfold k3_pay21
  exact acc_cast_apply (k3_pay19 (F := Ideal) v6 v70 v72) v74 v82 u r d

/-! ### Head 4 -/

theorem k3_pay22_apply (v8 : FVec Ideal S512x512 .f32) (v90 v92 : Vec Ideal S1x512x128 .bf16) :
    k3_pay22 (F := Ideal) v8 v90 v92 (ix2 r s)
      = ((∑ e : Fin 128, v90 (ix3 (0 : Fin 1) r e) * v92 (ix3 (0 : Fin 1) s e)) + v8 (ix2 r s))
        * Ideal.ofBits .f32 0x3F7F485A#32 := by
  unfold k3_pay22
  exact biased_score_apply v90 v92 v8 0x3F7F485A#32 r s

theorem k3_pay23_apply (v8 : FVec Ideal S512x512 .f32) (v90 v92 v94 : Vec Ideal S1x512x128 .bf16)
    (v102 : Vec Ideal S1x512x128 .f32) :
    k3_pay23 (F := Ideal) v8 v90 v92 v94 v102 (ix3 u r d)
      = v102 (ix3 (0 : Fin 1) r d)
        + ∑ j : Fin 512, k3_pay22 (F := Ideal) v8 v90 v92 (ix2 r j) * v94 (ix3 (0 : Fin 1) j d) := by
  unfold k3_pay23
  exact acc_cast_apply (k3_pay22 (F := Ideal) v8 v90 v92) v94 v102 u r d

/-! ### Head 5 -/

theorem k3_pay25_apply (v8 : FVec Ideal S512x512 .f32) (v110 v112 : Vec Ideal S1x512x128 .bf16) :
    k3_pay25 (F := Ideal) v8 v110 v112 (ix2 r s)
      = ((∑ e : Fin 128, v110 (ix3 (0 : Fin 1) r e) * v112 (ix3 (0 : Fin 1) s e)) + v8 (ix2 r s))
        * Ideal.ofBits .f32 0x3F7F485A#32 := by
  unfold k3_pay25
  exact biased_score_apply v110 v112 v8 0x3F7F485A#32 r s

theorem k3_pay26_apply (v8 v81 : FVec Ideal S512x512 .f32) (v90 v92 v110 v112 : Vec Ideal S1x512x128 .bf16)
    (i : S512x512.Idx) :
    k3_pay26 (F := Ideal) v8 v81 v90 v92 v110 v112 i
      = (v81 i + k3_pay22 (F := Ideal) v8 v90 v92 i) + k3_pay25 (F := Ideal) v8 v110 v112 i := by
  unfold k3_pay26; rfl

theorem k3_pay27_apply (v115 : FVec Ideal S512x128 .bf16) (v120 : FVec Ideal S512x512 .f32)
    (v122 : Vec Ideal S1x512x128 .f32) :
    k3_pay27 (F := Ideal) v115 v120 v122 (ix3 u r d)
      = v122 (ix3 (0 : Fin 1) r d) + ∑ j : Fin 512, v120 (ix2 r j) * v115 (ix2 j d) := by
  unfold k3_pay27
  exact acc_apply v120 v115 v122 u r d

/-! ### Head 6 -/

theorem k3_pay28_apply (v130 v132 : Vec Ideal S1x512x128 .bf16) :
    k3_pay28 (F := Ideal) v130 v132 (ix2 r s)
      = (∑ e : Fin 128, v130 (ix3 (0 : Fin 1) r e) * v132 (ix3 (0 : Fin 1) s e)) * Ideal.ofBits .f32 0x3F7F485A#32 := by
  unfold k3_pay28
  exact congrArg (fun t : EReal => t * Ideal.ofBits .f32 0x3F7F485A#32) (score_block_apply v130 v132 r s)

theorem k3_pay29_apply (v121 : FVec Ideal S512x512 .f32) (v130 v132 : Vec Ideal S1x512x128 .bf16) (i : S512x512.Idx) :
    k3_pay29 (F := Ideal) v121 v130 v132 i = v121 i + k3_pay28 (F := Ideal) v130 v132 i := by
  unfold k3_pay29; rfl

theorem k3_pay30_apply (v130 v132 v134 : Vec Ideal S1x512x128 .bf16) (v141 : Vec Ideal S1x512x128 .f32) :
    k3_pay30 (F := Ideal) v130 v132 v134 v141 (ix3 u r d)
      = v141 (ix3 (0 : Fin 1) r d)
        + ∑ j : Fin 512, k3_pay28 (F := Ideal) v130 v132 (ix2 r j) * v134 (ix3 (0 : Fin 1) j d) := by
  unfold k3_pay30
  exact acc_cast_apply (k3_pay28 (F := Ideal) v130 v132) v134 v141 u r d

/-! ### Head 7 and the mean -/

theorem k3_pay1_apply (v150 : FVec Ideal S512x128 .bf16) (v151 : Vec Ideal S1x512x128 .bf16) :
    k3_pay1 (F := Ideal) v150 v151 (ix2 r s)
      = (∑ e : Fin 128, v150 (ix2 r e) * v151 (ix3 (0 : Fin 1) s e)) * Ideal.ofBits .f32 0x3F7F485A#32 := by
  unfold k3_pay1
  exact congrArg (fun t : EReal => t * Ideal.ofBits .f32 0x3F7F485A#32) (raw_score_apply v150 v151 r s)

theorem k3_pay2_apply (v150 : FVec Ideal S512x128 .bf16) (v151 v153 : Vec Ideal S1x512x128 .bf16)
    (v160 : Vec Ideal S1x512x128 .f32) :
    k3_pay2 (F := Ideal) v150 v151 v153 v160 (ix3 u r d)
      = v160 (ix3 (0 : Fin 1) r d)
        + ∑ j : Fin 512, k3_pay1 (F := Ideal) v150 v151 (ix2 r j) * v153 (ix3 (0 : Fin 1) j d) := by
  unfold k3_pay2
  exact acc_cast_apply (k3_pay1 (F := Ideal) v150 v151) v153 v160 u r d

/-- The mean block: the running sum plus the last head's scores, times an eighth. -/
theorem k3_pay3_apply (v140 : FVec Ideal S512x512 .f32) (v150 : FVec Ideal S512x128 .bf16) (v151 : Vec Ideal S1x512x128 .bf16)
    (i : S512x512.Idx) :
    k3_pay3 (F := Ideal) v140 v150 v151 i
      = (v140 i + k3_pay1 (F := Ideal) v150 v151 i) * Ideal.ofBits .f32 0x3E000000#32 := by
  unfold k3_pay3; rfl

end Payloads

end Cert.KernelIdeal.Hand
-- ==== Proof.KI.Attn.ValBlock.lean ====
import proofs.«152551_j88132728914059_1_alg».proof.Proof.KI.Attn.ValCases
import proofs.«152551_j88132728914059_1_alg».proof.Proof.KI.Attn.PayAt

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

/-! # The body's arithmetic on one point's blocks, at the extended reals

`x0, x1, x2` are the q, k, v blocks [8,512,128] of the point, `x3, x4, x5` its three bias blocks [512,512]. -/

/-- A load of a whole [512,512] block reads the block. -/
theorem ld_whole2 {Val : EltTy → Type} {e : EltTy} (X : S512x512.Idx → Val e) (inb) :
    View.ld X (Rect.unit (s := S512x512) ![0, 0] ![512, 512] inb) = X :=
  View.ld_unit_zero (S := S512x512) hz2 inb X

/-- The same at an index. -/
theorem ld_whole2_apply {Val : EltTy → Type} {e : EltTy} (X : S512x512.Idx → Val e) (inb) (y : S512x512.Idx) :
    View.ld X (Rect.unit (s := S512x512) ![0, 0] ![512, 512] inb) y = X y :=
  congrFun (ld_whole2 X inb) y

/-- Head `h`'s biased, scaled score of query row `r` against key row `s` of the point's blocks: heads 0,1 add the
    first bias, heads 2,3 the second, heads 4,5 the third, heads 6,7 none. -/
def scoreBlk (x0 x1 : Vec Ideal S8x512x128 .bf16) (x3 x4 x5 : Vec Ideal S512x512 .f32) (h : Fin 8) (r s : Fin 512) : EReal :=
  if h.val < 2 then ((∑ e : Fin 128, x0 (ix3 h r e) * x1 (ix3 h s e)) + x3 (ix2 r s)) * Ideal.ofBits .f32 0x3F7F485A#32
  else if h.val < 4 then ((∑ e : Fin 128, x0 (ix3 h r e) * x1 (ix3 h s e)) + x4 (ix2 r s)) * Ideal.ofBits .f32 0x3F7F485A#32
  else if h.val < 6 then ((∑ e : Fin 128, x0 (ix3 h r e) * x1 (ix3 h s e)) + x5 (ix2 r s)) * Ideal.ofBits .f32 0x3F7F485A#32
  else (∑ e : Fin 128, x0 (ix3 h r e) * x1 (ix3 h s e)) * Ideal.ofBits .f32 0x3F7F485A#32

set_option maxHeartbeats 1000000 in
/-- Head `h`'s slab after the body: its slab before plus, for each of the 512 keys of the block, the score times the
    value row. -/
theorem slabPay_apply (x0 x1 x2 : Vec Ideal S8x512x128 .bf16) (x3 x4 x5 : Vec Ideal S512x512 .f32) (h : Fin 8)
    (Z : Vec Ideal S1x512x128 .f32) (r : Fin 512) (d : Fin 128) :
    slabPay (F := Ideal) x0 x1 x2 x3 x4 x5 h Z (ix3 (0 : Fin 1) r d)
      = Z (ix3 (0 : Fin 1) r d) + ∑ j : Fin 512, scoreBlk x0 x1 x3 x4 x5 h r j * x2 (ix3 h j d) := by
  fin_cases h
  · show k3_pay11 (F := Ideal) _ _ _ _ Z (ix3 (0 : Fin 1) r d) = _
    rw [k3_pay11_apply]
    refine congrArg (Z (ix3 (0 : Fin 1) r d) + ·) (Finset.sum_congr rfl fun j _ => ?_)
    rw [k3_pay9_apply]
    simp only [ld_slab x0 0 (by decide) inb_S8x512x128_S1x512x128_0_0_0, ld_slab x1 0 (by decide) inb_S8x512x128_S1x512x128_0_0_0, ld_slab x2 0 (by decide) inb_S8x512x128_S1x512x128_0_0_0, ld_whole2_apply x3, ld_whole2_apply x4, ld_whole2_apply x5]
    unfold scoreBlk
    rfl
  · show k3_pay14 (F := Ideal) _ _ _ _ Z (ix3 (0 : Fin 1) r d) = _
    rw [k3_pay14_apply]
    refine congrArg (Z (ix3 (0 : Fin 1) r d) + ·) (Finset.sum_congr rfl fun j _ => ?_)
    rw [k3_pay12_apply, k3_pay6_eq]
    simp only [ld_slab x0 1 (by decide) inb_S8x512x128_S1x512x128_1_0_0, ld_slab x1 1 (by decide) inb_S8x512x128_S1x512x128_1_0_0, ld_slab x2 1 (by decide) inb_S8x512x128_S1x512x128_1_0_0, ld_whole2_apply x3, ld_whole2_apply x4, ld_whole2_apply x5]
    unfold scoreBlk
    rfl
  · show k3_pay18 (F := Ideal) _ _ _ Z (ix3 (0 : Fin 1) r d) = _
    rw [k3_pay18_apply]
    refine congrArg (Z (ix3 (0 : Fin 1) r d) + ·) (Finset.sum_congr rfl fun j _ => ?_)
    rw [k3_pay17_apply, k3_pay16_apply, k3_pay7_eq, k3_pay15_apply]
    simp only [ld_slab x0 2 (by decide) inb_S8x512x128_S1x512x128_2_0_0, ld_slab x1 2 (by decide) inb_S8x512x128_S1x512x128_2_0_0, ld_slab x2 2 (by decide) inb_S8x512x128_S1x512x128_2_0_0, ld_whole2_apply x3, ld_whole2_apply x4, ld_whole2_apply x5]
    unfold scoreBlk
    rfl
  · show k3_pay21 (F := Ideal) _ _ _ _ Z (ix3 (0 : Fin 1) r d) = _
    rw [k3_pay21_apply]
    refine congrArg (Z (ix3 (0 : Fin 1) r d) + ·) (Finset.sum_congr rfl fun j _ => ?_)
    rw [k3_pay19_apply, k3_pay7_eq]
    simp only [ld_slab x0 3 (by decide) inb_S8x512x128_S1x512x128_3_0_0, ld_slab x1 3 (by decide) inb_S8x512x128_S1x512x128_3_0_0, ld_slab x2 3 (by decide) inb_S8x512x128_S1x512x128_3_0_0, ld_whole2_apply x3, ld_whole2_apply x4, ld_whole2_apply x5]
    unfold scoreBlk
    rfl
  · show k3_pay23 (F := Ideal) _ _ _ _ Z (ix3 (0 : Fin 1) r d) = _
    rw [k3_pay23_apply]
    refine congrArg (Z (ix3 (0 : Fin 1) r d) + ·) (Finset.sum_congr rfl fun j _ => ?_)
    rw [k3_pay22_apply, k3_pay8_eq]
    simp only [ld_slab x0 4 (by decide) inb_S8x512x128_S1x512x128_4_0_0, ld_slab x1 4 (by decide) inb_S8x512x128_S1x512x128_4_0_0, ld_slab x2 4 (by decide) inb_S8x512x128_S1x512x128_4_0_0, ld_whole2_apply x3, ld_whole2_apply x4, ld_whole2_apply x5]
    unfold scoreBlk
    rfl
  · show k3_pay27 (F := Ideal) _ _ Z (ix3 (0 : Fin 1) r d) = _
    rw [k3_pay27_apply]
    refine congrArg (Z (ix3 (0 : Fin 1) r d) + ·) (Finset.sum_congr rfl fun j _ => ?_)
    rw [k3_pay25_apply, k3_pay8_eq, k3_pay24_apply]
    simp only [ld_slab x0 5 (by decide) inb_S8x512x128_S1x512x128_5_0_0, ld_slab x1 5 (by decide) inb_S8x512x128_S1x512x128_5_0_0, ld_slab x2 5 (by decide) inb_S8x512x128_S1x512x128_5_0_0, ld_whole2_apply x3, ld_whole2_apply x4, ld_whole2_apply x5]
    unfold scoreBlk
    rfl
  · show k3_pay30 (F := Ideal) _ _ _ Z (ix3 (0 : Fin 1) r d) = _
    rw [k3_pay30_apply]
    refine congrArg (Z (ix3 (0 : Fin 1) r d) + ·) (Finset.sum_congr rfl fun j _ => ?_)
    rw [k3_pay28_apply]
    simp only [ld_slab x0 6 (by decide) inb_S8x512x128_S1x512x128_6_0_0, ld_slab x1 6 (by decide) inb_S8x512x128_S1x512x128_6_0_0, ld_slab x2 6 (by decide) inb_S8x512x128_S1x512x128_6_0_0, ld_whole2_apply x3, ld_whole2_apply x4, ld_whole2_apply x5]
    unfold scoreBlk
    rfl
  · show k3_pay2 (F := Ideal) _ _ _ Z (ix3 (0 : Fin 1) r d) = _
    rw [k3_pay2_apply]
    refine congrArg (Z (ix3 (0 : Fin 1) r d) + ·) (Finset.sum_congr rfl fun j _ => ?_)
    rw [k3_pay1_apply]
    simp only [k3_pay31_apply, ld_slab x0 7 (by decide) inb_S8x512x128_S1x512x128_7_0_0, ld_slab x1 7 (by decide) inb_S8x512x128_S1x512x128_7_0_0, ld_slab x2 7 (by decide) inb_S8x512x128_S1x512x128_7_0_0, ld_whole2_apply x3, ld_whole2_apply x4, ld_whole2_apply x5]
    unfold scoreBlk
    rfl

end Cert.KernelIdeal.Hand

end
-- ==== Proof.KI.Attn.Blocks3.lean ====
/-
  Region 3's blocks as pieces of its arrays. The grid is 8 x 8: point t works on the query rows of block t / 8 and
  the key rows of block t % 8. A block of 512 rows sits in its 4096-row array at rows 512 · (block number) + (row in
  the block); the head axis and the width axis are whole. So an entry of a window's block at a point is the entry of
  the window's array at the block's rows; an input window's array is never written back.
-/
import proofs.«152551_j88132728914059_1_alg».proof.Proof.KI.Attn.Region3
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## Rows of a point -/

/-- Row `r` of point `t`'s query block, as a row of the 4096: block `t / 8`. -/
def qRow (t : Fin cfg3.N) (r : Fin 512) : Fin 4096 :=
  ⟨512 * (t.val / 8) + r.val, by have h1 := t.isLt; have hN : cfg3.N = 64 := N_3; have h2 := r.isLt; omega⟩
/-- Row `s` of point `t`'s key block, as a row of the 4096: block `t % 8`. -/
def kRow (t : Fin cfg3.N) (s : Fin 512) : Fin 4096 :=
  ⟨512 * (t.val % 8) + s.val, by have h2 := s.isLt; omega⟩

theorem qRow_val (t : Fin cfg3.N) (r : Fin 512) : (qRow t r).val = 512 * (t.val / 8) + r.val := rfl
theorem kRow_val (t : Fin cfg3.N) (s : Fin 512) : (kRow t s).val = 512 * (t.val % 8) + s.val := rfl

/-! ## The index maps over the 64 points -/

/-- Point `t` is query block `t / 8` against key block `t % 8`: the query-side windows (0, and the result 6) sit on
    rows block `t / 8`, the key-side windows (1, 2) on rows block `t % 8`, the score-shaped windows (3, 4, 5, and the
    result 7) on the pair; head and width axes are whole. Decided over the grid. -/
theorem idx_facts3 : ∀ t : Fin cfg3.N,
    (win3_0.index t (0 : Fin 3) = 0 ∧ win3_0.index t (1 : Fin 3) = t.val / 8 ∧ win3_0.index t (2 : Fin 3) = 0)
    ∧ (win3_1.index t (0 : Fin 3) = 0 ∧ win3_1.index t (1 : Fin 3) = t.val % 8 ∧ win3_1.index t (2 : Fin 3) = 0)
    ∧ (win3_2.index t (0 : Fin 3) = 0 ∧ win3_2.index t (1 : Fin 3) = t.val % 8 ∧ win3_2.index t (2 : Fin 3) = 0)
    ∧ (win3_3.index t (0 : Fin 2) = t.val / 8 ∧ win3_3.index t (1 : Fin 2) = t.val % 8)
    ∧ (win3_4.index t (0 : Fin 2) = t.val / 8 ∧ win3_4.index t (1 : Fin 2) = t.val % 8)
    ∧ (win3_5.index t (0 : Fin 2) = t.val / 8 ∧ win3_5.index t (1 : Fin 2) = t.val % 8)
    ∧ (win3_6.index t (0 : Fin 3) = 0 ∧ win3_6.index t (1 : Fin 3) = t.val / 8 ∧ win3_6.index t (2 : Fin 3) = 0)
    ∧ (win3_7.index t (0 : Fin 2) = t.val / 8 ∧ win3_7.index t (1 : Fin 2) = t.val % 8) :=
  (by decide +kernel : ∀ t : Fin grid3.N, _)

/-! ## A block's entry in its array -/

section Emb
variable (t : Fin cfg3.N)

/-- Window 0: block entry (h, r, d) is array entry (h, 512 · (t / 8) + r, d). -/
theorem emb3_0 (h : Fin 8) (r : Fin 512) (d : Fin 128) :
    ((cfg3.win 0).blk t).view.emb (ix3 (n0 := 8) (n1 := 512) (n2 := 128) h r d) = ix3 (n0 := 8) (n1 := 4096) (n2 := 128) h (qRow t r) d := by
  obtain ⟨⟨e0, e1, e2⟩, -⟩ := idx_facts3 t
  funext a; apply Fin.ext
  match a with
  | ⟨0, _⟩ => show win3_0.index t (0 : Fin 3) * 8 + 1 * h.val = h.val; omega
  | ⟨1, _⟩ => show win3_0.index t (1 : Fin 3) * 512 + 1 * r.val = 512 * (t.val / 8) + r.val; omega
  | ⟨2, _⟩ => show win3_0.index t (2 : Fin 3) * 128 + 1 * d.val = d.val; omega
/-- Window 6: block entry (h, r, d) is array entry (h, 512 · (t / 8) + r, d). -/
theorem emb3_6 (h : Fin 8) (r : Fin 512) (d : Fin 128) :
    ((cfg3.win 6).blk t).view.emb (ix3 (n0 := 8) (n1 := 512) (n2 := 128) h r d) = ix3 (n0 := 8) (n1 := 4096) (n2 := 128) h (qRow t r) d := by
  obtain ⟨⟨e0, e1, e2⟩, -⟩ := (idx_facts3 t).2.2.2.2.2.2
  funext a; apply Fin.ext
  match a with
  | ⟨0, _⟩ => show win3_6.index t (0 : Fin 3) * 8 + 1 * h.val = h.val; omega
  | ⟨1, _⟩ => show win3_6.index t (1 : Fin 3) * 512 + 1 * r.val = 512 * (t.val / 8) + r.val; omega
  | ⟨2, _⟩ => show win3_6.index t (2 : Fin 3) * 128 + 1 * d.val = d.val; omega
/-- Window 1: block entry (h, s, d) is array entry (h, 512 · (t % 8) + s, d). -/
theorem emb3_1 (h : Fin 8) (s : Fin 512) (d : Fin 128) :
    ((cfg3.win 1).blk t).view.emb (ix3 (n0 := 8) (n1 := 512) (n2 := 128) h s d) = ix3 (n0 := 8) (n1 := 4096) (n2 := 128) h (kRow t s) d := by
  obtain ⟨⟨e0, e1, e2⟩, -⟩ := (idx_facts3 t).2
  funext a; apply Fin.ext
  match a with
  | ⟨0, _⟩ => show win3_1.index t (0 : Fin 3) * 8 + 1 * h.val = h.val; omega
  | ⟨1, _⟩ => show win3_1.index t (1 : Fin 3) * 512 + 1 * s.val = 512 * (t.val % 8) + s.val; omega
  | ⟨2, _⟩ => show win3_1.index t (2 : Fin 3) * 128 + 1 * d.val = d.val; omega
/-- Window 2: block entry (h, s, d) is array entry (h, 512 · (t % 8) + s, d). -/
theorem emb3_2 (h : Fin 8) (s : Fin 512) (d : Fin 128) :
    ((cfg3.win 2).blk t).view.emb (ix3 (n0 := 8) (n1 := 512) (n2 := 128) h s d) = ix3 (n0 := 8) (n1 := 4096) (n2 := 128) h (kRow t s) d := by
  obtain ⟨⟨e0, e1, e2⟩, -⟩ := (idx_facts3 t).2.2
  funext a; apply Fin.ext
  match a with
  | ⟨0, _⟩ => show win3_2.index t (0 : Fin 3) * 8 + 1 * h.val = h.val; omega
  | ⟨1, _⟩ => show win3_2.index t (1 : Fin 3) * 512 + 1 * s.val = 512 * (t.val % 8) + s.val; omega
  | ⟨2, _⟩ => show win3_2.index t (2 : Fin 3) * 128 + 1 * d.val = d.val; omega
/-- Window 3: block entry (r, s) is array entry (512 · (t / 8) + r, 512 · (t % 8) + s). -/
theorem emb3_3 (r s : Fin 512) :
    ((cfg3.win 3).blk t).view.emb (ix2 (n0 := 512) (n1 := 512) r s) = ix2 (n0 := 4096) (n1 := 4096) (qRow t r) (kRow t s) := by
  obtain ⟨e0, e1⟩ := (idx_facts3 t).2.2.2.1
  funext a; apply Fin.ext
  match a with
  | ⟨0, _⟩ => show win3_3.index t (0 : Fin 2) * 512 + 1 * r.val = 512 * (t.val / 8) + r.val; omega
  | ⟨1, _⟩ => show win3_3.index t (1 : Fin 2) * 512 + 1 * s.val = 512 * (t.val % 8) + s.val; omega
/-- Window 4: block entry (r, s) is array entry (512 · (t / 8) + r, 512 · (t % 8) + s). -/
theorem emb3_4 (r s : Fin 512) :
    ((cfg3.win 4).blk t).view.emb (ix2 (n0 := 512) (n1 := 512) r s) = ix2 (n0 := 4096) (n1 := 4096) (qRow t r) (kRow t s) := by
  obtain ⟨e0, e1⟩ := (idx_facts3 t).2.2.2.2.1
  funext a; apply Fin.ext
  match a with
  | ⟨0, _⟩ => show win3_4.index t (0 : Fin 2) * 512 + 1 * r.val = 512 * (t.val / 8) + r.val; omega
  | ⟨1, _⟩ => show win3_4.index t (1 : Fin 2) * 512 + 1 * s.val = 512 * (t.val % 8) + s.val; omega
/-- Window 5: block entry (r, s) is array entry (512 · (t / 8) + r, 512 · (t % 8) + s). -/
theorem emb3_5 (r s : Fin 512) :
    ((cfg3.win 5).blk t).view.emb (ix2 (n0 := 512) (n1 := 512) r s) = ix2 (n0 := 4096) (n1 := 4096) (qRow t r) (kRow t s) := by
  obtain ⟨e0, e1⟩ := (idx_facts3 t).2.2.2.2.2.1
  funext a; apply Fin.ext
  match a with
  | ⟨0, _⟩ => show win3_5.index t (0 : Fin 2) * 512 + 1 * r.val = 512 * (t.val / 8) + r.val; omega
  | ⟨1, _⟩ => show win3_5.index t (1 : Fin 2) * 512 + 1 * s.val = 512 * (t.val % 8) + s.val; omega
/-- Window 7: block entry (r, s) is array entry (512 · (t / 8) + r, 512 · (t % 8) + s). -/
theorem emb3_7 (r s : Fin 512) :
    ((cfg3.win 7).blk t).view.emb (ix2 (n0 := 512) (n1 := 512) r s) = ix2 (n0 := 4096) (n1 := 4096) (qRow t r) (kRow t s) := by
  obtain ⟨e0, e1⟩ := (idx_facts3 t).2.2.2.2.2.2.2
  funext a; apply Fin.ext
  match a with
  | ⟨0, _⟩ => show win3_7.index t (0 : Fin 2) * 512 + 1 * r.val = 512 * (t.val / 8) + r.val; omega
  | ⟨1, _⟩ => show win3_7.index t (1 : Fin 2) * 512 + 1 * s.val = 512 * (t.val % 8) + s.val; omega

end Emb

/-! ## An input block's entry is its array's entry -/

section Blocks
variable {F : FTy → Type} [FloatOps F]
variable (V : (c : Dev nD) → (b : Ref sig .tc) → Buf (Elt F) ((c : Thread nD τ).loc b))
variable (c : Dev nD) (t : Fin cfg3.N)

/-- The query block at `t`: rows 512 · (t / 8) … of the query array. -/
theorem iblk3_0_apply (h : Fin 8) (r : Fin 512) (e : Fin 128) :
    (iblk3 V c 0 t : Vec F S8x512x128 .bf16) (ix3 h r e) = V c main_v9 (ix3 (n0 := 8) (n1 := 4096) (n2 := 128) h (qRow t r) e) :=
  congrArg (V c main_v9) (emb3_0 t h r e)
/-- The key block at `t`: rows 512 · (t % 8) … of the key array. -/
theorem iblk3_1_apply (h : Fin 8) (s : Fin 512) (e : Fin 128) :
    (iblk3 V c 1 t : Vec F S8x512x128 .bf16) (ix3 h s e) = V c main_v12 (ix3 (n0 := 8) (n1 := 4096) (n2 := 128) h (kRow t s) e) :=
  congrArg (V c main_v12) (emb3_1 t h s e)
/-- The value block at `t`: the same rows of the value array. -/
theorem iblk3_2_apply (h : Fin 8) (s : Fin 512) (e : Fin 128) :
    (iblk3 V c 2 t : Vec F S8x512x128 .bf16) (ix3 h s e) = V c main_v15 (ix3 (n0 := 8) (n1 := 4096) (n2 := 128) h (kRow t s) e) :=
  congrArg (V c main_v15) (emb3_2 t h s e)
/-- The three bias blocks at `t`: query rows block t / 8 against key rows block t % 8 of each bias array. -/
theorem iblk3_3_apply (r s : Fin 512) :
    (iblk3 V c 3 t : Vec F S512x512 .f32) (ix2 r s) = V c main_v17 (ix2 (n0 := 4096) (n1 := 4096) (qRow t r) (kRow t s)) :=
  congrArg (V c main_v17) (emb3_3 t r s)
theorem iblk3_4_apply (r s : Fin 512) :
    (iblk3 V c 4 t : Vec F S512x512 .f32) (ix2 r s) = V c main_v30 (ix2 (n0 := 4096) (n1 := 4096) (qRow t r) (kRow t s)) :=
  congrArg (V c main_v30) (emb3_4 t r s)
theorem iblk3_5_apply (r s : Fin 512) :
    (iblk3 V c 5 t : Vec F S512x512 .f32) (ix2 r s) = V c main_v43 (ix2 (n0 := 4096) (n1 := 4096) (qRow t r) (kRow t s)) :=
  congrArg (V c main_v43) (emb3_5 t r s)

/-! ## The input arrays are kept -/

theorem kept3_0 : (dat3 V c).arrAt 0 cfg3.N = V c main_v9 :=
  ((dat3 V c).arrAt_in 0 rfl _).trans (A_eq3 V c 0)
theorem kept3_1 : (dat3 V c).arrAt 1 cfg3.N = V c main_v12 :=
  ((dat3 V c).arrAt_in 1 rfl _).trans (A_eq3 V c 1)
theorem kept3_2 : (dat3 V c).arrAt 2 cfg3.N = V c main_v15 :=
  ((dat3 V c).arrAt_in 2 rfl _).trans (A_eq3 V c 2)
theorem kept3_3 : (dat3 V c).arrAt 3 cfg3.N = V c main_v17 :=
  ((dat3 V c).arrAt_in 3 rfl _).trans (A_eq3 V c 3)
theorem kept3_4 : (dat3 V c).arrAt 4 cfg3.N = V c main_v30 :=
  ((dat3 V c).arrAt_in 4 rfl _).trans (A_eq3 V c 4)
theorem kept3_5 : (dat3 V c).arrAt 5 cfg3.N = V c main_v43 :=
  ((dat3 V c).arrAt_in 5 rfl _).trans (A_eq3 V c 5)

end Blocks

end Cert.KernelIdeal.Hand

end
-- ==== Proof.KI.AttnSpec.lean ====
/-
  The retention-attention step as mathematics on the extended reals, with no program in sight. Heads h < 8, queries
  n and keys m below 4096, head width 128. A head's raw score is the inner product of the query's and the key's rows;
  heads 0,1 add the adjacency bias, heads 2,3 the distance bias, heads 4,5 the third bias, heads 6,7 none; every
  score is then multiplied by one scale. The mean output adds the eight heads' scores in order from zero and multiplies
  by an eighth. The retention output sums score × value over the keys — the kernel over eight blocks of 512 keys, block
  after block; a plain sum over all 4096 keys is the same number, since addition of extended reals is associative and
  commutative — and clamps below at zero.
-/
import Idealize.ShloMosaic.PureOps.Ideal
import Idealize.ShloMosaic.Lib.ValueIdx

noncomputable section

open scoped BigOperators

namespace AttnSpec

open Idealize.ShloMosaic Idealize.ShloMosaic.ValueIdx

abbrev Arr3 : Type := (⟨3, ![8, 4096, 128]⟩ : Shape).Idx → EReal
abbrev Arr2 : Type := (⟨2, ![4096, 4096]⟩ : Shape).Idx → EReal

/-- The one scale every score is multiplied by (its binary word, never evaluated). -/
def gam : EReal := Ideal.ofBits .f32 0x3F7F485A#32
/-- The factor of the mean over eight heads (the binary word of one eighth). -/
def eighth : EReal := Ideal.ofBits .f32 0x3E000000#32

/-- Key number `512·mi + j` of block `mi`. -/
def keyOf (mi : Fin 8) (j : Fin 512) : Fin 4096 := ⟨512 * mi.val + j.val, by have := mi.isLt; have := j.isLt; omega⟩

/-- Query row `n` against key row `m` in head `h`. -/
def qk (Q K : Arr3) (h : Fin 8) (n m : Fin 4096) : EReal := ∑ d : Fin 128, Q (ix3 h n d) * K (ix3 h m d)

/-- The biased, scaled score of head `h`. -/
def score (Q K : Arr3) (A D C : Arr2) (h : Fin 8) (n m : Fin 4096) : EReal :=
  if h.val < 2 then (qk Q K h n m + A (ix2 n m)) * gam
  else if h.val < 4 then (qk Q K h n m + D (ix2 n m)) * gam
  else if h.val < 6 then (qk Q K h n m + C (ix2 n m)) * gam
  else qk Q K h n m * gam

/-- The mean output at (n, m): the eight heads' scores added in order from zero, times an eighth. -/
def meanAt (Q K : Arr3) (A D C : Arr2) (n m : Fin 4096) : EReal :=
  ((((((((0 + score Q K A D C 0 n m) + score Q K A D C 1 n m) + score Q K A D C 2 n m) + score Q K A D C 3 n m)
    + score Q K A D C 4 n m) + score Q K A D C 5 n m) + score Q K A D C 6 n m) + score Q K A D C 7 n m) * eighth

/-- One block's contribution to the retention sum. -/
def blockTerm (Q K Vv : Arr3) (A D C : Arr2) (h : Fin 8) (n : Fin 4096) (d : Fin 128) (mi : Fin 8) : EReal :=
  ∑ j : Fin 512, score Q K A D C h n (keyOf mi j) * Vv (ix3 h (keyOf mi j) d)

/-- The retention output at (h, n, d), block by block. -/
def retAt (Q K Vv : Arr3) (A D C : Arr2) (h : Fin 8) (n : Fin 4096) (d : Fin 128) : EReal :=
  max (∑ mi : Fin 8, blockTerm Q K Vv A D C h n d mi) 0

/-- The same over all keys at once. -/
def retAtWhole (Q K Vv : Arr3) (A D C : Arr2) (h : Fin 8) (n : Fin 4096) (d : Fin 128) : EReal :=
  max (∑ m : Fin 4096, score Q K A D C h n m * Vv (ix3 h m d)) 0

/-- Keys are the pairs (block, place in the block). -/
def keyEquiv : Fin 8 × Fin 512 ≃ Fin 4096 where
  toFun p := keyOf p.1 p.2
  invFun m := (⟨m.val / 512, by have := m.isLt; omega⟩, ⟨m.val % 512, Nat.mod_lt _ (by decide)⟩)
  left_inv p := by
    obtain ⟨mi, j⟩ := p
    have := mi.isLt; have := j.isLt
    refine Prod.ext (Fin.ext ?_) (Fin.ext ?_)
    · show (512 * mi.val + j.val) / 512 = mi.val; omega
    · show (512 * mi.val + j.val) % 512 = j.val; omega
  right_inv m := by
    apply Fin.ext
    show 512 * (m.val / 512) + m.val % 512 = m.val
    omega

/-- A sum over the keys is the sum over the blocks of the sums inside each block. -/
theorem sum_keys (f : Fin 4096 → EReal) : ∑ m : Fin 4096, f m = ∑ mi : Fin 8, ∑ j : Fin 512, f (keyOf mi j) := by
  rw [← Equiv.sum_comp keyEquiv f, Fintype.sum_prod_type]
  rfl

theorem retAt_eq_whole (Q K Vv : Arr3) (A D C : Arr2) (h : Fin 8) (n : Fin 4096) (d : Fin 128) :
    retAt Q K Vv A D C h n d = retAtWhole Q K Vv A D C h n d := by
  unfold retAt retAtWhole blockTerm
  rw [sum_keys]

end AttnSpec

end
-- ==== Proof.KI.Attn.Final6.lean ====
/-
  From the retention result's blocks to its array, at the ideal values. The result window is written back at the
  last key block of each query block (the points t with t % 8 = 7), and the block written there is rows
  512 · (t / 8) … of the result array, all heads and the whole width. So if, at each such point, what the body leaves
  in the result buffer is the retention value at the block's rows, the array ends as the retention value everywhere:
  row n of the result is covered by the point 8 · (n / 512) + 7.
-/
import proofs.«152551_j88132728914059_1_alg».proof.Proof.KI.Attn.Blocks3
import proofs.«152551_j88132728914059_1_alg».proof.Proof.KI.AttnSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The retention value as a function of the result array's index, over the six operand arrays as the region finds
    them. -/
def retArr : S8x4096x128.Idx → EReal :=
  fun i => AttnSpec.retAt (V c main_v9) (V c main_v12) (V c main_v15) (V c main_v17) (V c main_v30) (V c main_v43) (i 0) (i 1) (i 2)

theorem retArr_ix3 (h : Fin 8) (n : Fin 4096) (d : Fin 128) :
    retArr V c (ix3 (n0 := 8) (n1 := 4096) (n2 := 128) h n d)
      = AttnSpec.retAt (V c main_v9) (V c main_v12) (V c main_v15) (V c main_v17) (V c main_v30) (V c main_v43) h n d := rfl

/-- An index of the result array is in point `t`'s block iff each coordinate is in the block's range on its axis. -/
theorem mem_blk3_6 (t : Fin cfg3.N) (i : S8x4096x128.Idx) :
    i ∈ ((cfg3.win 6).blk t).view.set ↔ ∀ a : Fin 3, win3_6.index t a * S8x512x128.size a ≤ (i a).val ∧ (i a).val < win3_6.index t a * S8x512x128.size a + S8x512x128.size a := by
  show i ∈ ((View.whole main_v44_0).slice (win3_6.rect t)).set ↔ _
  rw [View.set_slice_whole, Rect.mem_set_unit]
  exact Iff.rfl

/-- Every entry of the result array is in the block some writing point writes: row n in that of the point
    8 · (n / 512) + 7. -/
theorem cover3_6 (i : S8x4096x128.Idx) :
    ∃ t : Fin cfg3.N, (cfg3.win 6).flush t = true ∧ i ∈ ((cfg3.win 6).blk t).view.set := by
  have hi0 : (i 0).val < 8 := (i 0).isLt
  have hi1 : (i 1).val < 4096 := (i 1).isLt
  have hi2 : (i 2).val < 128 := (i 2).isLt
  have hN : cfg3.N = 64 := N_3
  have hlt : 8 * ((i 1).val / 512) + 7 < cfg3.N := by rw [hN]; omega
  refine ⟨⟨8 * ((i 1).val / 512) + 7, hlt⟩, (flush3_6 _).mpr (by show (8 * ((i 1).val / 512) + 7) % 8 = 7; omega), ?_⟩
  obtain ⟨e0, e1, e2⟩ := (idx_facts3 ⟨8 * ((i 1).val / 512) + 7, hlt⟩).2.2.2.2.2.2.1
  have e1' : win3_6.index ⟨8 * ((i 1).val / 512) + 7, hlt⟩ (1 : Fin 3) = (i 1).val / 512 := by
    rw [e1]; show (8 * ((i 1).val / 512) + 7) / 8 = (i 1).val / 512; omega
  rw [mem_blk3_6]
  intro a
  match a with
  | ⟨0, _⟩ => show win3_6.index _ (0 : Fin 3) * 8 ≤ (i 0).val ∧ (i 0).val < win3_6.index _ (0 : Fin 3) * 8 + 8; omega
  | ⟨1, _⟩ => show win3_6.index _ (1 : Fin 3) * 512 ≤ (i 1).val ∧ (i 1).val < win3_6.index _ (1 : Fin 3) * 512 + 512; omega
  | ⟨2, _⟩ => show win3_6.index _ (2 : Fin 3) * 128 ≤ (i 2).val ∧ (i 2).val < win3_6.index _ (2 : Fin 3) * 128 + 128; omega

/-- What a writing point writes back is its block of the retention value, given what the body leaves there. -/
theorem flushed3_6_eq
    (hret : ∀ (t : Fin cfg3.N), t.val % 8 = 7 → ∀ (h : Fin 8) (r : Fin 512) (d : Fin 128),
      ((dat3 (F := Ideal) V c).after 6 t : Vec Ideal S8x512x128 .f32) (ix3 h r d)
        = AttnSpec.retAt (V c main_v9) (V c main_v12) (V c main_v15) (V c main_v17) (V c main_v30) (V c main_v43) h (qRow t r) d)
    (t : Fin cfg3.N) (hf : (cfg3.win 6).flush t = true) :
    (dat3 (F := Ideal) V c).flushed 6 t = ((cfg3.win 6).blk t).view.read (Elt Ideal) (retArr V c) := by
  have h7 : t.val % 8 = 7 := (flush3_6 t).mp hf
  show (cfg3.win 6).cut (grid3.coords t) ((dat3 V c).after 6 t) = _
  funext j
  obtain ⟨h, r, d, rfl⟩ : ∃ (h : Fin 8) (r : Fin 512) (d : Fin 128), j = ix3 h r d := ⟨j 0, j 1, j 2, eq_ix3 j⟩
  show ((dat3 (F := Ideal) V c).after 6 t : Vec Ideal S8x512x128 .f32) (ix3 h r d) = retArr V c (((cfg3.win 6).blk t).view.emb (ix3 h r d))
  rw [emb3_6 t h r d, retArr_ix3]
  exact hret t h7 h r d

/-- The result array after the region is the retention value, entry by entry, given what the body leaves in the
    result buffer at the writing points. -/
theorem final3_6_of
    (hret : ∀ (t : Fin cfg3.N), t.val % 8 = 7 → ∀ (h : Fin 8) (r : Fin 512) (d : Fin 128),
      ((dat3 (F := Ideal) V c).after 6 t : Vec Ideal S8x512x128 .f32) (ix3 h r d)
        = AttnSpec.retAt (V c main_v9) (V c main_v12) (V c main_v15) (V c main_v17) (V c main_v30) (V c main_v43) h (qRow t r) d) :
    (dat3 (F := Ideal) V c).arrAt 6 cfg3.N
      = fun i => AttnSpec.retAt (V c main_v9) (V c main_v12) (V c main_v15) (V c main_v17) (V c main_v30) (V c main_v43) (i 0) (i 1) (i 2) :=
  (dat3 V c).arrAt_eq_of_cover 6 (retArr V c) (fun t hf => flushed3_6_eq V c hret t hf) (cover3_6)

end Cert.KernelIdeal.Hand

end
-- ==== Proof.KI.Attn.Val3.lean ====
import proofs.«152551_j88132728914059_1_alg».proof.Proof.KI.Attn.ValBlock
import proofs.«152551_j88132728914059_1_alg».proof.Proof.KI.Attn.Final6

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

/-! # The accumulator, point by point, at the extended reals

At point `t = 8·ni + mi` the body adds, to entry (h, r, d) of the accumulator, the sum over the 512 keys of the
point's key block of (score × value); at `mi = 0` it first sets the accumulator to zero. -/

variable (V : (c : Dev nD) → (b : Ref sig .tc) → Buf (Elt Ideal) ((c : Thread nD τ).loc b)) (c : Dev nD)

/-- What point `t` adds to entry (h, r, d) of the accumulator, over the point's blocks. -/
def bsum (t : Fin cfg3.N) (h : Fin 8) (r : Fin 512) (d : Fin 128) : EReal :=
  ∑ j : Fin 512, scoreBlk (iblk3 V c 0 t) (iblk3 V c 1 t) (iblk3 V c 3 t) (iblk3 V c 4 t) (iblk3 V c 5 t) h r j
    * (iblk3 V c 2 t : Vec Ideal S8x512x128 .bf16) (ix3 h j d)

/-- The accumulator after position `n`: zero plus the point's sum when `n` starts a row of points, else what the
    position before left plus the point's sum. -/
def accSpec : (n : ℕ) → n < cfg3.N → Fin 8 → Fin 512 → Fin 128 → EReal
  | 0, hn => fun h r d => 0 + bsum V c ⟨0, hn⟩ h r d
  | n + 1, hn => fun h r d =>
      if (n + 1) % 8 = 0 then 0 + bsum V c ⟨n + 1, hn⟩ h r d
      else accSpec n (Nat.lt_of_succ_lt hn) h r d + bsum V c ⟨n + 1, hn⟩ h r d

set_option maxHeartbeats 2000000 in
/-- What the frame's data say the accumulator holds after position `n` is `accSpec`, by induction on the position. -/
theorem acc_eq : ∀ (n : ℕ) (hn : n < cfg3.N) (h : Fin 8) (r : Fin 512) (d : Fin 128),
    ((outsAt3 V c n hn).2.2 : Vec Ideal S8x512x128 .f32) (ix3 h r d) = accSpec V c n hn h r d
  | 0, hn, h, r, d => by
    have h0 : (⟨0, hn⟩ : Fin cfg3.N).val % 8 = 0 := rfl
    have h1 : ¬(⟨0, hn⟩ : Fin cfg3.N).val % 8 = 7 := by show ¬(0 : ℕ) % 8 = 7; decide
    have e := outsAt3_A V c (⟨0, hn⟩ : Fin cfg3.N) h0 h1
    rw [show outsAt3 V c 0 hn = outsAt3 V c (⟨0, hn⟩ : Fin cfg3.N).val (⟨0, hn⟩ : Fin cfg3.N).isLt from rfl, e]
    dsimp only
    obtain ⟨Z, hZ, e2⟩ := sout3_A_apply c (grid3.coords (⟨0, hn⟩ : Fin cfg3.N)) (ms3_0 (⟨0, hn⟩ : Fin cfg3.N)) (hs3_0 (⟨0, hn⟩ : Fin cfg3.N)) (ms3_1 (⟨0, hn⟩ : Fin cfg3.N)) (hs3_1 (⟨0, hn⟩ : Fin cfg3.N)) (ms3_2 (⟨0, hn⟩ : Fin cfg3.N)) (hs3_2 (⟨0, hn⟩ : Fin cfg3.N)) (ms3_3 (⟨0, hn⟩ : Fin cfg3.N)) (hs3_3 (⟨0, hn⟩ : Fin cfg3.N)) (ms3_4 (⟨0, hn⟩ : Fin cfg3.N)) (hs3_4 (⟨0, hn⟩ : Fin cfg3.N)) (ms3_5 (⟨0, hn⟩ : Fin cfg3.N)) (hs3_5 (⟨0, hn⟩ : Fin cfg3.N)) (ms3_6 (⟨0, hn⟩ : Fin cfg3.N)) (hs3_6 (⟨0, hn⟩ : Fin cfg3.N)) (ms3_7 (⟨0, hn⟩ : Fin cfg3.N)) (hs3_7 (⟨0, hn⟩ : Fin cfg3.N)) scM3_0 (Memref.isWhole_whole _) ((hcond3_0 (⟨0, hn⟩ : Fin cfg3.N)).mpr h0) (fun h => h1 ((hcond3_1 (⟨0, hn⟩ : Fin cfg3.N)).mp h)) (iblk3 V c 0 (⟨0, hn⟩ : Fin cfg3.N)) (iblk3 V c 1 (⟨0, hn⟩ : Fin cfg3.N)) (iblk3 V c 2 (⟨0, hn⟩ : Fin cfg3.N)) (iblk3 V c 3 (⟨0, hn⟩ : Fin cfg3.N)) (iblk3 V c 4 (⟨0, hn⟩ : Fin cfg3.N)) (iblk3 V c 5 (⟨0, hn⟩ : Fin cfg3.N)) h r d
    rw [e2, slabPay_apply, hZ, k3_pay5_apply]
    rfl
  | n + 1, hn, h, r, d => by
    by_cases h0 : (⟨n + 1, hn⟩ : Fin cfg3.N).val % 8 = 0
    · have h1 : ¬(⟨n + 1, hn⟩ : Fin cfg3.N).val % 8 = 7 := by dsimp only at h0 ⊢; omega
      rw [show outsAt3 V c (n + 1) hn = outsAt3 V c (⟨n + 1, hn⟩ : Fin cfg3.N).val (⟨n + 1, hn⟩ : Fin cfg3.N).isLt from rfl, outsAt3_A V c (⟨n + 1, hn⟩ : Fin cfg3.N) h0 h1]
      dsimp only
      obtain ⟨Z, hZ, e2⟩ := sout3_A_apply c (grid3.coords (⟨n + 1, hn⟩ : Fin cfg3.N)) (ms3_0 (⟨n + 1, hn⟩ : Fin cfg3.N)) (hs3_0 (⟨n + 1, hn⟩ : Fin cfg3.N)) (ms3_1 (⟨n + 1, hn⟩ : Fin cfg3.N)) (hs3_1 (⟨n + 1, hn⟩ : Fin cfg3.N)) (ms3_2 (⟨n + 1, hn⟩ : Fin cfg3.N)) (hs3_2 (⟨n + 1, hn⟩ : Fin cfg3.N)) (ms3_3 (⟨n + 1, hn⟩ : Fin cfg3.N)) (hs3_3 (⟨n + 1, hn⟩ : Fin cfg3.N)) (ms3_4 (⟨n + 1, hn⟩ : Fin cfg3.N)) (hs3_4 (⟨n + 1, hn⟩ : Fin cfg3.N)) (ms3_5 (⟨n + 1, hn⟩ : Fin cfg3.N)) (hs3_5 (⟨n + 1, hn⟩ : Fin cfg3.N)) (ms3_6 (⟨n + 1, hn⟩ : Fin cfg3.N)) (hs3_6 (⟨n + 1, hn⟩ : Fin cfg3.N)) (ms3_7 (⟨n + 1, hn⟩ : Fin cfg3.N)) (hs3_7 (⟨n + 1, hn⟩ : Fin cfg3.N)) scM3_0 (Memref.isWhole_whole _) ((hcond3_0 (⟨n + 1, hn⟩ : Fin cfg3.N)).mpr h0) (fun h => h1 ((hcond3_1 (⟨n + 1, hn⟩ : Fin cfg3.N)).mp h)) (iblk3 V c 0 (⟨n + 1, hn⟩ : Fin cfg3.N)) (iblk3 V c 1 (⟨n + 1, hn⟩ : Fin cfg3.N)) (iblk3 V c 2 (⟨n + 1, hn⟩ : Fin cfg3.N)) (iblk3 V c 3 (⟨n + 1, hn⟩ : Fin cfg3.N)) (iblk3 V c 4 (⟨n + 1, hn⟩ : Fin cfg3.N)) (iblk3 V c 5 (⟨n + 1, hn⟩ : Fin cfg3.N)) h r d
      rw [e2, slabPay_apply, hZ, k3_pay5_apply]
      show _ = (if (n + 1) % 8 = 0 then _ else _)
      rw [if_pos h0]
      rfl
    · have ih := acc_eq n (Nat.lt_of_succ_lt hn) h r d
      by_cases h1 : (⟨n + 1, hn⟩ : Fin cfg3.N).val % 8 = 7
      · rw [show outsAt3 V c (n + 1) hn = outsAt3 V c (⟨n + 1, hn⟩ : Fin cfg3.N).val (⟨n + 1, hn⟩ : Fin cfg3.N).isLt from rfl, outsAt3_C V c (⟨n + 1, hn⟩ : Fin cfg3.N) h0 h1]
        dsimp only
        obtain ⟨Z, hZ, e2⟩ := sout3_C_apply c (grid3.coords (⟨n + 1, hn⟩ : Fin cfg3.N)) (ms3_0 (⟨n + 1, hn⟩ : Fin cfg3.N)) (hs3_0 (⟨n + 1, hn⟩ : Fin cfg3.N)) (ms3_1 (⟨n + 1, hn⟩ : Fin cfg3.N)) (hs3_1 (⟨n + 1, hn⟩ : Fin cfg3.N)) (ms3_2 (⟨n + 1, hn⟩ : Fin cfg3.N)) (hs3_2 (⟨n + 1, hn⟩ : Fin cfg3.N)) (ms3_3 (⟨n + 1, hn⟩ : Fin cfg3.N)) (hs3_3 (⟨n + 1, hn⟩ : Fin cfg3.N)) (ms3_4 (⟨n + 1, hn⟩ : Fin cfg3.N)) (hs3_4 (⟨n + 1, hn⟩ : Fin cfg3.N)) (ms3_5 (⟨n + 1, hn⟩ : Fin cfg3.N)) (hs3_5 (⟨n + 1, hn⟩ : Fin cfg3.N)) (ms3_6 (⟨n + 1, hn⟩ : Fin cfg3.N)) (hs3_6 (⟨n + 1, hn⟩ : Fin cfg3.N)) (ms3_7 (⟨n + 1, hn⟩ : Fin cfg3.N)) (hs3_7 (⟨n + 1, hn⟩ : Fin cfg3.N)) scM3_0 (Memref.isWhole_whole _) (fun h => h0 ((hcond3_0 (⟨n + 1, hn⟩ : Fin cfg3.N)).mp h)) ((hcond3_1 (⟨n + 1, hn⟩ : Fin cfg3.N)).mpr h1) (iblk3 V c 0 (⟨n + 1, hn⟩ : Fin cfg3.N)) (iblk3 V c 1 (⟨n + 1, hn⟩ : Fin cfg3.N)) (iblk3 V c 2 (⟨n + 1, hn⟩ : Fin cfg3.N)) (iblk3 V c 3 (⟨n + 1, hn⟩ : Fin cfg3.N)) (iblk3 V c 4 (⟨n + 1, hn⟩ : Fin cfg3.N)) (iblk3 V c 5 (⟨n + 1, hn⟩ : Fin cfg3.N)) (outsAt3 V c ((⟨n + 1, hn⟩ : Fin cfg3.N).val - 1) (Nat.lt_of_le_of_lt (Nat.sub_le _ _) (⟨n + 1, hn⟩ : Fin cfg3.N).isLt)).2.2 h r d
        rw [e2, slabPay_apply, hZ]
        show (outsAt3 V c n _).2.2 (ix3 h r d) + _ = (if (n + 1) % 8 = 0 then _ else _)
        rw [ih, if_neg h0]
        rfl
      · rw [show outsAt3 V c (n + 1) hn = outsAt3 V c (⟨n + 1, hn⟩ : Fin cfg3.N).val (⟨n + 1, hn⟩ : Fin cfg3.N).isLt from rfl, outsAt3_B V c (⟨n + 1, hn⟩ : Fin cfg3.N) h0 h1]
        dsimp only
        obtain ⟨Z, hZ, e2⟩ := sout3_B_apply c (grid3.coords (⟨n + 1, hn⟩ : Fin cfg3.N)) (ms3_0 (⟨n + 1, hn⟩ : Fin cfg3.N)) (hs3_0 (⟨n + 1, hn⟩ : Fin cfg3.N)) (ms3_1 (⟨n + 1, hn⟩ : Fin cfg3.N)) (hs3_1 (⟨n + 1, hn⟩ : Fin cfg3.N)) (ms3_2 (⟨n + 1, hn⟩ : Fin cfg3.N)) (hs3_2 (⟨n + 1, hn⟩ : Fin cfg3.N)) (ms3_3 (⟨n + 1, hn⟩ : Fin cfg3.N)) (hs3_3 (⟨n + 1, hn⟩ : Fin cfg3.N)) (ms3_4 (⟨n + 1, hn⟩ : Fin cfg3.N)) (hs3_4 (⟨n + 1, hn⟩ : Fin cfg3.N)) (ms3_5 (⟨n + 1, hn⟩ : Fin cfg3.N)) (hs3_5 (⟨n + 1, hn⟩ : Fin cfg3.N)) (ms3_6 (⟨n + 1, hn⟩ : Fin cfg3.N)) (hs3_6 (⟨n + 1, hn⟩ : Fin cfg3.N)) (ms3_7 (⟨n + 1, hn⟩ : Fin cfg3.N)) (hs3_7 (⟨n + 1, hn⟩ : Fin cfg3.N)) scM3_0 (Memref.isWhole_whole _) (fun h => h0 ((hcond3_0 (⟨n + 1, hn⟩ : Fin cfg3.N)).mp h)) (fun h => h1 ((hcond3_1 (⟨n + 1, hn⟩ : Fin cfg3.N)).mp h)) (iblk3 V c 0 (⟨n + 1, hn⟩ : Fin cfg3.N)) (iblk3 V c 1 (⟨n + 1, hn⟩ : Fin cfg3.N)) (iblk3 V c 2 (⟨n + 1, hn⟩ : Fin cfg3.N)) (iblk3 V c 3 (⟨n + 1, hn⟩ : Fin cfg3.N)) (iblk3 V c 4 (⟨n + 1, hn⟩ : Fin cfg3.N)) (iblk3 V c 5 (⟨n + 1, hn⟩ : Fin cfg3.N)) (outsAt3 V c ((⟨n + 1, hn⟩ : Fin cfg3.N).val - 1) (Nat.lt_of_le_of_lt (Nat.sub_le _ _) (⟨n + 1, hn⟩ : Fin cfg3.N).isLt)).2.2 h r d
        rw [e2, slabPay_apply, hZ]
        show (outsAt3 V c n _).2.2 (ix3 h r d) + _ = (if (n + 1) % 8 = 0 then _ else _)
        rw [ih, if_neg h0]
        rfl

/-- At a point that ends a row of points, output 6's block is the accumulator clamped below at zero. -/
theorem ret_block (t : Fin cfg3.N) (h7 : t.val % 8 = 7) (h : Fin 8) (r : Fin 512) (d : Fin 128) :
    ((dat3 (F := Ideal) V c).after 6 t : Vec Ideal S8x512x128 .f32) (ix3 h r d) = max (accSpec V c t.val t.isLt h r d) 0 := by
  have h0 : ¬t.val % 8 = 0 := by omega
  have ha := acc_eq V c t.val t.isLt h r d
  rw [after3_6]
  rw [outsAt3_C V c t h0 h7] at ha ⊢
  dsimp only at ha ⊢
  rw [out3_C_6_eq, k3_pay4_apply, ha]

/-! ## In terms of the arrays -/

/-- The point's block score is the arrays' score at the point's rows. -/
theorem scoreBlk_eq (t : Fin cfg3.N) (h : Fin 8) (r s : Fin 512) :
    scoreBlk (iblk3 V c 0 t) (iblk3 V c 1 t) (iblk3 V c 3 t) (iblk3 V c 4 t) (iblk3 V c 5 t) h r s
      = AttnSpec.score (V c main_v9) (V c main_v12) (V c main_v17) (V c main_v30) (V c main_v43) h (qRow t r) (kRow t s) := by
  unfold scoreBlk AttnSpec.score AttnSpec.qk AttnSpec.gam
  simp only [iblk3_0_apply V c t, iblk3_1_apply V c t, iblk3_3_apply V c t, iblk3_4_apply V c t, iblk3_5_apply V c t]

/-- What point `t` adds is key block `t mod 8`'s term of the retention sum at the point's query rows. -/
theorem bsum_eq (t : Fin cfg3.N) (h : Fin 8) (r : Fin 512) (d : Fin 128) :
    bsum V c t h r d = AttnSpec.blockTerm (V c main_v9) (V c main_v12) (V c main_v15) (V c main_v17) (V c main_v30) (V c main_v43) h (qRow t r) d ⟨t.val % 8, Nat.mod_lt _ (by decide)⟩ := by
  unfold bsum AttnSpec.blockTerm
  refine Finset.sum_congr rfl fun j _ => ?_
  rw [scoreBlk_eq V c t h r j, iblk3_2_apply V c t h j d]
  have hk : AttnSpec.keyOf ⟨t.val % 8, Nat.mod_lt _ (by decide)⟩ j = kRow t j := Fin.ext rfl
  rw [hk]

theorem accSpec_step (n : ℕ) (hn : n + 1 < cfg3.N) (hne : (n + 1) % 8 ≠ 0) (h : Fin 8) (r : Fin 512) (d : Fin 128) :
    accSpec V c (n + 1) hn h r d = accSpec V c n (Nat.lt_of_succ_lt hn) h r d + bsum V c ⟨n + 1, hn⟩ h r d := by
  show (if (n + 1) % 8 = 0 then _ else _) = _
  rw [if_neg hne]

theorem accSpec_reset (n : ℕ) (hn : n < cfg3.N) (h0 : n % 8 = 0) (h : Fin 8) (r : Fin 512) (d : Fin 128) :
    accSpec V c n hn h r d = 0 + bsum V c ⟨n, hn⟩ h r d := by
  cases n with
  | zero => rfl
  | succ n =>
    show (if (n + 1) % 8 = 0 then _ else _) = _
    rw [if_pos h0]

/-- One term of a row of eight points, at the row's last point's query rows. -/
theorem bterm_at (n0 : ℕ) (h00 : n0 % 8 = 0) (k : ℕ) (hk : k < 8) (hlt : n0 + k < cfg3.N) (tlt : n0 + 7 < cfg3.N)
    (h : Fin 8) (r : Fin 512) (d : Fin 128) :
    bsum V c ⟨n0 + k, hlt⟩ h r d = AttnSpec.blockTerm (V c main_v9) (V c main_v12) (V c main_v15) (V c main_v17) (V c main_v30) (V c main_v43) h (qRow ⟨n0 + 7, tlt⟩ r) d ⟨k, hk⟩ := by
  rw [bsum_eq]
  have e1 : qRow ⟨n0 + k, hlt⟩ r = qRow ⟨n0 + 7, tlt⟩ r :=
    Fin.ext (by show 512 * ((n0 + k) / 8) + r.val = 512 * ((n0 + 7) / 8) + r.val; omega)
  have e2 : (⟨(⟨n0 + k, hlt⟩ : Fin cfg3.N).val % 8, Nat.mod_lt _ (by decide)⟩ : Fin 8) = ⟨k, hk⟩ :=
    Fin.ext (by show (n0 + k) % 8 = k; omega)
  rw [e1, e2]

/-- After the last point of a row of eight, the accumulator is the retention sum over the eight key blocks. -/
theorem accSpec_last (t : Fin cfg3.N) (h7 : t.val % 8 = 7) (h : Fin 8) (r : Fin 512) (d : Fin 128) :
    accSpec V c t.val t.isLt h r d = ∑ mi : Fin 8, AttnSpec.blockTerm (V c main_v9) (V c main_v12) (V c main_v15) (V c main_v17) (V c main_v30) (V c main_v43) h (qRow t r) d mi := by
  obtain ⟨tv, tlt⟩ := t
  obtain ⟨n0, rfl⟩ : ∃ n0, tv = n0 + 7 := ⟨tv - 7, by dsimp only at h7; omega⟩
  have h00 : n0 % 8 = 0 := by dsimp only at h7; omega
  show accSpec V c (n0 + 7) tlt h r d = _
  rw [accSpec_step V c (n0 + 6) tlt (by omega)]
  rw [accSpec_step V c (n0 + 5) (by omega) (by omega)]
  rw [accSpec_step V c (n0 + 4) (by omega) (by omega)]
  rw [accSpec_step V c (n0 + 3) (by omega) (by omega)]
  rw [accSpec_step V c (n0 + 2) (by omega) (by omega)]
  rw [accSpec_step V c (n0 + 1) (by omega) (by omega)]
  rw [accSpec_step V c n0 (by omega) (by omega)]
  rw [accSpec_reset V c n0 (by omega) h00]
  rw [show bsum V c ⟨n0, by omega⟩ h r d = bsum V c ⟨n0 + 0, by omega⟩ h r d from rfl]
  rw [bterm_at V c n0 h00 0 (by decide) (by omega) tlt, bterm_at V c n0 h00 1 (by decide) (by omega) tlt,
    bterm_at V c n0 h00 2 (by decide) (by omega) tlt, bterm_at V c n0 h00 3 (by decide) (by omega) tlt,
    bterm_at V c n0 h00 4 (by decide) (by omega) tlt, bterm_at V c n0 h00 5 (by decide) (by omega) tlt,
    bterm_at V c n0 h00 6 (by decide) (by omega) tlt, bterm_at V c n0 h00 7 (by decide) (by omega) tlt]
  rw [Fin.sum_univ_eight, zero_add]
  rfl

/-- At a point that ends a row of points, output 6's block is the retention value at the block's rows. -/
theorem hret3 (t : Fin cfg3.N) (h7 : t.val % 8 = 7) (h : Fin 8) (r : Fin 512) (d : Fin 128) :
    ((dat3 (F := Ideal) V c).after 6 t : Vec Ideal S8x512x128 .f32) (ix3 h r d)
      = AttnSpec.retAt (V c main_v9) (V c main_v12) (V c main_v15) (V c main_v17) (V c main_v30) (V c main_v43) h (qRow t r) d := by
  unfold AttnSpec.retAt
  rw [ret_block V c t h7 h r d, accSpec_last V c t h7 h r d]

/-- The retention output's array after the region: the retention value, entry by entry. -/
theorem final3_6 :
    (dat3 (F := Ideal) V c).arrAt 6 cfg3.N
      = fun i => AttnSpec.retAt (V c main_v9) (V c main_v12) (V c main_v15) (V c main_v17) (V c main_v30) (V c main_v43) (i 0) (i 1) (i 2) :=
  final3_6_of V c (hret3 V c)

end Cert.KernelIdeal.Hand

end
-- ==== Proof.KI.Attn.ValMean.lean ====
/- The mean output of the attention region at the extended reals: after the region, its array holds at
   (n, m) the eight heads' scores of query n against key m, added in order from zero and multiplied by an
   eighth.

   Every point (ni, mi) of the 8 × 8 grid writes back the block of rows 512 ni … 512 ni + 511 and columns
   512 mi … 512 mi + 511. What it writes is the body's mean block over the point's blocks of the arrays: the
   queries' rows 512 ni + r, the keys' rows 512 mi + s, and the biases' entries (512 ni + r, 512 mi + s).
   Read at (r, s), the mean block is the sum over the heads of (the inner product of the query's and the
   key's rows in that head, plus the head's bias) times the scale, times an eighth. The sixty-four blocks
   tile the array. -/
import proofs.«152551_j88132728914059_1_alg».proof.Proof.KI.Attn.ValCases
import proofs.«152551_j88132728914059_1_alg».proof.Proof.KI.Attn.PayAt
import proofs.«152551_j88132728914059_1_alg».proof.Proof.KI.AttnSpec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

namespace Mean

/-! ## The mean block at an entry, over the point's blocks -/

/-- One head's inner products, read through the head's slabs of the query and key blocks. -/
theorem qk_ld (x0 x1 : Vec Ideal S8x512x128 .bf16) (h : Fin 8) (a : ℕ) (ha : h.val = a) (inb0 inb1) (r s : Fin 512) :
    (∑ e : Fin 128, View.ld x0 (Rect.unit (s := S8x512x128) ![a, 0, 0] ![1, 512, 128] inb0) (ix3 (0 : Fin 1) r e)
        * View.ld x1 (Rect.unit (s := S8x512x128) ![a, 0, 0] ![1, 512, 128] inb1) (ix3 (0 : Fin 1) s e))
      = ∑ e : Fin 128, x0 (ix3 h r e) * x1 (ix3 h s e) := by
  subst ha
  refine Finset.sum_congr rfl fun e _ => ?_
  rw [ld_slab x0 h.val h.isLt, ld_slab x1 h.val h.isLt]

/-- The last head's, whose query slab is cast first. -/
theorem qk_ld_cast (x0 x1 : Vec Ideal S8x512x128 .bf16) (h : Fin 8) (a : ℕ) (ha : h.val = a) (inb0 inb1) (r s : Fin 512) :
    (∑ e : Fin 128, k3_pay31 (F := Ideal) (View.ld x0 (Rect.unit (s := S8x512x128) ![a, 0, 0] ![1, 512, 128] inb0)) (ix2 r e)
        * View.ld x1 (Rect.unit (s := S8x512x128) ![a, 0, 0] ![1, 512, 128] inb1) (ix3 (0 : Fin 1) s e))
      = ∑ e : Fin 128, x0 (ix3 h r e) * x1 (ix3 h s e) := by
  subst ha
  refine Finset.sum_congr rfl fun e _ => ?_
  rw [k3_pay31_apply, ld_slab x0 h.val h.isLt, ld_slab x1 h.val h.isLt]

/-- The mean block at (r, s): the heads' scaled, biased scores added in order, times an eighth. -/
theorem meanPay_apply (x0 x1 : Vec Ideal S8x512x128 .bf16) (x3 x4 x5 : Vec Ideal S512x512 .f32) (r s : Fin 512) :
    meanPay (F := Ideal) x0 x1 x3 x4 x5 (ix2 r s)
      = ((((((((((∑ e : Fin 128, x0 (ix3 (0 : Fin 8) r e) * x1 (ix3 (0 : Fin 8) s e)) + x3 (ix2 r s)) * Ideal.ofBits .f32 0x3F7F485A#32
          + ((∑ e : Fin 128, x0 (ix3 (1 : Fin 8) r e) * x1 (ix3 (1 : Fin 8) s e)) + x3 (ix2 r s)) * Ideal.ofBits .f32 0x3F7F485A#32)
          + ((∑ e : Fin 128, x0 (ix3 (2 : Fin 8) r e) * x1 (ix3 (2 : Fin 8) s e)) + x4 (ix2 r s)) * Ideal.ofBits .f32 0x3F7F485A#32)
          + ((∑ e : Fin 128, x0 (ix3 (3 : Fin 8) r e) * x1 (ix3 (3 : Fin 8) s e)) + x4 (ix2 r s)) * Ideal.ofBits .f32 0x3F7F485A#32)
          + ((∑ e : Fin 128, x0 (ix3 (4 : Fin 8) r e) * x1 (ix3 (4 : Fin 8) s e)) + x5 (ix2 r s)) * Ideal.ofBits .f32 0x3F7F485A#32)
          + ((∑ e : Fin 128, x0 (ix3 (5 : Fin 8) r e) * x1 (ix3 (5 : Fin 8) s e)) + x5 (ix2 r s)) * Ideal.ofBits .f32 0x3F7F485A#32)
          + (∑ e : Fin 128, x0 (ix3 (6 : Fin 8) r e) * x1 (ix3 (6 : Fin 8) s e)) * Ideal.ofBits .f32 0x3F7F485A#32)
          + (∑ e : Fin 128, x0 (ix3 (7 : Fin 8) r e) * x1 (ix3 (7 : Fin 8) s e)) * Ideal.ofBits .f32 0x3F7F485A#32)
        * Ideal.ofBits .f32 0x3E000000#32) := by
  unfold meanPay
  rw [k3_pay3_apply, k3_pay29_apply, k3_pay26_apply, k3_pay20_apply, k3_pay13_apply, k3_pay10_apply,
    k3_pay9_apply, k3_pay12_apply, k3_pay17_apply, k3_pay16_apply, k3_pay19_apply, k3_pay22_apply, k3_pay25_apply,
    k3_pay28_apply, k3_pay1_apply]
  rw [k3_pay6_eq, k3_pay7_eq, k3_pay8_eq,
    View.ld_unit_zero (S := S512x512) hz2 _ x3, View.ld_unit_zero (S := S512x512) hz2 _ x4,
    View.ld_unit_zero (S := S512x512) hz2 _ x5]
  rw [qk_ld x0 x1 0 0 rfl, qk_ld x0 x1 1 1 rfl, qk_ld x0 x1 2 2 rfl, qk_ld x0 x1 3 3 rfl, qk_ld x0 x1 4 4 rfl,
    qk_ld x0 x1 5 5 rfl, qk_ld x0 x1 6 6 rfl, qk_ld_cast x0 x1 7 7 rfl]
  rfl

/-! ## The specification's score, head by head -/

section Spec
open AttnSpec
variable (Q K : Arr3) (A D C : Arr2) (n m : Fin 4096)

theorem score_h0 : score Q K A D C 0 n m = (qk Q K 0 n m + A (ix2 n m)) * gam := by
  unfold score; rw [if_pos (by decide)]
theorem score_h1 : score Q K A D C 1 n m = (qk Q K 1 n m + A (ix2 n m)) * gam := by
  unfold score; rw [if_pos (by decide)]
theorem score_h2 : score Q K A D C 2 n m = (qk Q K 2 n m + D (ix2 n m)) * gam := by
  unfold score; rw [if_neg (by decide), if_pos (by decide)]
theorem score_h3 : score Q K A D C 3 n m = (qk Q K 3 n m + D (ix2 n m)) * gam := by
  unfold score; rw [if_neg (by decide), if_pos (by decide)]
theorem score_h4 : score Q K A D C 4 n m = (qk Q K 4 n m + C (ix2 n m)) * gam := by
  unfold score; rw [if_neg (by decide), if_neg (by decide), if_pos (by decide)]
theorem score_h5 : score Q K A D C 5 n m = (qk Q K 5 n m + C (ix2 n m)) * gam := by
  unfold score; rw [if_neg (by decide), if_neg (by decide), if_pos (by decide)]
theorem score_h6 : score Q K A D C 6 n m = qk Q K 6 n m * gam := by
  unfold score; rw [if_neg (by decide), if_neg (by decide), if_neg (by decide)]
theorem score_h7 : score Q K A D C 7 n m = qk Q K 7 n m * gam := by
  unfold score; rw [if_neg (by decide), if_neg (by decide), if_neg (by decide)]

end Spec

/-- The mean block of blocks that are the arrays' blocks (ni, mi) is the specification's mean at the
    block's entries: entry (r, s) is query 512 ni + r against key 512 mi + s. -/
theorem mean_block_eq (Q K : AttnSpec.Arr3) (A D C : AttnSpec.Arr2)
    (x0 x1 : Vec Ideal S8x512x128 .bf16) (x3 x4 x5 : Vec Ideal S512x512 .f32) (ni mi : Fin 8)
    (h0 : ∀ (h : Fin 8) (r : Fin 512) (e : Fin 128), x0 (ix3 h r e) = Q (ix3 h (AttnSpec.keyOf ni r) e))
    (h1 : ∀ (h : Fin 8) (s : Fin 512) (e : Fin 128), x1 (ix3 h s e) = K (ix3 h (AttnSpec.keyOf mi s) e))
    (h3 : ∀ (r s : Fin 512), x3 (ix2 r s) = A (ix2 (AttnSpec.keyOf ni r) (AttnSpec.keyOf mi s)))
    (h4 : ∀ (r s : Fin 512), x4 (ix2 r s) = D (ix2 (AttnSpec.keyOf ni r) (AttnSpec.keyOf mi s)))
    (h5 : ∀ (r s : Fin 512), x5 (ix2 r s) = C (ix2 (AttnSpec.keyOf ni r) (AttnSpec.keyOf mi s)))
    (r s : Fin 512) :
    meanPay (F := Ideal) x0 x1 x3 x4 x5 (ix2 r s)
      = AttnSpec.meanAt Q K A D C (AttnSpec.keyOf ni r) (AttnSpec.keyOf mi s) := by
  rw [meanPay_apply]
  simp only [h0, h1, h3, h4, h5]
  unfold AttnSpec.meanAt
  rw [score_h0, score_h1, score_h2, score_h3, score_h4, score_h5, score_h6, score_h7, zero_add]
  rfl

/-! ## From the blocks to the array -/

variable (V : (c : Dev nD) → (b : Ref sig .tc) → Buf (Elt Ideal) ((c : Thread nD τ).loc b))

/-- The index maps over the sixty-four points t = 8 ni + mi: the queries' window sits on the block of rows ni, the keys'
    on the block of rows mi, the biases' and the mean output's on the block (ni, mi). -/
theorem idx_facts3 : ∀ t : Fin cfg3.N,
    win3_0.index t (0 : Fin 3) = 0 ∧ win3_0.index t (1 : Fin 3) = t.val / 8 ∧ win3_0.index t (2 : Fin 3) = 0
    ∧ win3_1.index t (0 : Fin 3) = 0 ∧ win3_1.index t (1 : Fin 3) = t.val % 8 ∧ win3_1.index t (2 : Fin 3) = 0
    ∧ win3_3.index t (0 : Fin 2) = t.val / 8 ∧ win3_3.index t (1 : Fin 2) = t.val % 8
    ∧ win3_4.index t (0 : Fin 2) = t.val / 8 ∧ win3_4.index t (1 : Fin 2) = t.val % 8
    ∧ win3_5.index t (0 : Fin 2) = t.val / 8 ∧ win3_5.index t (1 : Fin 2) = t.val % 8
    ∧ win3_7.index t (0 : Fin 2) = t.val / 8 ∧ win3_7.index t (1 : Fin 2) = t.val % 8 :=
  (by decide +kernel : ∀ t : Fin grid3.N, _)

/-- The block row of a point. -/
def rowOf (t : Fin cfg3.N) : Fin 8 := ⟨t.val / 8, by have := lt_of_lt_of_eq t.isLt (show cfg3.N = 64 from N_3); omega⟩
/-- The block column of a point. -/
def colOf (t : Fin cfg3.N) : Fin 8 := ⟨t.val % 8, by omega⟩

/-- The queries' block at a point is rows 512 ni … of the queries' array. -/
theorem blk3_0_apply (c : Dev nD) (t : Fin cfg3.N) (h : Fin 8) (r : Fin 512) (e : Fin 128) :
    iblk3 V c 0 t (ix3 h r e) = V c main_v9 (ix3 h (AttnSpec.keyOf (rowOf t) r) e) := by
  obtain ⟨a0, a1, a2, _⟩ := idx_facts3 t
  show V c main_v9 (((cfg3.win 0).blk t).view.emb (ix3 h r e)) = _
  refine congrArg (V c main_v9) (funext fun a => Fin.ext ?_)
  match a with
  | ⟨0, _⟩ => show win3_0.index t (0 : Fin 3) * 8 + 1 * h.val = h.val; omega
  | ⟨1, _⟩ => show win3_0.index t (1 : Fin 3) * 512 + 1 * r.val = 512 * (t.val / 8) + r.val; omega
  | ⟨2, _⟩ => show win3_0.index t (2 : Fin 3) * 128 + 1 * e.val = e.val; omega

/-- The keys' block at a point is rows 512 mi … of the keys' array. -/
theorem blk3_1_apply (c : Dev nD) (t : Fin cfg3.N) (h : Fin 8) (s : Fin 512) (e : Fin 128) :
    iblk3 V c 1 t (ix3 h s e) = V c main_v12 (ix3 h (AttnSpec.keyOf (colOf t) s) e) := by
  obtain ⟨_, _, _, b0, b1, b2, _⟩ := idx_facts3 t
  show V c main_v12 (((cfg3.win 1).blk t).view.emb (ix3 h s e)) = _
  refine congrArg (V c main_v12) (funext fun a => Fin.ext ?_)
  match a with
  | ⟨0, _⟩ => show win3_1.index t (0 : Fin 3) * 8 + 1 * h.val = h.val; omega
  | ⟨1, _⟩ => show win3_1.index t (1 : Fin 3) * 512 + 1 * s.val = 512 * (t.val % 8) + s.val; omega
  | ⟨2, _⟩ => show win3_1.index t (2 : Fin 3) * 128 + 1 * e.val = e.val; omega

/-- The first bias's block at a point is its array's block (ni, mi). -/
theorem blk3_3_apply (c : Dev nD) (t : Fin cfg3.N) (r s : Fin 512) :
    iblk3 V c 3 t (ix2 r s) = V c main_v17 (ix2 (AttnSpec.keyOf (rowOf t) r) (AttnSpec.keyOf (colOf t) s)) := by
  obtain ⟨_, _, _, _, _, _, d0, d1, _⟩ := idx_facts3 t
  show V c main_v17 (((cfg3.win 3).blk t).view.emb (ix2 r s)) = _
  refine congrArg (V c main_v17) (funext fun a => Fin.ext ?_)
  match a with
  | ⟨0, _⟩ => show win3_3.index t (0 : Fin 2) * 512 + 1 * r.val = 512 * (t.val / 8) + r.val; omega
  | ⟨1, _⟩ => show win3_3.index t (1 : Fin 2) * 512 + 1 * s.val = 512 * (t.val % 8) + s.val; omega

/-- The second bias's. -/
theorem blk3_4_apply (c : Dev nD) (t : Fin cfg3.N) (r s : Fin 512) :
    iblk3 V c 4 t (ix2 r s) = V c main_v30 (ix2 (AttnSpec.keyOf (rowOf t) r) (AttnSpec.keyOf (colOf t) s)) := by
  obtain ⟨_, _, _, _, _, _, _, _, d0, d1, _⟩ := idx_facts3 t
  show V c main_v30 (((cfg3.win 4).blk t).view.emb (ix2 r s)) = _
  refine congrArg (V c main_v30) (funext fun a => Fin.ext ?_)
  match a with
  | ⟨0, _⟩ => show win3_4.index t (0 : Fin 2) * 512 + 1 * r.val = 512 * (t.val / 8) + r.val; omega
  | ⟨1, _⟩ => show win3_4.index t (1 : Fin 2) * 512 + 1 * s.val = 512 * (t.val % 8) + s.val; omega

/-- The third bias's. -/
theorem blk3_5_apply (c : Dev nD) (t : Fin cfg3.N) (r s : Fin 512) :
    iblk3 V c 5 t (ix2 r s) = V c main_v43 (ix2 (AttnSpec.keyOf (rowOf t) r) (AttnSpec.keyOf (colOf t) s)) := by
  obtain ⟨_, _, _, _, _, _, _, _, _, _, d0, d1, _⟩ := idx_facts3 t
  show V c main_v43 (((cfg3.win 5).blk t).view.emb (ix2 r s)) = _
  refine congrArg (V c main_v43) (funext fun a => Fin.ext ?_)
  match a with
  | ⟨0, _⟩ => show win3_5.index t (0 : Fin 2) * 512 + 1 * r.val = 512 * (t.val / 8) + r.val; omega
  | ⟨1, _⟩ => show win3_5.index t (1 : Fin 2) * 512 + 1 * s.val = 512 * (t.val % 8) + s.val; omega

/-- What every point leaves in the mean output's buffer: the mean block of the point's blocks, whichever of the
    three cases the point is in. -/
theorem after3_7_eq (c : Dev nD) (t : Fin cfg3.N) :
    (dat3 (F := Ideal) V c).after 7 t
      = meanPay (F := Ideal) (iblk3 V c 0 t) (iblk3 V c 1 t) (iblk3 V c 3 t) (iblk3 V c 4 t) (iblk3 V c 5 t) := by
  rw [after3_7]
  by_cases h0 : t.val % 8 = 0
  · have h1 : ¬t.val % 8 = 7 := by omega
    rw [outsAt3_A V c t h0 h1]
    dsimp only
    exact out3_A_7_eq (F := Ideal) ..
  · by_cases h1 : t.val % 8 = 7
    · rw [outsAt3_C V c t h0 h1]
      dsimp only
      exact out3_C_7_eq (F := Ideal) ..
    · rw [outsAt3_B V c t h0 h1]
      dsimp only
      exact out3_B_7_eq (F := Ideal) ..

/-- What point t writes back is block t of the specification's mean over the arrays as the region found them. -/
theorem flushed3_7_eq (c : Dev nD) (t : Fin cfg3.N) :
    (dat3 (F := Ideal) V c).flushed 7 t
      = ((cfg3.win 7).blk t).view.read (Elt Ideal)
          (fun i => AttnSpec.meanAt (V c main_v9) (V c main_v12) (V c main_v17) (V c main_v30) (V c main_v43) (i 0) (i 1)) := by
  show (cfg3.win 7).cut (grid3.coords t) ((dat3 V c).after 7 t) = _
  rw [after3_7_eq]
  obtain ⟨_, _, _, _, _, _, _, _, _, _, _, _, g0, g1⟩ := idx_facts3 t
  funext j
  obtain ⟨r, s, rfl⟩ : ∃ (r s : Fin 512), j = ix2 r s := ⟨j 0, j 1, eq_ix2 j⟩
  show meanPay (F := Ideal) (iblk3 V c 0 t) (iblk3 V c 1 t) (iblk3 V c 3 t) (iblk3 V c 4 t) (iblk3 V c 5 t) (ix2 r s)
      = AttnSpec.meanAt (V c main_v9) (V c main_v12) (V c main_v17) (V c main_v30) (V c main_v43)
          ((((cfg3.win 7).blk t).view.emb (ix2 r s)) 0) ((((cfg3.win 7).blk t).view.emb (ix2 r s)) 1)
  refine (mean_block_eq (V c main_v9) (V c main_v12) (V c main_v17) (V c main_v30) (V c main_v43) _ _ _ _ _
    (rowOf t) (colOf t) (blk3_0_apply V c t) (blk3_1_apply V c t) (blk3_3_apply V c t) (blk3_4_apply V c t)
    (blk3_5_apply V c t) r s).trans ?_
  have e0 : AttnSpec.keyOf (rowOf t) r = (((cfg3.win 7).blk t).view.emb (ix2 r s)) 0 :=
    Fin.ext (show 512 * (t.val / 8) + r.val = win3_7.index t (0 : Fin 2) * 512 + 1 * r.val by omega)
  have e1 : AttnSpec.keyOf (colOf t) s = (((cfg3.win 7).blk t).view.emb (ix2 r s)) 1 :=
    Fin.ext (show 512 * (t.val % 8) + s.val = win3_7.index t (1 : Fin 2) * 512 + 1 * s.val by omega)
  rw [e0, e1]

/-- An index of the mean output's array is in point t's block iff each coordinate is in the block's range on its axis. -/
theorem mem_blk3_7 (t : Fin cfg3.N) (i : S4096x4096.Idx) :
    i ∈ ((cfg3.win 7).blk t).view.set ↔ ∀ a : Fin 2, win3_7.index t a * S512x512.size a ≤ (i a).val
      ∧ (i a).val < win3_7.index t a * S512x512.size a + S512x512.size a := by
  show i ∈ ((View.whole main_v44_1).slice (win3_7.rect t)).set ↔ _
  rw [View.set_slice_whole, Rect.mem_set_unit]
  exact Iff.rfl

/-- The sixty-four blocks tile the mean output's array: entry (n, m) is in the block of point 8 (n / 512) + m / 512. -/
theorem cover3_7 (i : S4096x4096.Idx) :
    ∃ t : Fin cfg3.N, (cfg3.win 7).flush t = true ∧ i ∈ ((cfg3.win 7).blk t).view.set := by
  have hi0 : (i 0).val < 4096 := (i 0).isLt
  have hi1 : (i 1).val < 4096 := (i 1).isLt
  have hN : cfg3.N = 64 := N_3
  let t : Fin cfg3.N := ⟨8 * ((i 0).val / 512) + (i 1).val / 512, by rw [hN]; omega⟩
  have ht : t.val = 8 * ((i 0).val / 512) + (i 1).val / 512 := rfl
  obtain ⟨_, _, _, _, _, _, _, _, _, _, _, _, g0, g1⟩ := idx_facts3 t
  refine ⟨t, flush3_7 t, ?_⟩
  rw [mem_blk3_7]
  intro a
  match a with
  | ⟨0, _⟩ => show win3_7.index t (0 : Fin 2) * 512 ≤ (i 0).val ∧ (i 0).val < win3_7.index t (0 : Fin 2) * 512 + 512; omega
  | ⟨1, _⟩ => show win3_7.index t (1 : Fin 2) * 512 ≤ (i 1).val ∧ (i 1).val < win3_7.index t (1 : Fin 2) * 512 + 512; omega

end Mean

variable (V : (c : Dev nD) → (b : Ref sig .tc) → Buf (Elt Ideal) ((c : Thread nD τ).loc b))

/-- The mean output's array after the region: the specification's mean of the queries, keys and biases as the
    region found them. -/
theorem final3_7 (c : Dev nD) :
    (dat3 (F := Ideal) V c).arrAt 7 cfg3.N
      = fun i => AttnSpec.meanAt (V c main_v9) (V c main_v12) (V c main_v17) (V c main_v30) (V c main_v43) (i 0) (i 1) :=
  (dat3 V c).arrAt_eq_of_cover 7
    (fun i => AttnSpec.meanAt (V c main_v9) (V c main_v12) (V c main_v17) (V c main_v30) (V c main_v43) (i 0) (i 1))
    (fun t _ => Mean.flushed3_7_eq V c t) Mean.cover3_7

end Cert.KernelIdeal.Hand

end
-- ==== Proof.Ref.Scores.lean ====
/- The reference's attention scores read at an index.

   The scores are built from the product of the queries and the keys by six accumulating scatters,
   each adding one bias matrix onto one head, followed by a multiplication by a constant. A scatter
   here has ONE start index (the head), so its update window lands on pairwise distinct elements:
   the element (h, n, m) of the head named by the index gains the update's element (n, m), and every
   other element keeps its value. -/
import proofs.«152551_j88132728914059_1_alg».proof.Proof.Gen.ReferenceIdeal.Read

noncomputable section

namespace Cert.ReferenceIdeal.Hand

open Cert.ReferenceIdeal Cert.ReferenceIdeal.Gen Cert.ReferenceIdeal.Read
open Idealize.ShloMosaic Idealize.ShloMosaic.StableHlo

/-! ## A left fold of pointwise updates, read at one point -/

/-- A fold none of whose steps changes the value at j leaves the value at j. -/
theorem foldl_apply_of_fixed {ι κ α : Type} (step : (κ → α) → ι → κ → α) (j : κ) :
    ∀ (l : List ι) (x : κ → α), (∀ r n, n ∈ l → step r n j = r j) → l.foldl step x j = x j
  | [], x, _ => rfl
  | a :: l, x, h => by
      rw [List.foldl_cons,
        foldl_apply_of_fixed step j l (step x a) (fun r n hn => h r n (List.mem_cons_of_mem _ hn))]
      exact h x a (List.mem_cons.2 (Or.inl rfl))

/-- A fold over a list without repeats, exactly one of whose steps (the one at n₀) changes the value
    at j, and that one by c: the value at j afterwards is c of the value before. -/
theorem foldl_apply_of_hit {ι κ α : Type} (step : (κ → α) → ι → κ → α) (j : κ) (n₀ : ι) (c : α → α) :
    ∀ (l : List ι) (x : κ → α), l.Nodup → n₀ ∈ l →
      (∀ r n, n ∈ l → n ≠ n₀ → step r n j = r j) → (∀ r, step r n₀ j = c (r j)) →
      l.foldl step x j = c (x j)
  | [], x, _, hm, _, _ => absurd hm (List.not_mem_nil)
  | a :: l, x, hnd, hm, ho, hh => by
      rw [List.foldl_cons]
      by_cases ha : a = n₀
      · subst ha
        have hnot : a ∉ l := (List.nodup_cons.1 hnd).1
        rw [foldl_apply_of_fixed step j l (step x a)
          (fun r n hn => ho r n (List.mem_cons_of_mem _ hn) (fun e => hnot (e ▸ hn)))]
        exact hh x
      · have hm' : n₀ ∈ l := by
          rcases List.mem_cons.1 hm with e | e
          · exact absurd e.symm ha
          · exact e
        rw [foldl_apply_of_hit step j n₀ c l (step x a) (List.nodup_cons.1 hnd).2 hm'
          (fun r n hn => ho r n (List.mem_cons_of_mem _ hn)) hh]
        rw [ho x a (List.mem_cons.2 (Or.inl rfl)) ha]

/-! ## A scatter read at an index, over any dimension numbers -/

/-- An element no update lands on keeps the operand's value. -/
theorem scatter_apply_of_forall_ne {α : Type} {s si u : Shape} {w : Nat} (d : ScatterDims s si u) (f : α → α → α)
    (x : s.Idx → α) (idx : IVec si w) (upd : u.Idx → α) (j : s.Idx)
    (h : ∀ k : u.Idx, d.resultIdx? k idx ≠ some j) :
    Host.scatter d f x idx upd j = x j := by
  unfold Host.scatter
  apply foldl_apply_of_fixed
  intro r n _
  generalize hg : d.resultIdx? (u.rowMajor.symm n) idx = o
  cases o with
  | none => rfl
  | some i =>
    have hne : j ≠ i := fun e => h _ (e ▸ hg)
    show (if j = i then f (r i) (upd (u.rowMajor.symm n)) else r j) = r j
    rw [if_neg hne]

/-- An element exactly one update (the one at k) lands on is the body applied to the operand's value
    and that update. -/
theorem scatter_apply_of_unique {α : Type} {s si u : Shape} {w : Nat} (d : ScatterDims s si u) (f : α → α → α)
    (x : s.Idx → α) (idx : IVec si w) (upd : u.Idx → α) (j : s.Idx) (k : u.Idx)
    (hk : d.resultIdx? k idx = some j) (huniq : ∀ k' : u.Idx, d.resultIdx? k' idx = some j → k' = k) :
    Host.scatter d f x idx upd j = f (x j) (upd k) := by
  unfold Host.scatter
  refine foldl_apply_of_hit _ j (u.rowMajor k) (fun y => f y (upd k)) _ x (List.nodup_finRange _)
    (List.mem_finRange _) ?_ ?_
  · intro r n _ hn
    generalize hg : d.resultIdx? (u.rowMajor.symm n) idx = o
    cases o with
    | none => rfl
    | some i =>
      have hne : j ≠ i := by
        intro e
        apply hn
        have := huniq _ (e ▸ hg)
        rw [← this, Equiv.apply_symm_apply]
      show (if j = i then f (r i) (upd (u.rowMajor.symm n)) else r j) = r j
      rw [if_neg hne]
  · intro r
    show (match d.resultIdx? (u.rowMajor.symm (u.rowMajor k)) idx with
      | some i => fun i' => if i' = i then f (r i) (upd (u.rowMajor.symm (u.rowMajor k))) else r i'
      | none => r) j = f (r j) (upd k)
    rw [Equiv.symm_apply_apply, hk]
    show (if j = j then f (r j) (upd k) else r j) = f (r j) (upd k)
    rw [if_pos rfl]

/-! ## The scores' scatter: one head's window -/

/-- The update's index an element of the scores reads: its row and column. -/
abbrev tailIdx (j : S8x4096x4096.Idx) : S4096x4096.Idx := fun a => match a with
  | ⟨0, _⟩ => ⟨(j 1).val, (j 1).isLt⟩
  | ⟨1, _⟩ => ⟨(j 2).val, (j 2).isLt⟩

/-- The scores' index the update's element k lands on in head h. -/
abbrev headIdx (h : Nat) (hh : h < 8) (k : S4096x4096.Idx) : S8x4096x4096.Idx := fun a => match a with
  | ⟨0, _⟩ => ⟨h, hh⟩
  | ⟨1, _⟩ => ⟨(k 0).val, (k 0).isLt⟩
  | ⟨2, _⟩ => ⟨(k 1).val, (k 1).isLt⟩

section Landing

variable {w : Nat} (idx : IVec S1 w) (h : Nat) (hidx : ∀ i, (idx i).toInt = (h : Int)) (k : S4096x4096.Idx)
include hidx

theorem start_zero : scatter_S8x4096x4096_S1_S4096x4096_01_0_0_0.start k idx 0 = (h : Int) := by
  unfold ScatterDims.start
  rw [dif_pos (show (0 : Fin S8x4096x4096.rank) ∈ scatter_S8x4096x4096_S1_S4096x4096_01_0_0_0.scatterDimsToOperandDims by decide)]
  exact hidx _

omit hidx in
theorem start_one : scatter_S8x4096x4096_S1_S4096x4096_01_0_0_0.start k idx 1 = 0 := by
  unfold ScatterDims.start
  rw [dif_neg (show ¬(1 : Fin S8x4096x4096.rank) ∈ scatter_S8x4096x4096_S1_S4096x4096_01_0_0_0.scatterDimsToOperandDims by decide)]

omit hidx in
theorem start_two : scatter_S8x4096x4096_S1_S4096x4096_01_0_0_0.start k idx 2 = 0 := by
  unfold ScatterDims.start
  rw [dif_neg (show ¬(2 : Fin S8x4096x4096.rank) ∈ scatter_S8x4096x4096_S1_S4096x4096_01_0_0_0.scatterDimsToOperandDims by decide)]

omit hidx in
theorem window_zero : scatter_S8x4096x4096_S1_S4096x4096_01_0_0_0.window k 0 = 0 := by
  unfold ScatterDims.window
  rw [dif_neg (show ¬(0 : Fin S8x4096x4096.rank) ∈ scatter_S8x4096x4096_S1_S4096x4096_01_0_0_0.sKept by decide)]

omit hidx in
theorem window_one : scatter_S8x4096x4096_S1_S4096x4096_01_0_0_0.window k 1 = (k 0).val := by
  unfold ScatterDims.window
  rw [dif_pos (show (1 : Fin S8x4096x4096.rank) ∈ scatter_S8x4096x4096_S1_S4096x4096_01_0_0_0.sKept by decide)]
  rfl

omit hidx in
theorem window_two : scatter_S8x4096x4096_S1_S4096x4096_01_0_0_0.window k 2 = (k 1).val := by
  unfold ScatterDims.window
  rw [dif_pos (show (2 : Fin S8x4096x4096.rank) ∈ scatter_S8x4096x4096_S1_S4096x4096_01_0_0_0.sKept by decide)]
  rfl

/-- With the head h inside the operand, every element of the update lands, the element k at (h, k). -/
theorem resultIdx_eq (hh : h < 8) :
    scatter_S8x4096x4096_S1_S4096x4096_01_0_0_0.resultIdx? k idx = some (headIdx h hh k) := by
  have hb : ∀ a : Fin S8x4096x4096.rank,
      0 ≤ scatter_S8x4096x4096_S1_S4096x4096_01_0_0_0.start k idx a + scatter_S8x4096x4096_S1_S4096x4096_01_0_0_0.window k a
      ∧ scatter_S8x4096x4096_S1_S4096x4096_01_0_0_0.start k idx a + scatter_S8x4096x4096_S1_S4096x4096_01_0_0_0.window k a
          < S8x4096x4096.size a := by
    intro a
    match a with
    | ⟨0, _⟩ =>
      rw [show (⟨0, by decide⟩ : Fin S8x4096x4096.rank) = 0 from rfl, start_zero idx h hidx k, window_zero k]
      have : S8x4096x4096.size 0 = 8 := rfl
      rw [this]; omega
    | ⟨1, _⟩ =>
      rw [show (⟨1, by decide⟩ : Fin S8x4096x4096.rank) = 1 from rfl, start_one idx k, window_one k]
      have : S8x4096x4096.size 1 = 4096 := rfl
      have h0 : (k 0).val < 4096 := (k 0).isLt
      rw [this]; omega
    | ⟨2, _⟩ =>
      rw [show (⟨2, by decide⟩ : Fin S8x4096x4096.rank) = 2 from rfl, start_two idx k, window_two k]
      have : S8x4096x4096.size 2 = 4096 := rfl
      have h1 : (k 1).val < 4096 := (k 1).isLt
      rw [this]; omega
  unfold ScatterDims.resultIdx?
  rw [dif_pos hb]
  congr 1
  funext a
  apply Fin.ext
  match a with
  | ⟨0, _⟩ =>
    show (scatter_S8x4096x4096_S1_S4096x4096_01_0_0_0.start k idx 0 + scatter_S8x4096x4096_S1_S4096x4096_01_0_0_0.window k 0).toNat = h
    rw [start_zero idx h hidx k, window_zero k]; omega
  | ⟨1, _⟩ =>
    show (scatter_S8x4096x4096_S1_S4096x4096_01_0_0_0.start k idx 1 + scatter_S8x4096x4096_S1_S4096x4096_01_0_0_0.window k 1).toNat = (k 0).val
    rw [start_one idx k, window_one k]; omega
  | ⟨2, _⟩ =>
    show (scatter_S8x4096x4096_S1_S4096x4096_01_0_0_0.start k idx 2 + scatter_S8x4096x4096_S1_S4096x4096_01_0_0_0.window k 2).toNat = (k 1).val
    rw [start_two idx k, window_two k]; omega

end Landing

/-- ONE scatter of the scores read at an index: with every component of the index operand the head h
    (inside the operand), the element (h, n, m) is the body applied to the operand's element and the
    update's element (n, m); every element of another head is the operand's. -/
theorem scatter_head_apply {α : Type} {w : Nat} (f : α → α → α) (x : S8x4096x4096.Idx → α) (idx : IVec S1 w)
    (u : S4096x4096.Idx → α) (h : Nat) (hh : h < 8) (hidx : ∀ i, (idx i).toInt = (h : Int)) (j : S8x4096x4096.Idx) :
    Host.scatter scatter_S8x4096x4096_S1_S4096x4096_01_0_0_0 f x idx u j
      = if (j 0).val = h then f (x j) (u (tailIdx j)) else x j := by
  by_cases hj : (j 0).val = h
  · rw [if_pos hj]
    refine scatter_apply_of_unique _ f x idx u j (tailIdx j) ?_ ?_
    · rw [resultIdx_eq idx h hidx (tailIdx j) hh]
      congr 1
      funext a
      apply Fin.ext
      match a with
      | ⟨0, _⟩ => exact hj.symm
      | ⟨1, _⟩ => rfl
      | ⟨2, _⟩ => rfl
    · intro k' hk'
      rw [resultIdx_eq idx h hidx k' hh] at hk'
      have e := Option.some.inj hk'
      funext a
      apply Fin.ext
      match a with
      | ⟨0, _⟩ => exact (congrArg (fun i : S8x4096x4096.Idx => (i 1).val) e)
      | ⟨1, _⟩ => exact (congrArg (fun i : S8x4096x4096.Idx => (i 2).val) e)
  · rw [if_neg hj]
    refine scatter_apply_of_forall_ne _ f x idx u j ?_
    intro k' hk'
    rw [resultIdx_eq idx h hidx k' hh] at hk'
    have e := Option.some.inj hk'
    exact hj (congrArg (fun i : S8x4096x4096.Idx => (i 0).val) e).symm

/-- The same at the extended reals, where the body is the sum. -/
theorem scatter_head_add_apply {w : Nat} (x : (⟨S8x4096x4096, .f32⟩ : BufTy).Contents (Elt Ideal)) (idx : IVec S1 w)
    (u : (⟨S4096x4096, .f32⟩ : BufTy).Contents (Elt Ideal)) (h : Nat) (hh : h < 8)
    (hidx : ∀ i, (idx i).toInt = (h : Int)) (j : S8x4096x4096.Idx) :
    Host.scatter scatter_S8x4096x4096_S1_S4096x4096_01_0_0_0 (FloatOps.addf (F := Ideal) (φ := .f32)) x idx u j
      = if (j 0).val = h then x j + u (tailIdx j) else x j :=
  scatter_head_apply _ x idx u h hh hidx j

/-! ## The six scatters and the scaling -/

section Chain

variable (x0 : (⟨S4096x1024, .f32⟩ : BufTy).Contents (Elt Ideal))
  (x1 x2 x3 : (⟨S4096x4096, .f32⟩ : BufTy).Contents (Elt Ideal))
  (x4 x5 : (⟨S1024x1024, .f32⟩ : BufTy).Contents (Elt Ideal)) (j : S8x4096x4096.Idx)

/-- Head 0 gains the first bias. -/
theorem scores_v39_apply :
    val_main_v39 (F := Ideal) x0 x1 x4 x5 j
      = if (j 0).val = 0 then val_main_v9 (F := Ideal) x0 x4 x5 j + val_main_v11 (F := Ideal) x1 (tailIdx j)
        else val_main_v9 (F := Ideal) x0 x4 x5 j := by
  unfold val_main_v39
  exact scatter_head_add_apply _ _ _ 0 (by decide)
    (fun i => by rw [val_main_v38_apply, val_main_c_apply]; rfl) j

/-- Head 1 gains the first bias. -/
theorem scores_v41_apply :
    val_main_v41 (F := Ideal) x0 x1 x4 x5 j
      = if (j 0).val = 1 then val_main_v39 (F := Ideal) x0 x1 x4 x5 j + val_main_v11 (F := Ideal) x1 (tailIdx j)
        else val_main_v39 (F := Ideal) x0 x1 x4 x5 j := by
  unfold val_main_v41
  exact scatter_head_add_apply _ _ _ 1 (by decide)
    (fun i => by rw [val_main_v40_apply, val_main_c_8_apply]; rfl) j

/-- Head 2 gains the second bias. -/
theorem scores_v43_apply :
    val_main_v43 (F := Ideal) x0 x1 x2 x4 x5 j
      = if (j 0).val = 2 then val_main_v41 (F := Ideal) x0 x1 x4 x5 j + val_main_v24 (F := Ideal) x2 (tailIdx j)
        else val_main_v41 (F := Ideal) x0 x1 x4 x5 j := by
  unfold val_main_v43
  exact scatter_head_add_apply _ _ _ 2 (by decide)
    (fun i => by rw [val_main_v42_apply, val_main_c_9_apply]; rfl) j

/-- Head 3 gains the second bias. -/
theorem scores_v45_apply :
    val_main_v45 (F := Ideal) x0 x1 x2 x4 x5 j
      = if (j 0).val = 3 then val_main_v43 (F := Ideal) x0 x1 x2 x4 x5 j + val_main_v24 (F := Ideal) x2 (tailIdx j)
        else val_main_v43 (F := Ideal) x0 x1 x2 x4 x5 j := by
  unfold val_main_v45
  exact scatter_head_add_apply _ _ _ 3 (by decide)
    (fun i => by rw [val_main_v44_apply, val_main_c_10_apply]; rfl) j

/-- Head 4 gains the third bias. -/
theorem scores_v47_apply :
    val_main_v47 (F := Ideal) x0 x1 x2 x3 x4 x5 j
      = if (j 0).val = 4 then val_main_v45 (F := Ideal) x0 x1 x2 x4 x5 j + val_main_v37 (F := Ideal) x3 (tailIdx j)
        else val_main_v45 (F := Ideal) x0 x1 x2 x4 x5 j := by
  unfold val_main_v47
  exact scatter_head_add_apply _ _ _ 4 (by decide)
    (fun i => by rw [val_main_v46_apply, val_main_c_11_apply]; rfl) j

/-- Head 5 gains the third bias. -/
theorem scores_v49_apply :
    val_main_v49 (F := Ideal) x0 x1 x2 x3 x4 x5 j
      = if (j 0).val = 5 then val_main_v47 (F := Ideal) x0 x1 x2 x3 x4 x5 j + val_main_v37 (F := Ideal) x3 (tailIdx j)
        else val_main_v47 (F := Ideal) x0 x1 x2 x3 x4 x5 j := by
  unfold val_main_v49
  exact scatter_head_add_apply _ _ _ 5 (by decide)
    (fun i => by rw [val_main_v48_apply, val_main_c_12_apply]; rfl) j

/-- The bias an element of the scores gains: heads 0 and 1 the first bias matrix, heads 2 and 3 the
    second, heads 4 and 5 the third, each at the element's row and column; heads 6 and 7 none. -/
def biasAt (x1 x2 x3 : (⟨S4096x4096, .f32⟩ : BufTy).Contents (Elt Ideal)) (j : S8x4096x4096.Idx) : EReal :=
  if (j 0).val < 2 then val_main_v11 (F := Ideal) x1 (tailIdx j)
  else if (j 0).val < 4 then val_main_v24 (F := Ideal) x2 (tailIdx j)
  else if (j 0).val < 6 then val_main_v37 (F := Ideal) x3 (tailIdx j)
  else 0

omit x0 x4 x5 in
theorem biasAt_of_lt_two (h : (j 0).val < 2) : biasAt x1 x2 x3 j = val_main_v11 (F := Ideal) x1 (tailIdx j) := by
  unfold biasAt; rw [if_pos h]

omit x0 x4 x5 in
theorem biasAt_of_lt_four (h2 : 2 ≤ (j 0).val) (h : (j 0).val < 4) :
    biasAt x1 x2 x3 j = val_main_v24 (F := Ideal) x2 (tailIdx j) := by
  unfold biasAt; rw [if_neg (by omega), if_pos h]

omit x0 x4 x5 in
theorem biasAt_of_lt_six (h4 : 4 ≤ (j 0).val) (h : (j 0).val < 6) :
    biasAt x1 x2 x3 j = val_main_v37 (F := Ideal) x3 (tailIdx j) := by
  unfold biasAt; rw [if_neg (by omega), if_neg (by omega), if_pos h]

omit x0 x4 x5 in
theorem biasAt_of_six_le (h : 6 ≤ (j 0).val) : biasAt x1 x2 x3 j = 0 := by
  unfold biasAt; rw [if_neg (by omega), if_neg (by omega), if_neg (by omega)]

/-- After the six scatters: the product of queries and keys plus the head's bias. -/
theorem scores_v49_eq :
    val_main_v49 (F := Ideal) x0 x1 x2 x3 x4 x5 j = val_main_v9 (F := Ideal) x0 x4 x5 j + biasAt x1 x2 x3 j := by
  rw [scores_v49_apply, scores_v47_apply, scores_v45_apply, scores_v43_apply, scores_v41_apply, scores_v39_apply]
  unfold biasAt
  have h8 : (j 0).val < 8 := (j 0).isLt
  generalize (j 0).val = a at h8 ⊢
  interval_cases a <;> simp

/-- The scores at an index: the product of queries and keys plus the head's bias, times the constant. -/
theorem scores_apply :
    val_main_v51 (F := Ideal) x0 x1 x2 x3 x4 x5 j
      = (val_main_v9 (F := Ideal) x0 x4 x5 j + biasAt x1 x2 x3 j) * Ideal.ofBits .f32 0x3F7F485A#32 := by
  rw [val_main_v51_apply, val_main_v50_apply, val_main_cst_13_apply, scores_v49_eq]
  rfl

/-- Heads 6 and 7 gain no bias. -/
theorem scores_apply_of_six_le (h : 6 ≤ (j 0).val) :
    val_main_v51 (F := Ideal) x0 x1 x2 x3 x4 x5 j
      = val_main_v9 (F := Ideal) x0 x4 x5 j * Ideal.ofBits .f32 0x3F7F485A#32 := by
  rw [scores_apply, biasAt_of_six_le x1 x2 x3 j h, add_zero]

end Chain

end Cert.ReferenceIdeal.Hand
-- ==== Proof.Bridge.AttnRef.lean ====
/-
  The reference's mean-of-scores and retention results, read index by index, are the retention-attention step of the
  specification at the reference's own projected queries, keys, values and biases — given the reference's scaled
  scores in closed form at an index (the hypothesis `hS`, proved where the six bias injections are read). The mean:
  the reference sums the eight heads' scores from zero and divides by eight, the specification adds them in order from
  zero and multiplies by an eighth; a quotient by the real 8 is the product with the real 1/8 on every extended real.
  The retention: the reference's contraction over all 4096 keys clamped at zero is the specification's sum over all keys.
-/
import proofs.«152551_j88132728914059_1_alg».proof.Proof.Gen.ReferenceIdeal.Read
import proofs.«152551_j88132728914059_1_alg».proof.Proof.KI.AttnSpec
import Idealize.ShloMosaic.Lib.ValueIdx
import Idealize.ShloMosaic.PureOps.Ideal.Laws

noncomputable section

namespace Cert.Bridge

open Cert.ReferenceIdeal Cert.ReferenceIdeal.Gen Cert.ReferenceIdeal.Read
open Idealize.ShloMosaic Idealize.ShloMosaic.ValueIdx

/-- The word of 8.0 denotes the real 8. -/
theorem ofBits_eight : Ideal.ofBits .f32 0x41000000#32 = ((8 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The word of +0.0 denotes 0. -/
theorem ofBits_zero : Ideal.ofBits .f32 0x00000000#32 = 0 := by
  simp [Ideal.ofBits, Ideal.ieee]

variable (x0 : (⟨S4096x1024, .f32⟩ : BufTy).Contents (Elt Ideal)) (x1 x2 x3 : (⟨S4096x4096, .f32⟩ : BufTy).Contents (Elt Ideal))
  (x4 x5 x6 : (⟨S1024x1024, .f32⟩ : BufTy).Contents (Elt Ideal))

/-- The reference's projected queries, keys, values and its three biases, as the specification's arrays. -/
abbrev Qr : AttnSpec.Arr3 := val_main_v2 (F := Ideal) x0 x4
abbrev Kr : AttnSpec.Arr3 := val_main_v5 (F := Ideal) x0 x5
abbrev Vr : AttnSpec.Arr3 := val_main_v8 (F := Ideal) x0 x6
abbrev Ar : AttnSpec.Arr2 := val_main_v11 (F := Ideal) x1
abbrev Dr : AttnSpec.Arr2 := val_main_v24 (F := Ideal) x2
abbrev Cr : AttnSpec.Arr2 := val_main_v37 (F := Ideal) x3

/-- The reference's scaled scores in closed form at every index. -/
def ScoresAre : Prop := ∀ (h : Fin 8) (n m : Fin 4096),
  val_main_v51 (F := Ideal) x0 x1 x2 x3 x4 x5 (ix3 h n m) = AttnSpec.score (Qr x0 x4) (Kr x0 x5) (Ar x1) (Dr x2) (Cr x3) h n m

theorem mean_eq (hS : ScoresAre x0 x1 x2 x3 x4 x5) :
    (fun i : S4096x4096.Idx => AttnSpec.meanAt (Qr x0 x4) (Kr x0 x5) (Ar x1) (Dr x2) (Cr x3) (i 0) (i 1))
      = val_main_v87 (F := Ideal) x0 x1 x2 x3 x4 x5 := by
  funext i
  obtain ⟨n, m, rfl⟩ : ∃ (n m : Fin 4096), i = ix2 n m := ⟨i 0, i 1, eq_ix2 i⟩
  rw [val_main_v87_apply, val_main_v85_apply, val_main_v86_apply, val_main_cst_19_apply, val_main_cst_20_apply]
  have e : ∀ k : Fin 8, idx_main_v85 (ix2 n m) k = ix3 k n m := fun k => funext fun a => Fin.ext (by
    match a with | ⟨0, _⟩ => rfl | ⟨1, _⟩ => rfl | ⟨2, _⟩ => rfl)
  simp only [e, Fin.sum_univ_eight, Ideal.hostDivf_def, Ideal.ofBits_def, ofBits_zero, ofBits_eight,
    Ideal.div_coe (by norm_num : (8 : ℝ) ≠ 0)]
  show AttnSpec.meanAt _ _ _ _ _ n m = _
  unfold AttnSpec.meanAt AttnSpec.eighth
  rw [ofBits_eighth, hS 0 n m, hS 1 n m, hS 2 n m, hS 3 n m, hS 4 n m, hS 5 n m, hS 6 n m, hS 7 n m]
  simp only [zero_add]

theorem ret_eq (hS : ScoresAre x0 x1 x2 x3 x4 x5) :
    (fun i : S8x4096x128.Idx => AttnSpec.retAt (Qr x0 x4) (Kr x0 x5) (Vr x0 x6) (Ar x1) (Dr x2) (Cr x3) (i 0) (i 1) (i 2))
      = val_main_v53 (F := Ideal) x0 x1 x2 x3 x4 x5 x6 := by
  funext i
  obtain ⟨h, n, d, rfl⟩ : ∃ (h : Fin 8) (n : Fin 4096) (d : Fin 128), i = ix3 h n d := ⟨i 0, i 1, i 2, eq_ix3 i⟩
  rw [val_main_v53_apply, val_main_v52_apply, val_main_call0_v0_apply, val_main_call0_cst_apply]
  have el : ∀ k : Fin 4096, lidx_main_v52 (ix3 h n d) k = ix3 h n k := fun k => funext fun a => Fin.ext (by
    match a with | ⟨0, _⟩ => rfl | ⟨1, _⟩ => rfl | ⟨2, _⟩ => rfl)
  have er : ∀ k : Fin 4096, ridx_main_v52 (ix3 h n d) k = ix3 h k d := fun k => funext fun a => Fin.ext (by
    match a with | ⟨0, _⟩ => rfl | ⟨1, _⟩ => rfl | ⟨2, _⟩ => rfl)
  simp only [el, er, Ideal.maximumf_def, Ideal.ofBits_def, ofBits_zero]
  show AttnSpec.retAt _ _ _ _ _ _ h n d = _
  rw [AttnSpec.retAt_eq_whole]
  unfold AttnSpec.retAtWhole
  refine congrArg (max · 0) (Finset.sum_congr rfl fun k _ => ?_)
  rw [hS h n k]

end Cert.Bridge

end
-- ==== Proof.Ref.ScoresSpec.lean ====
/- The reference's scaled scores are the specification's scores at the reference's own projected queries,
   keys and biases. At the index (h, n, m) the reference holds the product of the queries and the keys plus
   the head's bias, times the constant; the product is the inner product of the query's row n and the key's
   row m in head h, and the bias is read at (n, m): the first bias matrix in heads 0 and 1, the second in
   heads 2 and 3, the third in heads 4 and 5, none in heads 6 and 7. -/
import proofs.«152551_j88132728914059_1_alg».proof.Proof.Ref.Scores
import proofs.«152551_j88132728914059_1_alg».proof.Proof.Bridge.AttnRef

noncomputable section

namespace Cert.Bridge

open Cert.ReferenceIdeal Cert.ReferenceIdeal.Gen Cert.ReferenceIdeal.Read Cert.ReferenceIdeal.Hand
open Idealize.ShloMosaic Idealize.ShloMosaic.ValueIdx

variable (x0 : (⟨S4096x1024, .f32⟩ : BufTy).Contents (Elt Ideal)) (x1 x2 x3 : (⟨S4096x4096, .f32⟩ : BufTy).Contents (Elt Ideal))
  (x4 x5 : (⟨S1024x1024, .f32⟩ : BufTy).Contents (Elt Ideal))

/-- The product of the queries and the keys at (h, n, m) is the inner product of row n of the queries and
    row m of the keys in head h. -/
theorem qk_eq (h : Fin 8) (n m : Fin 4096) :
    val_main_v9 (F := Ideal) x0 x4 x5 (ix3 h n m) = AttnSpec.qk (Qr x0 x4) (Kr x0 x5) h n m := by
  rw [val_main_v9_apply]
  have el : ∀ k : Fin 128, lidx_main_v9 (ix3 h n m) k = ix3 h n k := fun k => funext fun a => Fin.ext (by
    match a with | ⟨0, _⟩ => rfl | ⟨1, _⟩ => rfl | ⟨2, _⟩ => rfl)
  have er : ∀ k : Fin 128, ridx_main_v9 (ix3 h n m) k = ix3 h m k := fun k => funext fun a => Fin.ext (by
    match a with | ⟨0, _⟩ => rfl | ⟨1, _⟩ => rfl | ⟨2, _⟩ => rfl)
  simp only [el, er]
  rfl

/-- The bias of the element (h, n, m) is read at (n, m). -/
theorem tailIdx_ix3 (h : Fin 8) (n m : Fin 4096) : tailIdx (ix3 h n m) = ix2 n m :=
  funext fun a => Fin.ext (by match a with | ⟨0, _⟩ => rfl | ⟨1, _⟩ => rfl)

/-- The reference's scaled scores in closed form at every index. -/
theorem scores_are : ScoresAre x0 x1 x2 x3 x4 x5 := by
  intro h n m
  rw [scores_apply, qk_eq]
  unfold AttnSpec.score AttnSpec.gam
  by_cases c2 : h.val < 2
  · rw [if_pos c2, biasAt_of_lt_two x1 x2 x3 (ix3 h n m) c2, tailIdx_ix3]
  · by_cases c4 : h.val < 4
    · rw [if_neg c2, if_pos c4, biasAt_of_lt_four x1 x2 x3 (ix3 h n m) (Nat.le_of_not_lt c2) c4, tailIdx_ix3]
    · by_cases c6 : h.val < 6
      · rw [if_neg c2, if_neg c4, if_pos c6,
          biasAt_of_lt_six x1 x2 x3 (ix3 h n m) (Nat.le_of_not_lt c4) c6, tailIdx_ix3]
      · rw [if_neg c2, if_neg c4, if_neg c6, biasAt_of_six_le x1 x2 x3 (ix3 h n m) (Nat.le_of_not_lt c6), add_zero]

end Cert.Bridge

end
-- ==== Proof.Bridge.Final.lean ====
/-
  The two results of the kernel program at the ideal instance are the reference's two result terms of the same
  argument arrays: the boundary contents of the run are followed from the arguments to the results, every region's
  array at its value and every host stretch at the reference's own stage functions.
-/
import proofs.«152551_j88132728914059_1_alg».proof.Proof.KI.Chain
import proofs.«152551_j88132728914059_1_alg».proof.Proof.KI.Attn.Val3
import proofs.«152551_j88132728914059_1_alg».proof.Proof.KI.Attn.ValMean
import proofs.«152551_j88132728914059_1_alg».proof.Proof.Ref.ScoresSpec
import proofs.«152551_j88132728914059_1_alg».proof.Proof.Bridge.AttnRef

noncomputable section

namespace Cert.Bridge

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg) (c : Dev nD)

/-- After the attention region the retention array holds the reference's clamped contraction of the same arguments:
    the region leaves the specification's retention step of the arrays it found, those arrays are the reference's
    projected queries, keys, values and biases, and the specification at them is the reference's term. -/
theorem ret_is : W8 m ρ c (Proc.devRef .tc main_v44_0)
    = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 6).trans ?_
  rw [final3_6 (V7 m ρ) c]
  rw [show V7 m ρ c main_v9 = _ from K2_v9 m ρ c, show V7 m ρ c main_v12 = _ from K2_v12 m ρ c,
    show V7 m ρ c main_v15 = _ from K2_v15 m ρ c, show V7 m ρ c main_v17 = _ from K2_v17 m ρ c,
    show V7 m ρ c main_v30 = _ from K2_v30 m ρ c, show V7 m ρ c main_v43 = _ from K2_v43 m ρ c]
  exact ret_eq _ _ _ _ _ _ _ (scores_are _ _ _ _ _ _)

/-- The same for the mean of the scores. -/
theorem mean_is : W8 m ρ c (Proc.devRef .tc main_v44_1)
    = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 7).trans ?_
  rw [final3_7 (V7 m ρ) c]
  rw [show V7 m ρ c main_v9 = _ from K2_v9 m ρ c, show V7 m ρ c main_v12 = _ from K2_v12 m ρ c,
    show V7 m ρ c main_v17 = _ from K2_v17 m ρ c,
    show V7 m ρ c main_v30 = _ from K2_v30 m ρ c, show V7 m ρ c main_v43 = _ from K2_v43 m ρ c]
  exact mean_eq _ _ _ _ _ _ (scores_are _ _ _ _ _ _)

/-- The kernel program's first result is the reference's first result term of the same arguments. -/
theorem kernel_v77 : W11 m ρ c (Proc.devRef .tc main_v77)
    = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  K6_v77 m ρ c (ret_is m ρ c)

/-- The kernel program's second result is the reference's second result term of the same arguments. -/
theorem kernel_v44_1 : W11 m ρ c (Proc.devRef .tc main_v44_1)
    = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (K6_v44_1 m ρ c).trans (mean_is m ρ c)

end Cert.Bridge

end
-- ==== Proof.lean ====
/-
  The five claims about the retention-attention layer and its plain reference.

  The kernel program is five kernel regions (three projections, the attention step, the output projection) among six
  stretches of host operations. Its run is followed segment by segment with every buffer's contents named at each
  boundary (Proof/KI/Run.lean at the idealized program, Proof/K/Run.lean at the word-level one); the argument arrays are
  written nowhere, which is the two kernel frames. The reference is a straight line of host operations and its run is
  read back whole. The idealization rewrote nothing. At the ideal instance both programs end with the same two arrays:
  every projection is the plain matrix product, the attention step adds the same eight biased, scaled scores (times an
  eighth against a quotient by eight) and sums score times value over the same 4096 keys (in eight blocks of 512 against
  all at once), and the remaining host operations are the same on both sides.
-/
import proofs.«152551_j88132728914059_1_alg».proof.Defs
import proofs.«152551_j88132728914059_1_alg».proof.Proof.Gen.Kernel
import proofs.«152551_j88132728914059_1_alg».proof.Proof.Gen.KernelIdeal
import proofs.«152551_j88132728914059_1_alg».proof.Proof.Gen.ReferenceIdeal
import proofs.«152551_j88132728914059_1_alg».proof.Proof.Gen.Pre_finite_inputs
import proofs.«152551_j88132728914059_1_alg».proof.Proof.Gen.ReferenceIdeal.Run
import proofs.«152551_j88132728914059_1_alg».proof.Proof.Gen.ReferenceIdeal.Read
import proofs.«152551_j88132728914059_1_alg».proof.Proof.K.Run
import proofs.«152551_j88132728914059_1_alg».proof.Proof.KI.Run
import proofs.«152551_j88132728914059_1_alg».proof.Proof.Bridge.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both idealized programs end at the reference's two result terms of the shared arguments. -/
theorem algebraic : Cert.algebraic_KernelIdeal_ReferenceIdeal := by
  intro m ρ m' ρ' _ hagree
  refine ⟨fun c => Cert.KernelIdeal.Hand.W11 m ρ c (Proc.devRef .tc Cert.KernelIdeal.main_v77),
    fun c => Cert.KernelIdeal.Hand.W11 m ρ c (Proc.devRef .tc Cert.KernelIdeal.main_v44_1), ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v77 (by decide)),
      h c _ (Cert.KernelIdeal.Hand.mem_uc Cert.KernelIdeal.main_v44_1 (by decide)),
      (h c _ (Cert.KernelIdeal.Hand.mem_uc Cert.KernelIdeal.main_arg0 (by decide))).trans (Cert.KernelIdeal.Hand.W11_main_arg0 m ρ c),
      (h c _ (Cert.KernelIdeal.Hand.mem_uc Cert.KernelIdeal.main_arg1 (by decide))).trans (Cert.KernelIdeal.Hand.W11_main_arg1 m ρ c),
      (h c _ (Cert.KernelIdeal.Hand.mem_uc Cert.KernelIdeal.main_arg2 (by decide))).trans (Cert.KernelIdeal.Hand.W11_main_arg2 m ρ c),
      (h c _ (Cert.KernelIdeal.Hand.mem_uc Cert.KernelIdeal.main_arg3 (by decide))).trans (Cert.KernelIdeal.Hand.W11_main_arg3 m ρ c),
      (h c _ (Cert.KernelIdeal.Hand.mem_uc Cert.KernelIdeal.main_arg4 (by decide))).trans (Cert.KernelIdeal.Hand.W11_main_arg4 m ρ c),
      (h c _ (Cert.KernelIdeal.Hand.mem_uc Cert.KernelIdeal.main_arg5 (by decide))).trans (Cert.KernelIdeal.Hand.W11_main_arg5 m ρ c),
      (h c _ (Cert.KernelIdeal.Hand.mem_uc Cert.KernelIdeal.main_arg6 (by decide))).trans (Cert.KernelIdeal.Hand.W11_main_arg6 m ρ c),
      (h c _ (Cert.KernelIdeal.Hand.mem_uc Cert.KernelIdeal.main_arg7 (by decide))).trans (Cert.KernelIdeal.Hand.W11_main_arg7 m ρ c),
      (h c _ (Cert.KernelIdeal.Hand.mem_uc Cert.KernelIdeal.main_arg8 (by decide))).trans (Cert.KernelIdeal.Hand.W11_main_arg8 m ρ c),
      (h c _ (Cert.KernelIdeal.Hand.mem_uc Cert.KernelIdeal.main_arg9 (by decide))).trans (Cert.KernelIdeal.Hand.W11_main_arg9 m ρ c),
      (h c _ (Cert.KernelIdeal.Hand.mem_uc Cert.KernelIdeal.main_arg10 (by decide))).trans (Cert.KernelIdeal.Hand.W11_main_arg10 m ρ c)⟩
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v84_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
      exact (Cert.Bridge.kernel_v77 m ρ c).symm
    · rw [Cert.ReferenceIdeal.Read.val_main_v87_eq, (hagree c).1, (hagree c).2.1, (hagree c).2.2.1, (hagree c).2.2.2.1, (hagree c).2.2.2.2.1, (hagree c).2.2.2.2.2.1]
      exact (Cert.Bridge.kernel_v44_1 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
